-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S8192x2048 : Shape := ⟨2, ![8192, 2048]⟩
abbrev S8192 : Shape := ⟨1, ![8192]⟩
abbrev S2048x8192 : Shape := ⟨2, ![2048, 8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S2048x8192 : S_.BroadcastsInDim S2048x8192 (![] : Fin 0 → Fin S2048x8192.rank)
  reducesTo_S2048x8192_S_d0_1 : S2048x8192.ReducesTo [0, 1] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S8192x2048 .f32) (main_arg12 : FVec F S8192 .f32) (main_arg13 : FVec F S2048x8192 .f32) (main_arg14 : FVec F S2048 .f32) (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  let main_v54 : FVec F S8192x2048 .f32 := Host.absf main_arg11
  let main_cst_20 : FVec F S_ .f32 := constant S_ .f32 0x7F800000#32
  let main_v55 : FVec F S8192x2048 .f32 := broadcastInDim S8192x2048 ![] bcast_S_S8192x2048 main_cst_20
  let main_v56 : IVec S8192x2048 1 := cmpf .olt main_v54 main_v55
  let main_c_21 : IVec S_ 1 := constantI S_ 1 1#1
  let main_v57 : IVec S_ 1 := (fun x v => Host.reduce IntOp.andi x v reducesTo_S8192x2048_S_d0_1 h_S_) main_v56 main_c_21
  let main_v58 : IVec S_ 1 := andi main_v53 main_v57
  let main_v59 : FVec F S8192 .f32 := Host.absf main_arg12
  let main_cst_22 : FVec F S_ .f32 := constant S_ .f32 0x7F800000#32
  let main_v60 : FVec F S8192 .f32 := broadcastInDim S8192 ![] bcast_S_S8192 main_cst_22
  let main_v61 : IVec S8192 1 := cmpf .olt main_v59 main_v60
  let main_c_23 : IVec S_ 1 := constantI S_ 1 1#1
  let main_v62 : IVec S_ 1 := (fun x v => Host.reduce IntOp.andi x v reducesTo_S8192_S_d0 h_S_) main_v61 main_c_23
  let main_v63 : IVec S_ 1 := andi main_v58 main_v62
  let main_v64 : FVec F S2048x8192 .f32 := Host.absf main_arg13
  let main_cst_24 : FVec F S_ .f32 := constant S_ .f32 0x7F800000#32
  let main_v65 : FVec F S2048x8192 .f32 := broadcastInDim S2048x8192 ![] bcast_S_S2048x8192 main_cst_24
  let main_v66 : IVec S2048x8192 1 := cmpf .olt main_v64 main_v65
  let main_c_25 : IVec S_ 1 := constantI S_ 1 1#1
  let main_v67 : IVec S_ 1 := (fun x v => Host.reduce IntOp.andi x v reducesTo_S2048x8192_S_d0_1 h_S_) main_v66 main_c_25
  fn_part4 (F := F) main_arg14 main_v63 main_v67

def fn_part2 {F : FTy → Type} [FloatOps F] (main_arg7 : FVec F S2048x2048 .f32) (main_arg8 : FVec F S2048 .f32) (main_arg9 : FVec F S8192x2048 .f32) (main_arg10 : FVec F S8192 .f32) (main_arg11 : FVec F S8192x2048 .f32) (main_arg12 : FVec F S8192 .f32) (main_arg13 : FVec F S2048x8192 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S8192x2048 .f32 := Host.absf main_arg9
  let main_cst_16 : FVec F S_ .f32 := constant S_ .f32 0x7F800000#32
  let main_v45 : FVec F S8192x2048 .f32 := broadcastInDim S8192x2048 ![] bcast_S_S8192x2048 main_cst_16
  let main_v46 : IVec S8192x2048 1 := cmpf .olt main_v44 main_v45
  let main_c_17 : IVec S_ 1 := constantI S_ 1 1#1
  let main_v47 : IVec S_ 1 := (fun x v => Host.reduce IntOp.andi x v reducesTo_S8192x2048_S_d0_1 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_arg11 main_arg12 main_arg13 main_arg14 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S8192x2048 .f32) (main_arg10 : FVec F S8192 .f32) (main_arg11 : FVec F S8192x2048 .f32) (main_arg12 : FVec F S8192 .f32) (main_arg13 : FVec F S2048x8192 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S8192x2048 .f32) (main_arg10 : FVec F S8192 .f32) (main_arg11 : FVec F S8192x2048 .f32) (main_arg12 : FVec F S8192 .f32) (main_arg13 : FVec F S2048x8192 .f32) (main_arg14 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S8192x2048 : Shape := ⟨2, ![8192, 2048]⟩
abbrev S8192 : Shape := ⟨1, ![8192]⟩
abbrev S2048x8192 : Shape := ⟨2, ![2048, 8192]⟩
abbrev S_ : Shape := ⟨0, ![]⟩
abbrev S1x2048 : Shape := ⟨2, ![1, 2048]⟩
abbrev S1x8192 : Shape := ⟨2, ![1, 8192]⟩
abbrev S128x2048 : Shape := ⟨2, ![128, 2048]⟩
abbrev S512x2048 : Shape := ⟨2, ![512, 2048]⟩
abbrev S4096x8192 : Shape := ⟨2, ![4096, 8192]⟩
abbrev S512x1024 : Shape := ⟨2, ![512, 1024]⟩
abbrev S2048x1024 : Shape := ⟨2, ![2048, 1024]⟩

abbrev nBuf : Space → Nat
  | .hbm => 96
  | .vmem => 36
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S8192x2048, .f32⟩
  | .hbm, ⟨10, _⟩ => ⟨S8192, .f32⟩
  | .hbm, ⟨11, _⟩ => ⟨S8192x2048, .f32⟩
  | .hbm, ⟨12, _⟩ => ⟨S8192, .f32⟩
  | .hbm, ⟨13, _⟩ => ⟨S2048x8192, .f32⟩
  | .hbm, ⟨14, _⟩ => ⟨S2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .i1⟩
  | .hbm, ⟨19, _⟩ => ⟨S2048x2048, .f32⟩
  | .hbm, ⟨20, _⟩ => ⟨S_, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .bf16⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .i1⟩
  | .hbm, ⟨29, _⟩ => ⟨S2048x2048, .f32⟩
  | .hbm, ⟨30, _⟩ => ⟨S_, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x2048, .bf16⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .i1⟩
  | .hbm, ⟨39, _⟩ => ⟨S2048x2048, .f32⟩
  | .hbm, ⟨40, _⟩ => ⟨S_, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .bf16⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .i1⟩
  | .hbm, ⟨49, _⟩ => ⟨S2048x2048, .f32⟩
  | .hbm, ⟨50, _⟩ => ⟨S_, .f32⟩
  | .hbm, ⟨51, _⟩ => ⟨S_, .f32⟩
  | .hbm, ⟨52, _⟩ => ⟨S2048x2048, .f32⟩
  | .hbm, ⟨53, _⟩ => ⟨S2048x2048, .f32⟩
  | .hbm, ⟨54, _⟩ => ⟨S2048x2048, .bf16⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .i1⟩
  | .hbm, ⟨59, _⟩ => ⟨S8192x2048, .f32⟩
  | .hbm, ⟨60, _⟩ => ⟨S_, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .bf16⟩
  | .hbm, ⟨65, _⟩ => ⟨S8192x2048, .f32⟩
  | .hbm, ⟨66, _⟩ => ⟨S_, .f32⟩
  | .hbm, ⟨67, _⟩ => ⟨S8192x2048, .f32⟩
  | .hbm, ⟨68, _⟩ => ⟨S8192x2048, .i1⟩
  | .hbm, ⟨69, _⟩ => ⟨S8192x2048, .f32⟩
  | .hbm, ⟨70, _⟩ => ⟨S_, .f32⟩
  | .hbm, ⟨71, _⟩ => ⟨S_, .f32⟩
  | .hbm, ⟨72, _⟩ => ⟨S8192x2048, .f32⟩
  | .hbm, ⟨73, _⟩ => ⟨S8192x2048, .f32⟩
  | .hbm, ⟨74, _⟩ => ⟨S8192x2048, .bf16⟩
  | .hbm, ⟨75, _⟩ => ⟨S2048x8192, .f32⟩
  | .hbm, ⟨76, _⟩ => ⟨S_, .f32⟩
  | .hbm, ⟨77, _⟩ => ⟨S2048x8192, .f32⟩
  | .hbm, ⟨78, _⟩ => ⟨S2048x8192, .i1⟩
  | .hbm, ⟨79, _⟩ => ⟨S2048x8192, .f32⟩
  | .hbm, ⟨80, _⟩ => ⟨S_, .f32⟩
  | .hbm, ⟨81, _⟩ => ⟨S_, .f32⟩
  | .hbm, ⟨82, _⟩ => ⟨S2048x8192, .f32⟩
  | .hbm, ⟨83, _⟩ => ⟨S2048x8192, .f32⟩
  | .hbm, ⟨84, _⟩ => ⟨S2048x8192, .bf16⟩
  | .hbm, ⟨85, _⟩ => ⟨S1x2048, .f32⟩
  | .hbm, ⟨86, _⟩ => ⟨S1x2048, .f32⟩
  | .hbm, ⟨87, _⟩ => ⟨S1x2048, .f32⟩
  | .hbm, ⟨88, _⟩ => ⟨S1x2048, .f32⟩
  | .hbm, ⟨89, _⟩ => ⟨S1x8192, .f32⟩
  | .hbm, ⟨90, _⟩ => ⟨S1x8192, .f32⟩
  | .hbm, ⟨91, _⟩ => ⟨S1x2048, .f32⟩
  | .hbm, ⟨92, _⟩ => ⟨S4096x2048, .bf16⟩
  | .hbm, ⟨93, _⟩ => ⟨S4096x2048, .bf16⟩
  | .hbm, ⟨94, _⟩ => ⟨S4096x8192, .bf16⟩
  | .hbm, ⟨95, _⟩ => ⟨S4096x2048, .f32⟩
  | .local _ .vmem, ⟨0, _⟩ => ⟨S128x2048, .f32⟩
  | .local _ .vmem, ⟨1, _⟩ => ⟨S128x2048, .f32⟩
  | .local _ .vmem, ⟨2, _⟩ => ⟨S2048x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S128x2048, .bf16⟩
  | .local _ .vmem, ⟨9, _⟩ => ⟨S128x2048, .bf16⟩
  | .local _ .vmem, ⟨10, _⟩ => ⟨S512x2048, .bf16⟩
  | .local _ .vmem, ⟨11, _⟩ => ⟨S512x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .bf16⟩
  | .local _ .vmem, ⟨15, _⟩ => ⟨S512x2048, .bf16⟩
  | .local _ .vmem, ⟨16, _⟩ => ⟨S128x2048, .bf16⟩
  | .local _ .vmem, ⟨17, _⟩ => ⟨S128x2048, .bf16⟩
  | .local _ .vmem, ⟨18, _⟩ => ⟨S2048x2048, .bf16⟩
  | .local _ .vmem, ⟨19, _⟩ => ⟨S2048x2048, .bf16⟩
  | .local _ .vmem, ⟨20, _⟩ => ⟨S1x2048, .f32⟩
  | .local _ .vmem, ⟨21, _⟩ => ⟨S1x2048, .f32⟩
  | .local _ .vmem, ⟨22, _⟩ => ⟨S2048x2048, .bf16⟩
  | .local _ .vmem, ⟨23, _⟩ => ⟨S2048x2048, .bf16⟩
  | .local _ .vmem, ⟨24, _⟩ => ⟨S1x2048, .f32⟩
  | .local _ .vmem, ⟨25, _⟩ => ⟨S1x2048, .f32⟩
  | .local _ .vmem, ⟨26, _⟩ => ⟨S128x2048, .bf16⟩
  | .local _ .vmem, ⟨27, _⟩ => ⟨S128x2048, .bf16⟩
  | .local _ .vmem, ⟨28, _⟩ => ⟨S512x1024, .bf16⟩
  | .local _ .vmem, ⟨29, _⟩ => ⟨S512x1024, .bf16⟩
  | .local _ .vmem, ⟨30, _⟩ => ⟨S2048x1024, .bf16⟩
  | .local _ .vmem, ⟨31, _⟩ => ⟨S2048x1024, .bf16⟩
  | .local _ .vmem, ⟨32, _⟩ => ⟨S1x2048, .f32⟩
  | .local _ .vmem, ⟨33, _⟩ => ⟨S512x2048, .f32⟩
  | .local _ .vmem, ⟨34, _⟩ => ⟨S512x2048, .f32⟩
  | .local _ .vmem, ⟨35, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_3 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_4 : Ref sig .tc := ⟨.hbm, 40, rfl⟩
abbrev main_call2_v0 : Ref sig .tc := ⟨.hbm, 41, rfl⟩
abbrev main_call2_v1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_6 : Ref sig .tc := ⟨.hbm, 50, rfl⟩
abbrev main_call3_v0 : Ref sig .tc := ⟨.hbm, 51, rfl⟩
abbrev main_call3_v1 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_7 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_8 : Ref sig .tc := ⟨.hbm, 60, rfl⟩
abbrev main_call4_v0 : Ref sig .tc := ⟨.hbm, 61, rfl⟩
abbrev main_call4_v1 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_9 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_10 : Ref sig .tc := ⟨.hbm, 70, rfl⟩
abbrev main_call5_v0 : Ref sig .tc := ⟨.hbm, 71, rfl⟩
abbrev main_call5_v1 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_11 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_12 : Ref sig .tc := ⟨.hbm, 80, rfl⟩
abbrev main_call6_v0 : Ref sig .tc := ⟨.hbm, 81, rfl⟩
abbrev main_call6_v1 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem3_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S128x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S128x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  bcast_S_S2048x2048 : S_.BroadcastsInDim S2048x2048 (![] : Fin 0 → Fin S2048x2048.rank)
  bitsLt_bf16_f32 : FTy.bits .bf16 < FTy.bits .f32
  bcast_S_S8192x2048 : S_.BroadcastsInDim S8192x2048 (![] : Fin 0 → Fin S8192x2048.rank)
  bcast_S_S2048x8192 : S_.BroadcastsInDim S2048x8192 (![] : Fin 0 → Fin S2048x8192.rank)
  shapeCasts_S2048_S1x2048 : S2048.ShapeCasts S1x2048
  shapeCasts_S8192_S1x8192 : S8192.ShapeCasts S1x8192
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  packedbf16_S128x2048_S128x2048_0_0 : (Rect.unit (s := S128x2048) ![0, 0] S128x2048.size inb_S128x2048_S128x2048_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  shapeCasts_S128x2048_S128x2048 : S128x2048.ShapeCasts S128x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S128x2048_S2048x2048_S128x2048_1_1_0_0_n_n_wf : DotDims.WF S128x2048 S2048x2048 S128x2048 [1] [1] [0] [0] [] []
  dot_S512x2048_S2048x2048_S512x2048_1_1_0_0_n_n_wf : DotDims.WF S512x2048 S2048x2048 S512x2048 [1] [1] [0] [0] [] []
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S4096x2048.size a
  hwx0_7 : ∀ i : grid0.Coords, EltTy.bits .bf16 = 32 ∨ (Rect.block (s := S4096x2048) S128x2048.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .bf16 = 32 ∨ (Rect.block (s := S4096x2048) S512x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S4096x2048.size a
  hwx2_0 : ∀ i : grid2.Coords, EltTy.bits .bf16 = 32 ∨ (Rect.block (s := S4096x2048) S128x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S8192x2048.size a
  hwx2_1 : ∀ i : grid2.Coords, EltTy.bits .bf16 = 32 ∨ (Rect.block (s := S8192x2048) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x8192.size a
  hwx2_2 : ∀ i : grid2.Coords, EltTy.bits .f32 = 32 ∨ (Rect.block (s := S1x8192) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x2048.size a ≤ S8192x2048.size a
  hwx2_3 : ∀ i : grid2.Coords, EltTy.bits .bf16 = 32 ∨ (Rect.block (s := S8192x2048) S2048x2048.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x8192.size a
  hwx2_4 : ∀ i : grid2.Coords, EltTy.bits .f32 = 32 ∨ (Rect.block (s := S1x8192) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x2048.size a ≤ S4096x8192.size a
  hwx2_5 : ∀ i : grid2.Coords, EltTy.bits .bf16 = 32 ∨ (Rect.block (s := S4096x8192) S128x2048.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x8192.size a
  hwx3_0 : ∀ i : grid3.Coords, EltTy.bits .bf16 = 32 ∨ (Rect.block (s := S4096x8192) S512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S2048x8192.size a
  hwx3_1 : ∀ i : grid3.Coords, EltTy.bits .bf16 = 32 ∨ (Rect.block (s := S2048x8192) S2048x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x2048.size a ≤ S4096x2048.size a
  hwx3_3 : ∀ i : grid3.Coords, EltTy.bits .f32 = 32 ∨ (Rect.block (s := S4096x2048) S512x2048.size (cc3_transform_3 i) (hinb3_3 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v49) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S128x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S2048x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v51) S128x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2048x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S512x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S8192x2048 : Shape := ⟨2, ![8192, 2048]⟩
abbrev S8192 : Shape := ⟨1, ![8192]⟩
abbrev S2048x8192 : Shape := ⟨2, ![2048, 8192]⟩
abbrev S_ : Shape := ⟨0, ![]⟩
abbrev S1x2048 : Shape := ⟨2, ![1, 2048]⟩
abbrev S4096x8192 : Shape := ⟨2, ![4096, 8192]⟩
abbrev S1x8192 : Shape := ⟨2, ![1, 8192]⟩

abbrev nBuf : Space → Nat
  | .hbm => 165
  | .vmem => 0
  | .smem => 0
  | _ => 0

abbrev hbmTy0_0 (i : Nat) : BufTy := match i % 128 with
  | 0 => ⟨S4096x2048, .f32⟩
  | 1 => ⟨S2048x2048, .f32⟩
  | 2 => ⟨S2048, .f32⟩
  | 3 => ⟨S2048x2048, .f32⟩
  | 4 => ⟨S2048, .f32⟩
  | 5 => ⟨S2048x2048, .f32⟩
  | 6 => ⟨S2048, .f32⟩
  | 7 => ⟨S2048x2048, .f32⟩
  | 8 => ⟨S2048, .f32⟩
  | 9 => ⟨S8192x2048, .f32⟩
  | 10 => ⟨S8192, .f32⟩
  | 11 => ⟨S8192x2048, .f32⟩
  | 12 => ⟨S8192, .f32⟩
  | 13 => ⟨S2048x8192, .f32⟩
  | 14 => ⟨S2048, .f32⟩
  | 15 => ⟨S_, .f32⟩
  | 16 => ⟨S4096x2048, .f32⟩
  | 17 => ⟨S2048x2048, .f32⟩
  | 18 => ⟨S_, .f32⟩
  | 19 => ⟨S2048x2048, .f32⟩
  | 20 => ⟨S2048x2048, .i1⟩
  | 21 => ⟨S2048x2048, .f32⟩
  | 22 => ⟨S_, .f32⟩
  | 23 => ⟨S_, .f32⟩
  | 24 => ⟨S2048x2048, .f32⟩
  | 25 => ⟨S2048x2048, .f32⟩
  | 26 => ⟨S2048x2048, .f32⟩
  | 27 => ⟨S4096x2048, .f32⟩
  | 28 => ⟨S1x2048, .f32⟩
  | 29 => ⟨S4096x2048, .f32⟩
  | 30 => ⟨S4096x2048, .f32⟩
  | 31 => ⟨S4096x2048, .f32⟩
  | 32 => ⟨S4096x2048, .f32⟩
  | 33 => ⟨S_, .f32⟩
  | 34 => ⟨S4096x2048, .f32⟩
  | 35 => ⟨S4096x2048, .f32⟩
  | 36 => ⟨S_, .f32⟩
  | 37 => ⟨S4096x2048, .f32⟩
  | 38 => ⟨S4096x2048, .f32⟩
  | 39 => ⟨S2048x2048, .f32⟩
  | 40 => ⟨S_, .f32⟩
  | 41 => ⟨S2048x2048, .f32⟩
  | 42 => ⟨S2048x2048, .i1⟩
  | 43 => ⟨S2048x2048, .f32⟩
  | 44 => ⟨S_, .f32⟩
  | 45 => ⟨S_, .f32⟩
  | 46 => ⟨S2048x2048, .f32⟩
  | 47 => ⟨S2048x2048, .f32⟩
  | 48 => ⟨S2048x2048, .f32⟩
  | 49 => ⟨S4096x2048, .f32⟩
  | 50 => ⟨S1x2048, .f32⟩
  | 51 => ⟨S4096x2048, .f32⟩
  | 52 => ⟨S4096x2048, .f32⟩
  | 53 => ⟨S4096x2048, .f32⟩
  | 54 => ⟨S4096x2048, .f32⟩
  | 55 => ⟨S_, .f32⟩
  | 56 => ⟨S4096x2048, .f32⟩
  | 57 => ⟨S4096x2048, .f32⟩
  | 58 => ⟨S_, .f32⟩
  | 59 => ⟨S4096x2048, .f32⟩
  | 60 => ⟨S4096x2048, .f32⟩
  | 61 => ⟨S4096x2048, .f32⟩
  | 62 => ⟨S4096x2048, .f32⟩
  | 63 => ⟨S_, .f32⟩
  | 64 => ⟨S4096x2048, .f32⟩
  | 65 => ⟨S4096x2048, .f32⟩
  | 66 => ⟨S4096x2048, .f32⟩
  | 67 => ⟨S4096x2048, .f32⟩
  | 68 => ⟨S2048x2048, .f32⟩
  | 69 => ⟨S_, .f32⟩
  | 70 => ⟨S2048x2048, .f32⟩
  | 71 => ⟨S2048x2048, .i1⟩
  | 72 => ⟨S2048x2048, .f32⟩
  | 73 => ⟨S_, .f32⟩
  | 74 => ⟨S_, .f32⟩
  | 75 => ⟨S2048x2048, .f32⟩
  | 76 => ⟨S2048x2048, .f32⟩
  | 77 => ⟨S2048x2048, .f32⟩
  | 78 => ⟨S4096x2048, .f32⟩
  | 79 => ⟨S1x2048, .f32⟩
  | 80 => ⟨S4096x2048, .f32⟩
  | 81 => ⟨S4096x2048, .f32⟩
  | 82 => ⟨S4096x2048, .f32⟩
  | 83 => ⟨S4096x2048, .f32⟩
  | 84 => ⟨S_, .f32⟩
  | 85 => ⟨S4096x2048, .f32⟩
  | 86 => ⟨S4096x2048, .f32⟩
  | 87 => ⟨S_, .f32⟩
  | 88 => ⟨S4096x2048, .f32⟩
  | 89 => ⟨S4096x2048, .f32⟩
  | 90 => ⟨S4096x2048, .f32⟩
  | 91 => ⟨S2048x2048, .f32⟩
  | 92 => ⟨S_, .f32⟩
  | 93 => ⟨S2048x2048, .f32⟩
  | 94 => ⟨S2048x2048, .i1⟩
  | 95 => ⟨S2048x2048, .f32⟩
  | 96 => ⟨S_, .f32⟩
  | 97 => ⟨S_, .f32⟩
  | 98 => ⟨S2048x2048, .f32⟩
  | 99 => ⟨S2048x2048, .f32⟩
  | 100 => ⟨S2048x2048, .f32⟩
  | 101 => ⟨S4096x2048, .f32⟩
  | 102 => ⟨S1x2048, .f32⟩
  | 103 => ⟨S4096x2048, .f32⟩
  | 104 => ⟨S4096x2048, .f32⟩
  | 105 => ⟨S8192x2048, .f32⟩
  | 106 => ⟨S_, .f32⟩
  | 107 => ⟨S8192x2048, .f32⟩
  | 108 => ⟨S8192x2048, .i1⟩
  | 109 => ⟨S8192x2048, .f32⟩
  | 110 => ⟨S_, .f32⟩
  | 111 => ⟨S_, .f32⟩
  | 112 => ⟨S8192x2048, .f32⟩
  | 113 => ⟨S8192x2048, .f32⟩
  | 114 => ⟨S2048x8192, .f32⟩
  | 115 => ⟨S4096x8192, .f32⟩
  | 116 => ⟨S1x8192, .f32⟩
  | 117 => ⟨S4096x8192, .f32⟩
  | 118 => ⟨S4096x8192, .f32⟩
  | 119 => ⟨S4096x8192, .f32⟩
  | 120 => ⟨S4096x8192, .f32⟩
  | 121 => ⟨S_, .f32⟩
  | 122 => ⟨S4096x8192, .f32⟩
  | 123 => ⟨S4096x8192, .f32⟩
  | 124 => ⟨S_, .f32⟩
  | 125 => ⟨S4096x8192, .f32⟩
  | 126 => ⟨S4096x8192, .f32⟩
  | 127 => ⟨S8192x2048, .f32⟩
  | _ => ⟨S4096x2048, .f32⟩

abbrev hbmTy0_1 (i : Nat) : BufTy := match i % 128 with
  | 0 => ⟨S_, .f32⟩
  | 1 => ⟨S8192x2048, .f32⟩
  | 2 => ⟨S8192x2048, .i1⟩
  | 3 => ⟨S8192x2048, .f32⟩
  | 4 => ⟨S_, .f32⟩
  | 5 => ⟨S_, .f32⟩
  | 6 => ⟨S8192x2048, .f32⟩
  | 7 => ⟨S8192x2048, .f32⟩
  | 8 => ⟨S2048x8192, .f32⟩
  | 9 => ⟨S4096x8192, .f32⟩
  | 10 => ⟨S1x8192, .f32⟩
  | 11 => ⟨S4096x8192, .f32⟩
  | 12 => ⟨S4096x8192, .f32⟩
  | 13 => ⟨S4096x8192, .f32⟩
  | 14 => ⟨S4096x8192, .f32⟩
  | 15 => ⟨S_, .f32⟩
  | 16 => ⟨S4096x8192, .f32⟩
  | 17 => ⟨S4096x8192, .f32⟩
  | 18 => ⟨S_, .f32⟩
  | 19 => ⟨S4096x8192, .f32⟩
  | 20 => ⟨S4096x8192, .f32⟩
  | 21 => ⟨S4096x8192, .f32⟩
  | 22 => ⟨S4096x8192, .f32⟩
  | 23 => ⟨S2048x8192, .f32⟩
  | 24 => ⟨S_, .f32⟩
  | 25 => ⟨S2048x8192, .f32⟩
  | 26 => ⟨S2048x8192, .i1⟩
  | 27 => ⟨S2048x8192, .f32⟩
  | 28 => ⟨S_, .f32⟩
  | 29 => ⟨S_, .f32⟩
  | 30 => ⟨S2048x8192, .f32⟩
  | 31 => ⟨S2048x8192, .f32⟩
  | 32 => ⟨S8192x2048, .f32⟩
  | 33 => ⟨S4096x2048, .f32⟩
  | 34 => ⟨S1x2048, .f32⟩
  | 35 => ⟨S4096x2048, .f32⟩
  | 36 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v27 : Ref sig .tc := ⟨.hbm, 61, rfl⟩
abbrev main_v28 : Ref sig .tc := ⟨.hbm, 62, rfl⟩
abbrev main_cst_6 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_8 : Ref sig .tc := ⟨.hbm, 73, rfl⟩
abbrev main_call3_v0 : Ref sig .tc := ⟨.hbm, 74, rfl⟩
abbrev main_call3_v1 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_9 : Ref sig .tc := ⟨.hbm, 84, rfl⟩
abbrev main_v45 : Ref sig .tc := ⟨.hbm, 85, rfl⟩
abbrev main_v46 : Ref sig .tc := ⟨.hbm, 86, rfl⟩
abbrev main_cst_10 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_11 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_12 : Ref sig .tc := ⟨.hbm, 96, rfl⟩
abbrev main_call4_v0 : Ref sig .tc := ⟨.hbm, 97, rfl⟩
abbrev main_call4_v1 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_13 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_14 : Ref sig .tc := ⟨.hbm, 110, rfl⟩
abbrev main_call5_v0 : Ref sig .tc := ⟨.hbm, 111, rfl⟩
abbrev main_call5_v1 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_15 : Ref sig .tc := ⟨.hbm, 121, rfl⟩
abbrev main_v72 : Ref sig .tc := ⟨.hbm, 122, rfl⟩
abbrev main_v73 : Ref sig .tc := ⟨.hbm, 123, rfl⟩
abbrev main_cst_16 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_17 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_18 : Ref sig .tc := ⟨.hbm, 132, rfl⟩
abbrev main_call6_v0 : Ref sig .tc := ⟨.hbm, 133, rfl⟩
abbrev main_call6_v1 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_call7_v0 : Ref sig .tc := ⟨.hbm, 141, rfl⟩
abbrev main_call7_v1 : Ref sig .tc := ⟨.hbm, 142, rfl⟩
abbrev main_call7_cst : Ref sig .tc := ⟨.hbm, 143, rfl⟩
abbrev main_call7_v2 : Ref sig .tc := ⟨.hbm, 144, rfl⟩
abbrev main_call7_v3 : Ref sig .tc := ⟨.hbm, 145, rfl⟩
abbrev main_call7_cst_0 : Ref sig .tc := ⟨.hbm, 146, rfl⟩
abbrev main_call7_v4 : Ref sig .tc := ⟨.hbm, 147, rfl⟩
abbrev main_call7_v5 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_cst_19 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_cst_20 : Ref sig .tc := ⟨.hbm, 156, rfl⟩
abbrev main_call8_v0 : Ref sig .tc := ⟨.hbm, 157, rfl⟩
abbrev main_call8_v1 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S_S2048x2048 : S_.BroadcastsInDim S2048x2048 (![] : Fin 0 → Fin S2048x2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S8192x2048 : S_.BroadcastsInDim S8192x2048 (![] : Fin 0 → Fin S8192x2048.rank)
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  bcast_S_S2048x8192 : S_.BroadcastsInDim S2048x8192 (![] : Fin 0 → Fin S2048x8192.rank)
  transposes_S2048x8192_S8192x2048_1_0 : S2048x8192.Transposes [1, 0] S8192x2048
  dot_S4096x2048_S2048x2048_S4096x2048_1_0_0_1_n_n_wf : DotDims.WF S4096x2048 S2048x2048 S4096x2048 [1] [0] [0] [1] [] []
  dot_S4096x2048_S2048x8192_S4096x8192_1_0_0_1_n_n_wf : DotDims.WF S4096x2048 S2048x8192 S4096x8192 [1] [0] [0] [1] [] []
  dot_S4096x8192_S8192x2048_S4096x2048_1_0_0_1_n_n_wf : DotDims.WF S4096x8192 S8192x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def dot_S4096x8192_S8192x2048_S4096x2048_1_0_0_1_n_n : DotDims S4096x8192 S8192x2048 S4096x2048 where
  lhsContracting := [1]
  rhsContracting := [0]
  lhsNonContracting := [0]
  rhsNonContracting := [1]
  lhsBatch := []
  rhsBatch := []
  wf := dot_S4096x8192_S8192x2048_S4096x2048_1_0_0_1_n_n_wf

class Facts : Prop extends Facts₀ where

variable [Facts]
-- ==== Proof.KB.R0.lean ====
/-
  The first pallas call (the gated recurrent step v = g · ((1 − f) · c) from a zero state), one grid point at a time: the body
  loads a 128-row block of x, the three quantised weights and their bias rows, and stores the block of v; stated over the arrays
  as the call finds them.
-/
import proofs.«145004_j89799176225622_2_alg».proof.Proof.Gen.Kernel.Launch
import proofs.«145004_j89799176225622_2_alg».proof.Proof.Gen.Kernel.Skeleton
import proofs.«145004_j89799176225622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the block was fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rw0_S128x2048 : Rect S128x2048 := Rect.unit (s := S128x2048) ![0, 0] S128x2048.size inb_S128x2048_S128x2048_0_0
abbrev rw0_S2048x2048 : Rect S2048x2048 := Rect.unit (s := S2048x2048) ![0, 0] S2048x2048.size inb_S2048x2048_S2048x2048_0_0
abbrev rw0_S1x2048 : Rect S1x2048 := Rect.unit (s := S1x2048) ![0, 0] S1x2048.size inb_S1x2048_S1x2048_0_0

/-- What the body leaves in the output window's buffer: its one whole-block store of the payload of the loaded input blocks. -/
def out0_7 (x0 : Vec F S128x2048 .f32) (x1 : Vec F S2048x2048 .bf16) (x2 : Vec F S1x2048 .f32) (x3 : Vec F S2048x2048 .bf16) (x4 : Vec F S1x2048 .f32) (x5 : Vec F S2048x2048 .bf16) (x6 : Vec F S1x2048 .f32) : Vec F S128x2048 .bf16 :=
  View.canon [⟨rw0_S128x2048, k0_pay1 (View.ld x0 rw0_S128x2048) (View.ld x1 rw0_S2048x2048) (View.ld x2 rw0_S1x2048) (View.ld x3 rw0_S2048x2048) (View.ld x4 rw0_S1x2048) (View.ld x5 rw0_S2048x2048) (View.ld x6 rw0_S1x2048)⟩]

theorem cover0_7 (p0 : Vec F S128x2048 .bf16) (y : S128x2048.Idx) :
    ∃ pc ∈ ([⟨rw0_S128x2048, p0⟩] : List (View.Piece (Elt F) S128x2048 .bf16)), y ∈ pc.1.set :=
  View.cover_of_tiled [⟨rw0_S128x2048, p0⟩] S128x2048.size (by rfl) y

set_option maxHeartbeats 4000000 in
/-- The body on whole staging memrefs: the inputs are read and kept, the output's buffer ends at `out0_7` of the inputs. -/
theorem sound_kernel0 (c : Dev nD) (E : Set ℕ) (i : grid0.Coords) (a0 : Memref sig .tc .vmem S128x2048 .f32) (ha0 : a0.IsWhole) (a1 : Memref sig .tc .vmem S2048x2048 .bf16) (ha1 : a1.IsWhole) (a2 : Memref sig .tc .vmem S1x2048 .f32) (ha2 : a2.IsWhole) (a3 : Memref sig .tc .vmem S2048x2048 .bf16) (ha3 : a3.IsWhole) (a4 : Memref sig .tc .vmem S1x2048 .f32) (ha4 : a4.IsWhole) (a5 : Memref sig .tc .vmem S2048x2048 .bf16) (ha5 : a5.IsWhole) (a6 : Memref sig .tc .vmem S1x2048 .f32) (ha6 : a6.IsWhole) (a7 : Memref sig .tc .vmem S128x2048 .bf16) (ha7 : a7.IsWhole)
    (x0 : Vec F S128x2048 .f32) (x1 : Vec F S2048x2048 .bf16) (x2 : Vec F S1x2048 .f32) (x3 : Vec F S2048x2048 .bf16) (x4 : Vec F S1x2048 .f32) (x5 : Vec F S2048x2048 .bf16) (x6 : Vec F S1x2048 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out0_7 x0 x1 x2 x3 x4 x5 x6)) -∗ K ⟨⟩))
      ⊢ wp frame (wpE (defs₀ (F := F)) Variants.none c none) E (cc0_kernel i a0 ha0 a1 ha1 a2 ha2 a3 ha3 a4 ha4 a5 ha5 a6 ha6 a7 ha7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The call's proof data on core `c`: the arrays as found; after the body each input buffer at its block and the output's at `out0_7`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any grid point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.R1.lean ====
/-
  The second pallas call (the output projection o = v·Woᵀ + bo), one grid point at a time: the body loads a 512-row block of v,
  the whole weight and the bias row, and stores the block of o; stated over the arrays as the call finds them.
-/
import proofs.«145004_j89799176225622_2_alg».proof.Proof.Gen.Kernel.Launch
import proofs.«145004_j89799176225622_2_alg».proof.Proof.Gen.Kernel.Skeleton
import proofs.«145004_j89799176225622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the block was fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the block was fetched there or kept. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the block was fetched there or kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rw1_S512x2048 : Rect S512x2048 := Rect.unit (s := S512x2048) ![0, 0] S512x2048.size inb_S512x2048_S512x2048_0_0
abbrev rw1_S2048x2048 : Rect S2048x2048 := Rect.unit (s := S2048x2048) ![0, 0] S2048x2048.size inb_S2048x2048_S2048x2048_0_0
abbrev rw1_S1x2048 : Rect S1x2048 := Rect.unit (s := S1x2048) ![0, 0] S1x2048.size inb_S1x2048_S1x2048_0_0

/-- What the body leaves in the output window's buffer: its one whole-block store of the payload of the loaded input blocks. -/
def out1_3 (x0 : Vec F S512x2048 .bf16) (x1 : Vec F S2048x2048 .bf16) (x2 : Vec F S1x2048 .f32) : Vec F S512x2048 .bf16 :=
  View.canon [⟨rw1_S512x2048, k1_pay1 (View.ld x0 rw1_S512x2048) (View.ld x1 rw1_S2048x2048) (View.ld x2 rw1_S1x2048)⟩]

theorem cover1_3 (p0 : Vec F S512x2048 .bf16) (y : S512x2048.Idx) :
    ∃ pc ∈ ([⟨rw1_S512x2048, p0⟩] : List (View.Piece (Elt F) S512x2048 .bf16)), y ∈ pc.1.set :=
  View.cover_of_tiled [⟨rw1_S512x2048, p0⟩] S512x2048.size (by rfl) y

set_option maxHeartbeats 4000000 in
/-- The body on whole staging memrefs: the inputs are read and kept, the output's buffer ends at `out1_3` of the inputs. -/
theorem sound_kernel1 (c : Dev nD) (E : Set ℕ) (i : grid1.Coords) (a0 : Memref sig .tc .vmem S512x2048 .bf16) (ha0 : a0.IsWhole) (a1 : Memref sig .tc .vmem S2048x2048 .bf16) (ha1 : a1.IsWhole) (a2 : Memref sig .tc .vmem S1x2048 .f32) (ha2 : a2.IsWhole) (a3 : Memref sig .tc .vmem S512x2048 .bf16) (ha3 : a3.IsWhole)
    (x0 : Vec F S512x2048 .bf16) (x1 : Vec F S2048x2048 .bf16) (x2 : Vec F S1x2048 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1_kernel i a0 ha0 a1 ha1 a2 ha2 a3 ha3) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The call's proof data on core `c`: the arrays as found; after the body each input buffer at its block and the output's at `out1_3`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.R2.lean ====
/-
  The third pallas call (the gated linear unit w = σ(o·Wgᵀ + bg) · silu(o·Wuᵀ + bu)), one grid point at a time: the body loads a
  128-row block of o, a 2048-row block of each of the two weights and the matching bias pieces, and stores a 128 × 2048 block
  of w; stated over the arrays as the call finds them.
-/
import proofs.«145004_j89799176225622_2_alg».proof.Proof.Gen.Kernel.Launch
import proofs.«145004_j89799176225622_2_alg».proof.Proof.Gen.Kernel.Skeleton
import proofs.«145004_j89799176225622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the block was fetched there or kept. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the block was fetched there or kept. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the block was fetched there or kept. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the block was fetched there or kept. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the block was fetched there or kept. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rw2_S128x2048 : Rect S128x2048 := Rect.unit (s := S128x2048) ![0, 0] S128x2048.size inb_S128x2048_S128x2048_0_0
abbrev rw2_S2048x2048 : Rect S2048x2048 := Rect.unit (s := S2048x2048) ![0, 0] S2048x2048.size inb_S2048x2048_S2048x2048_0_0
abbrev rw2_S1x2048 : Rect S1x2048 := Rect.unit (s := S1x2048) ![0, 0] S1x2048.size inb_S1x2048_S1x2048_0_0

/-- What the body leaves in the output window's buffer: its one whole-block store of the payload of the loaded input blocks. -/
def out2_5 (x0 : Vec F S128x2048 .bf16) (x1 : Vec F S2048x2048 .bf16) (x2 : Vec F S1x2048 .f32) (x3 : Vec F S2048x2048 .bf16) (x4 : Vec F S1x2048 .f32) : Vec F S128x2048 .bf16 :=
  View.canon [⟨rw2_S128x2048, k2_pay1 (View.ld x0 rw2_S128x2048) (View.ld x1 rw2_S2048x2048) (View.ld x2 rw2_S1x2048) (View.ld x3 rw2_S2048x2048) (View.ld x4 rw2_S1x2048)⟩]

theorem cover2_5 (p0 : Vec F S128x2048 .bf16) (y : S128x2048.Idx) :
    ∃ pc ∈ ([⟨rw2_S128x2048, p0⟩] : List (View.Piece (Elt F) S128x2048 .bf16)), y ∈ pc.1.set :=
  View.cover_of_tiled [⟨rw2_S128x2048, p0⟩] S128x2048.size (by rfl) y

set_option maxHeartbeats 4000000 in
/-- The body on whole staging memrefs: the inputs are read and kept, the output's buffer ends at `out2_5` of the inputs. -/
theorem sound_kernel2 (c : Dev nD) (E : Set ℕ) (i : grid2.Coords) (a0 : Memref sig .tc .vmem S128x2048 .bf16) (ha0 : a0.IsWhole) (a1 : Memref sig .tc .vmem S2048x2048 .bf16) (ha1 : a1.IsWhole) (a2 : Memref sig .tc .vmem S1x2048 .f32) (ha2 : a2.IsWhole) (a3 : Memref sig .tc .vmem S2048x2048 .bf16) (ha3 : a3.IsWhole) (a4 : Memref sig .tc .vmem S1x2048 .f32) (ha4 : a4.IsWhole) (a5 : Memref sig .tc .vmem S128x2048 .bf16) (ha5 : a5.IsWhole)
    (x0 : Vec F S128x2048 .bf16) (x1 : Vec F S2048x2048 .bf16) (x2 : Vec F S1x2048 .f32) (x3 : Vec F S2048x2048 .bf16) (x4 : Vec F S1x2048 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out2_5 x0 x1 x2 x3 x4)) -∗ K ⟨⟩))
      ⊢ wp frame (wpE (defs₀ (F := F)) Variants.none c none) E (cc2_kernel i a0 ha0 a1 ha1 a2 ha2 a3 ha3 a4 ha4 a5 ha5) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The call's proof data on core `c`: the arrays as found; after the body each input buffer at its block and the output's at `out2_5`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any grid point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.R3.lean ====
/-
  The fourth pallas call (the down projection out = w·Wpoᵀ + bpo, its 8192-long contraction cut in 8 pieces of 1024 summed in a
  scratch accumulator over the second grid axis), one grid point at a time, stated over the arrays as the call finds them: where
  the second grid coordinate is 0 the accumulator is zeroed; at every point the product of the loaded 512×1024 block of w and the
  2048×1024 block of the weight is added to it; where the coordinate is 7 the output's block is stored, the accumulator plus the
  bias row. The accumulator's contents are carried from point to point in the call's invariant.
-/
import proofs.«145004_j89799176225622_2_alg».proof.Proof.Gen.Kernel.Launch
import proofs.«145004_j89799176225622_2_alg».proof.Proof.Gen.Kernel.Skeleton
import proofs.«145004_j89799176225622_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the block was fetched there or kept. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the block was fetched there or kept. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the block was fetched there or kept. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions on the second grid coordinate -/

/-- The first conditional's test: the second grid coordinate is 0 (the accumulator is zeroed there). -/
abbrev cond3_0 (i : grid3.Coords) : Prop := (Scalar.cmpi .ne (Scalar.extui (Scalar.cmpi .eq (BitVec.ofNat 32 (i 1).val) 0#32)) 0#32) = 1#1
/-- It holds exactly at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)

/-- The second conditional's test: the second grid coordinate is 7 (the output block is stored there). -/
abbrev cond3_1 (i : grid3.Coords) : Prop := k3_cond2 i = 1#1
/-- It holds exactly at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The three input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Where the second coordinate is 0 the output window is idle: nothing is stored into it, -/
theorem idleAt3_3_A : ∀ t : Fin cfg3.N, cond3_0 (grid3.coords t) → ¬cond3_1 (grid3.coords t) → cfg3.idle 3 (grid3.coords t) = true := by decide +kernel
/-- and its block is not written back. -/
theorem noFlush3_3_A : ∀ t : Fin cfg3.N, cond3_0 (grid3.coords t) → ¬cond3_1 (grid3.coords t) → (cfg3.win 3).flush t = false := by decide +kernel
/-- The same where the second coordinate is neither 0 nor 7. -/
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- Where the second coordinate is 7 the output window is live: its block is stored. -/
theorem liveAt3_3_C : ∀ t : Fin cfg3.N, ¬cond3_0 (grid3.coords t) → cond3_1 (grid3.coords t) → cfg3.idle 3 (grid3.coords t) = false := by decide +kernel

/-! ## The memrefs the body is called on -/

/-- One staging buffer of the output window, through which its contents are stated. -/
abbrev VO3_3 : View sig .tc .vmem S512x2048 .f32 := (Memref.whole cc3_stg3_0 : Memref sig .tc .vmem S512x2048 .f32).view
/-- Each window's current staging memref at point `t`, and its wholeness. -/
abbrev ms3_0 (t : Fin cfg3.N) : Memref sig .tc .vmem S512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x2048 .f32 := win3_3.stage (cfg3.slots t 3)
abbrev hs3_3 (t : Fin cfg3.N) : (ms3_3 t).IsWhole := hstage3_3 ((cfg3.slots t 3).cast nbuf3_3)
/-- The accumulator: a whole scoped buffer of the call's own, passed beside the windows and carried from point to point. -/
abbrev scM3_0 : Memref sig .tc .vmem S512x2048 .f32 := Memref.whole cc3_scratch0
abbrev VS3_0 : View sig .tc .vmem S512x2048 .f32 := scM3_0.view

/-- The core's scoped buffers that are neither a staging buffer of this call nor its accumulator: carried unopened. -/
abbrev Rest3 (c : Dev nD) : sProp 𝕄 :=
  Pipeline.scopedRestBut (Ix := Unit) (Name := ℕ) (U := UR sig nD τ) (Lvl := ℕ) (Val := Elt F) spec3 c [cc3_scratch0]

/-- The call's invariant with the accumulator as a memref owned at some contents. -/
theorem PhiA3_eq (c : Dev nD) :
    (Pipeline.ΦA spec3 c : sProp 𝕄)
      = iprop(iprop(iprop((∃ d, owns (c : Thread nD τ) scM3_0 fullShare d)) ∗ Rest3 (F := F) c) ∗ (∃ r, prngReg c r)) := by
  unfold Pipeline.ΦA; rw [scopedRest3_split]; simp only [scM3_0, owns_whole]; try rfl

/-! ## The body, case by case -/

set_option maxHeartbeats 4000000 in
/-- The body where the second grid coordinate is 0: the accumulator is zeroed, then the product of the two loaded blocks is added
    to it; the output's buffer is not touched. The pieces the accumulator ends with are found by running the body. -/
noncomputable def kernelRun3_A (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x1024 .bf16) (x1 : Vec F S2048x1024 .bf16) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body where the second grid coordinate is neither 0 nor 7: the product of the two loaded blocks is added to the accumulator
    as the point before left it; the output's buffer is not touched. -/
noncomputable def kernelRun3_B (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x1024 .bf16) (x1 : Vec F S2048x1024 .bf16) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body where the second grid coordinate is 7: the product of the two loaded blocks is added to the accumulator as the point
    before left it, and the output's buffer is stored whole: the accumulator plus the bias row. -/
noncomputable def kernelRun3_C (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x1024 .bf16) (x1 : Vec F S2048x1024 .bf16) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves in the output's buffer and in the accumulator -/

/-- What this case leaves in the output's staging buffer: its pieces read back (where nothing is stored, a placeholder nothing consults). -/
def out3_A_3 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x1024 .bf16) (x1 : Vec F S2048x1024 .bf16) (x2 : Vec F S1x2048 .f32) : Vec F S512x2048 .f32 :=
  VO3_3.read (Elt F) (VO3_3.writes (Elt F) VO3_3.junk (kernelRun3_A c i arg2 harg2 arg3 harg3 arg4 harg4 arg5 harg5 arg6 harg6 hc0 hc1 x0 x1 x2).1)

/-- The case's pieces for the accumulator cover it. -/
theorem scover3_A_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x1024 .bf16) (x1 : Vec F S2048x1024 .bf16) (x2 : Vec F S1x2048 .f32) (y : S512x2048.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S512x2048.size (by sl_kernel_rfl) y

/-- What this case leaves in the accumulator: its pieces read back. -/
def sout3_A_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x1024 .bf16) (x1 : Vec F S2048x1024 .bf16) (x2 : Vec F S1x2048 .f32) : Vec F S512x2048 .f32 :=
  VS3_0.read (Elt F) (VS3_0.writes (Elt F) VS3_0.junk (kernelRun3_A c i arg2 harg2 arg3 harg3 arg4 harg4 arg5 harg5 arg6 harg6 hc0 hc1 x0 x1 x2).2.1)

/-- What this case leaves in the output's staging buffer: its pieces read back (where nothing is stored, a placeholder nothing consults). -/
def out3_B_3 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x1024 .bf16) (x1 : Vec F S2048x1024 .bf16) (x2 : Vec F S1x2048 .f32) (xs0 : Vec F S512x2048 .f32) : Vec F S512x2048 .f32 :=
  VO3_3.read (Elt F) (VO3_3.writes (Elt F) VO3_3.junk (kernelRun3_B c i arg2 harg2 arg3 harg3 arg4 harg4 arg5 harg5 arg6 harg6 hc0 hc1 x0 x1 x2 xs0).1)

/-- The case's pieces for the accumulator cover it. -/
theorem scover3_B_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x1024 .bf16) (x1 : Vec F S2048x1024 .bf16) (x2 : Vec F S1x2048 .f32) (xs0 : Vec F S512x2048 .f32) (y : S512x2048.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S512x2048.size (by sl_kernel_rfl) y

/-- What this case leaves in the accumulator: its pieces read back. -/
def sout3_B_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x1024 .bf16) (x1 : Vec F S2048x1024 .bf16) (x2 : Vec F S1x2048 .f32) (xs0 : Vec F S512x2048 .f32) : Vec F S512x2048 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Where the second coordinate is 7 the pieces stored into the output's buffer cover it. -/
theorem cover3_C_3 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x1024 .bf16) (x1 : Vec F S2048x1024 .bf16) (x2 : Vec F S1x2048 .f32) (xs0 : Vec F S512x2048 .f32) (y : S512x2048.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S512x2048.size (by sl_kernel_rfl) y

/-- What this case leaves in the output's staging buffer: its pieces read back (where nothing is stored, a placeholder nothing consults). -/
def out3_C_3 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x1024 .bf16) (x1 : Vec F S2048x1024 .bf16) (x2 : Vec F S1x2048 .f32) (xs0 : Vec F S512x2048 .f32) : Vec F S512x2048 .f32 :=
  VO3_3.read (Elt F) (VO3_3.writes (Elt F) VO3_3.junk (kernelRun3_C c i arg2 harg2 arg3 harg3 arg4 harg4 arg5 harg5 arg6 harg6 hc0 hc1 x0 x1 x2 xs0).1)

/-- The case's pieces for the accumulator cover it. -/
theorem scover3_C_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x1024 .bf16) (x1 : Vec F S2048x1024 .bf16) (x2 : Vec F S1x2048 .f32) (xs0 : Vec F S512x2048 .f32) (y : S512x2048.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S512x2048.size (by sl_kernel_rfl) y

/-- What this case leaves in the accumulator: its pieces read back. -/
def sout3_C_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x1024 .bf16) (x1 : Vec F S2048x1024 .bf16) (x2 : Vec F S1x2048 .f32) (xs0 : Vec F S512x2048 .f32) : Vec F S512x2048 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a pair: the output's
    buffer, then the accumulator): the case of the point's second coordinate, run at the point's memrefs and input blocks, over what
    the point before left in the accumulator. -/
def outsAt3 (c : Dev nD) : (n : ℕ) → n < cfg3.N → Vec F S512x2048 .f32 × Vec F S512x2048 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point whose second coordinate is 0. -/
theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point whose second coordinate is neither 0 nor 7: over what the point before left. -/
theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point whose second coordinate is 7: over what the point before left. -/
theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the launch's (the accumulator at anything); afterwards the
    accumulator at what the point before left in it, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Rest3 (F := F) c) ∗ (∃ r, prngReg c r)) := by
  cases n with
  | zero => exact absurd rfl hz
  | succ n => rfl

/-! ## The call's proof data -/

/-- The call's proof data on core `c`: the arrays as found; after the body at point `t` each input's buffer at its block and the
    output's at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) : (dat3 V c).owed = fun _ => 0 := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the point's second coordinate says which case it is in; the
    invariant hands the body the accumulator at what the point before left (at anything at the first point) and takes it back at
    this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    · -- the second coordinate is 0
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    · -- the second coordinate is 7
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    · -- the second coordinate is neither 0 nor 7
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 64 := N_3; omega)

end Cert.Kernel.Fr

end
-- ==== Proof.KB.Run.lean ====
/-
  The whole program as a run: fifteen stretches of host operations (the weights' quantisation, the biases' reshapes), then the four
  pallas calls one after the other. The buffer contents are followed boundary by boundary: after the host stretches every unscoped
  buffer holds the host operations' fold of the launch memory; each call leaves its windows' arrays at what its write-backs make of
  them and every other buffer as it found it. Every weakly fair execution terminates with every unscoped buffer at the last
  boundary's contents; the arguments are written by nothing, so they end as launched.
-/
import proofs.«145004_j89799176225622_2_alg».proof.Proof.KB.R0
import proofs.«145004_j89799176225622_2_alg».proof.Proof.KB.R1
import proofs.«145004_j89799176225622_2_alg».proof.Proof.KB.R2
import proofs.«145004_j89799176225622_2_alg».proof.Proof.KB.R3
import proofs.«145004_j89799176225622_2_alg».proof.Proof.Gen.Kernel.Regions
import Idealize.ShloMosaic.Lib.Pipeline.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The contents when call 0 is entered, read at the TensorCore's references. -/
abbrev VV15 : (c : Dev nD) → (b : Ref sig .tc) → Buf (Elt F) ((c : Thread nD τ).loc b) := fun c b => V15 m c b

/-- After call 0: its windows' arrays at what the write-backs leave, every other buffer as entered. -/
def W16 (c : Dev nD) : Valuation τ sig (Elt F) :=
  Pipeline.withArrays spec0 c (V15 m c) fun w => (dat0 (VV15 m) c).arrAt w cfg0.N
theorem W16_arr (c : Dev nD) (w : Fin cfg0.W) :
    W16 m c (Proc.devRef .tc (Pipeline.arrRef spec0 w)) = (dat0 (VV15 m) c).arrAt w cfg0.N := by
  unfold W16; exact Pipeline.withArrays_arr spec0 launch0.win.arr_inj c _ _ w
theorem W16_of_ne (c : Dev nD) (b : Ref sig .tc) (hb : ∀ w, Pipeline.arrRef spec0 w ≠ b) :
    W16 m c (Proc.devRef .tc b) = V15 m c (Proc.devRef .tc b) := by
  unfold W16; exact Pipeline.withArrays_of_ne spec0 c _ _ b hb
abbrev VV16 : (c : Dev nD) → (b : Ref sig .tc) → Buf (Elt F) ((c : Thread nD τ).loc b) := fun c b => W16 m c b
theorem hF0 (c : Dev nD) (w : Fin cfg0.W) : (dat0 (VV15 m) c).arrAt w cfg0.N = VV16 m c (Pipeline.arrRef spec0 w) :=
  (W16_arr m c w).symm
theorem hrest0 (c : Dev nD) : ∀ b, b ∉ Finset.univ.image (Pipeline.arrRef spec0) → VV16 m c b = VV15 m c b :=
  fun b hb => W16_of_ne m c b fun w e => hb (Finset.mem_image.mpr ⟨w, Finset.mem_univ _, e⟩)

/-- After call 1: its windows' arrays at what the write-backs leave, every other buffer as entered. -/
def W17 (c : Dev nD) : Valuation τ sig (Elt F) :=
  Pipeline.withArrays spec1 c (W16 m c) fun w => (dat1 (VV16 m) c).arrAt w cfg1.N
theorem W17_arr (c : Dev nD) (w : Fin cfg1.W) :
    W17 m c (Proc.devRef .tc (Pipeline.arrRef spec1 w)) = (dat1 (VV16 m) c).arrAt w cfg1.N := by
  unfold W17; exact Pipeline.withArrays_arr spec1 launch1.win.arr_inj c _ _ w
theorem W17_of_ne (c : Dev nD) (b : Ref sig .tc) (hb : ∀ w, Pipeline.arrRef spec1 w ≠ b) :
    W17 m c (Proc.devRef .tc b) = W16 m c (Proc.devRef .tc b) := by
  unfold W17; exact Pipeline.withArrays_of_ne spec1 c _ _ b hb
abbrev VV17 : (c : Dev nD) → (b : Ref sig .tc) → Buf (Elt F) ((c : Thread nD τ).loc b) := fun c b => W17 m c b
theorem hF1 (c : Dev nD) (w : Fin cfg1.W) : (dat1 (VV16 m) c).arrAt w cfg1.N = VV17 m c (Pipeline.arrRef spec1 w) :=
  (W17_arr m c w).symm
theorem hrest1 (c : Dev nD) : ∀ b, b ∉ Finset.univ.image (Pipeline.arrRef spec1) → VV17 m c b = VV16 m c b :=
  fun b hb => W17_of_ne m c b fun w e => hb (Finset.mem_image.mpr ⟨w, Finset.mem_univ _, e⟩)

/-- After call 2: its windows' arrays at what the write-backs leave, every other buffer as entered. -/
def W18 (c : Dev nD) : Valuation τ sig (Elt F) :=
  Pipeline.withArrays spec2 c (W17 m c) fun w => (dat2 (VV17 m) c).arrAt w cfg2.N
theorem W18_arr (c : Dev nD) (w : Fin cfg2.W) :
    W18 m c (Proc.devRef .tc (Pipeline.arrRef spec2 w)) = (dat2 (VV17 m) c).arrAt w cfg2.N := by
  unfold W18; exact Pipeline.withArrays_arr spec2 launch2.win.arr_inj c _ _ w
theorem W18_of_ne (c : Dev nD) (b : Ref sig .tc) (hb : ∀ w, Pipeline.arrRef spec2 w ≠ b) :
    W18 m c (Proc.devRef .tc b) = W17 m c (Proc.devRef .tc b) := by
  unfold W18; exact Pipeline.withArrays_of_ne spec2 c _ _ b hb
abbrev VV18 : (c : Dev nD) → (b : Ref sig .tc) → Buf (Elt F) ((c : Thread nD τ).loc b) := fun c b => W18 m c b
theorem hF2 (c : Dev nD) (w : Fin cfg2.W) : (dat2 (VV17 m) c).arrAt w cfg2.N = VV18 m c (Pipeline.arrRef spec2 w) :=
  (W18_arr m c w).symm
theorem hrest2 (c : Dev nD) : ∀ b, b ∉ Finset.univ.image (Pipeline.arrRef spec2) → VV18 m c b = VV17 m c b :=
  fun b hb => W18_of_ne m c b fun w e => hb (Finset.mem_image.mpr ⟨w, Finset.mem_univ _, e⟩)

/-- After call 3: its windows' arrays at what the write-backs leave, every other buffer as entered. -/
def W19 (c : Dev nD) : Valuation τ sig (Elt F) :=
  Pipeline.withArrays spec3 c (W18 m c) fun w => (dat3 (VV18 m) c).arrAt w cfg3.N
theorem W19_arr (c : Dev nD) (w : Fin cfg3.W) :
    W19 m c (Proc.devRef .tc (Pipeline.arrRef spec3 w)) = (dat3 (VV18 m) c).arrAt w cfg3.N := by
  unfold W19; exact Pipeline.withArrays_arr spec3 launch3.win.arr_inj c _ _ w
theorem W19_of_ne (c : Dev nD) (b : Ref sig .tc) (hb : ∀ w, Pipeline.arrRef spec3 w ≠ b) :
    W19 m c (Proc.devRef .tc b) = W18 m c (Proc.devRef .tc b) := by
  unfold W19; exact Pipeline.withArrays_of_ne spec3 c _ _ b hb
abbrev VV19 : (c : Dev nD) → (b : Ref sig .tc) → Buf (Elt F) ((c : Thread nD τ).loc b) := fun c b => W19 m c b
theorem hF3 (c : Dev nD) (w : Fin cfg3.W) : (dat3 (VV18 m) c).arrAt w cfg3.N = VV19 m c (Pipeline.arrRef spec3 w) :=
  (W19_arr m c w).symm
theorem hrest3 (c : Dev nD) : ∀ b, b ∉ Finset.univ.image (Pipeline.arrRef spec3) → VV19 m c b = VV18 m c b :=
  fun b hb => W19_of_ne m c b fun w e => hb (Finset.mem_image.mpr ⟨w, Finset.mem_univ _, e⟩)

/-! The arguments: no host operation and no call writes one. -/
theorem W19_main_arg0 (c : Dev nD) : W19 m c (Proc.devRef .tc main_arg0) = m ((c : Thread nD τ).loc main_arg0) :=
  (W19_of_ne m c main_arg0 (by decide)).trans <| (W18_of_ne m c main_arg0 (by decide)).trans <| (W17_of_ne m c main_arg0 (by decide)).trans <| ((W16_arr m c 0).trans (((dat0 (VV15 m) c).arrAt_in 0 rfl _).trans (A_eq0 (VV15 m) c 0))).trans <|
    (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem W19_main_arg1 (c : Dev nD) : W19 m c (Proc.devRef .tc main_arg1) = m ((c : Thread nD τ).loc main_arg1) :=
  (W19_of_ne m c main_arg1 (by decide)).trans <| (W18_of_ne m c main_arg1 (by decide)).trans <| (W17_of_ne m c main_arg1 (by decide)).trans <| (W16_of_ne m c main_arg1 (by decide)).trans <|
    (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
theorem W19_main_arg2 (c : Dev nD) : W19 m c (Proc.devRef .tc main_arg2) = m ((c : Thread nD τ).loc main_arg2) :=
  (W19_of_ne m c main_arg2 (by decide)).trans <| (W18_of_ne m c main_arg2 (by decide)).trans <| (W17_of_ne m c main_arg2 (by decide)).trans <| (W16_of_ne m c main_arg2 (by decide)).trans <|
    (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem W19_main_arg3 (c : Dev nD) : W19 m c (Proc.devRef .tc main_arg3) = m ((c : Thread nD τ).loc main_arg3) :=
  (W19_of_ne m c main_arg3 (by decide)).trans <| (W18_of_ne m c main_arg3 (by decide)).trans <| (W17_of_ne m c main_arg3 (by decide)).trans <| (W16_of_ne m c main_arg3 (by decide)).trans <|
    (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem W19_main_arg4 (c : Dev nD) : W19 m c (Proc.devRef .tc main_arg4) = m ((c : Thread nD τ).loc main_arg4) :=
  (W19_of_ne m c main_arg4 (by decide)).trans <| (W18_of_ne m c main_arg4 (by decide)).trans <| (W17_of_ne m c main_arg4 (by decide)).trans <| (W16_of_ne m c main_arg4 (by decide)).trans <|
    (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
theorem W19_main_arg5 (c : Dev nD) : W19 m c (Proc.devRef .tc main_arg5) = m ((c : Thread nD τ).loc main_arg5) :=
  (W19_of_ne m c main_arg5 (by decide)).trans <| (W18_of_ne m c main_arg5 (by decide)).trans <| (W17_of_ne m c main_arg5 (by decide)).trans <| (W16_of_ne m c main_arg5 (by decide)).trans <|
    (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem W19_main_arg6 (c : Dev nD) : W19 m c (Proc.devRef .tc main_arg6) = m ((c : Thread nD τ).loc main_arg6) :=
  (W19_of_ne m c main_arg6 (by decide)).trans <| (W18_of_ne m c main_arg6 (by decide)).trans <| (W17_of_ne m c main_arg6 (by decide)).trans <| (W16_of_ne m c main_arg6 (by decide)).trans <|
    (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
theorem W19_main_arg7 (c : Dev nD) : W19 m c (Proc.devRef .tc main_arg7) = m ((c : Thread nD τ).loc main_arg7) :=
  (W19_of_ne m c main_arg7 (by decide)).trans <| (W18_of_ne m c main_arg7 (by decide)).trans <| (W17_of_ne m c main_arg7 (by decide)).trans <| (W16_of_ne m c main_arg7 (by decide)).trans <|
    (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
theorem W19_main_arg8 (c : Dev nD) : W19 m c (Proc.devRef .tc main_arg8) = m ((c : Thread nD τ).loc main_arg8) :=
  (W19_of_ne m c main_arg8 (by decide)).trans <| (W18_of_ne m c main_arg8 (by decide)).trans <| (W17_of_ne m c main_arg8 (by decide)).trans <| (W16_of_ne m c main_arg8 (by decide)).trans <|
    (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))
theorem W19_main_arg9 (c : Dev nD) : W19 m c (Proc.devRef .tc main_arg9) = m ((c : Thread nD τ).loc main_arg9) :=
  (W19_of_ne m c main_arg9 (by decide)).trans <| (W18_of_ne m c main_arg9 (by decide)).trans <| (W17_of_ne m c main_arg9 (by decide)).trans <| (W16_of_ne m c main_arg9 (by decide)).trans <|
    (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))
theorem W19_main_arg10 (c : Dev nD) : W19 m c (Proc.devRef .tc main_arg10) = m ((c : Thread nD τ).loc main_arg10) :=
  (W19_of_ne m c main_arg10 (by decide)).trans <| (W18_of_ne m c main_arg10 (by decide)).trans <| (W17_of_ne m c main_arg10 (by decide)).trans <| (W16_of_ne m c main_arg10 (by decide)).trans <|
    (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide))
theorem W19_main_arg11 (c : Dev nD) : W19 m c (Proc.devRef .tc main_arg11) = m ((c : Thread nD τ).loc main_arg11) :=
  (W19_of_ne m c main_arg11 (by decide)).trans <| (W18_of_ne m c main_arg11 (by decide)).trans <| (W17_of_ne m c main_arg11 (by decide)).trans <| (W16_of_ne m c main_arg11 (by decide)).trans <|
    (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))
theorem W19_main_arg12 (c : Dev nD) : W19 m c (Proc.devRef .tc main_arg12) = m ((c : Thread nD τ).loc main_arg12) :=
  (W19_of_ne m c main_arg12 (by decide)).trans <| (W18_of_ne m c main_arg12 (by decide)).trans <| (W17_of_ne m c main_arg12 (by decide)).trans <| (W16_of_ne m c main_arg12 (by decide)).trans <|
    (V15_of m c main_arg12 (by decide)).trans <| (V14_of m c main_arg12 (by decide)).trans <| (V13_of m c main_arg12 (by decide)).trans <| (V12_of m c main_arg12 (by decide)).trans <| (V11_of m c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide))
theorem W19_main_arg13 (c : Dev nD) : W19 m c (Proc.devRef .tc main_arg13) = m ((c : Thread nD τ).loc main_arg13) :=
  (W19_of_ne m c main_arg13 (by decide)).trans <| (W18_of_ne m c main_arg13 (by decide)).trans <| (W17_of_ne m c main_arg13 (by decide)).trans <| (W16_of_ne m c main_arg13 (by decide)).trans <|
    (V15_of m c main_arg13 (by decide)).trans <| (V14_of m c main_arg13 (by decide)).trans <| (V13_of m c main_arg13 (by decide)).trans <| (V12_of m c main_arg13 (by decide)).trans <| (V11_of m c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide))
theorem W19_main_arg14 (c : Dev nD) : W19 m c (Proc.devRef .tc main_arg14) = m ((c : Thread nD τ).loc main_arg14) :=
  (W19_of_ne m c main_arg14 (by decide)).trans <| (W18_of_ne m c main_arg14 (by decide)).trans <| (W17_of_ne m c main_arg14 (by decide)).trans <| (W16_of_ne m c main_arg14 (by decide)).trans <|
    (V15_of m c main_arg14 (by decide)).trans <| (V14_of m c main_arg14 (by decide)).trans <| (V13_of m c main_arg14 (by decide)).trans <| (V12_of m c main_arg14 (by decide)).trans <| (V11_of m c main_arg14 (by decide)).trans <| (V10_of m c main_arg14 (by decide)).trans <| (V9_of m c main_arg14 (by decide)).trans <| (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide))

/-! The proof data of the four calls, each at its entry contents; the thread state between segments. -/

def pdatsW : (p : Fin 4) → (c : Dev nD) → Dat τ (Elt F) Unit ℕ (UR sig nD τ) ℕ (Pipeline.pin (pcfgs (F := F)) adm p) c
  | ⟨0, _⟩ => fun c => dat0 (VV15 m) c
  | ⟨1, _⟩ => fun c => dat1 (VV16 m) c
  | ⟨2, _⟩ => fun c => dat2 (VV17 m) c
  | ⟨3, _⟩ => fun c => dat3 (VV18 m) c
abbrev Vnone : Variants := Variants.none
abbrev L0 : GSem nD τ sig → Finset Unit := fun _ => ∅
abbrev lv0 : GSem nD τ sig → Unit → ℕ := fun _ _ => 0
/-- What rides beside the buffers: the generator register at some state, and nothing owed. -/
abbrev Rr (c : Dev nD) : sProp 𝕄 := iprop((∃ r, prngReg c r) ∗ ∃ W, owes (c : Thread nD τ) (0 : CellTallies nD τ sig Unit) W)
abbrev hsegW (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vnone L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnW (c : Dev nD) : sProp 𝕄 := iprop(StableHlo.held (c : Thread nD τ) (Pipeline.ucRefs τ sig) (W19 m c) ∗ ∃ r, prngReg c r)

set_option backward.isDefEq.respectTransparency.types false in
/-- Call 0 as a segment: its arrays taken out of the unscoped buffers at entry and put back at their exit contents. -/
def reg0 : Pipeline.RegionSeg (pcfgs (F := F)) adm (pdatsW m) () defs₀ Vnone L0 lv0 0 where
  win := launch0.win.to₀
  block_pos := launch0.block_pos
  stage_whole := launch0.stage_whole
  K := PEmpty
  osem k := k.elim
  ho := Pipeline.OwnSemFacts.none _
  hbody c := (body_obligation0 (VV15 m) c).loose
  hwaits := Pipeline.hwaits_of_owed_zero _ _ _ _ L0 lv0 0 fun _ _ => rfl
  pre c := iprop(StableHlo.held (c : Thread nD τ) (Pipeline.ucRefs τ sig) (V15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec0 c (VV15 m c)
  hentry c := by
    rw [Pipeline.ownSems0_none]
    have hsplit := Pipeline.arrays_of_unscopedBufs (p := 0) (pcfgs (F := F)) adm (pdatsW m) launch0.win launch0.arr_whole c
      ((pdatsW m 0 c).share_full fun _ => rfl) (VV15 m c) fun w => A_eq0 (VV15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsW m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsW m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsW m) ((pdatsW m 0 c).share_full fun _ => rfl)
      (VV15 m c) (VV16 m c) ((pdatsW m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: its arrays taken out of the unscoped buffers at entry and put back at their exit contents. -/
def reg1 : Pipeline.RegionSeg (pcfgs (F := F)) adm (pdatsW m) () defs₀ Vnone L0 lv0 1 where
  win := launch1.win.to₀
  block_pos := launch1.block_pos
  stage_whole := launch1.stage_whole
  K := PEmpty
  osem k := k.elim
  ho := Pipeline.OwnSemFacts.none _
  hbody c := (body_obligation1 (VV16 m) c).loose
  hwaits := Pipeline.hwaits_of_owed_zero _ _ _ _ L0 lv0 1 fun _ _ => rfl
  pre c := iprop(StableHlo.held (c : Thread nD τ) (Pipeline.ucRefs τ sig) (W16 m c) ∗ Rr c)
  post c := iprop(StableHlo.held (c : Thread nD τ) (Pipeline.ucRefs τ sig) (W17 m c) ∗ Rr c)
  X c := iprop(∃ r, prngReg c r)
  Y c := iprop(∃ r, prngReg c r)
  Z c := Pipeline.unscopedRest (Ix := Unit) (Name := ℕ) (U := UR sig nD τ) (Lvl := ℕ) spec1 c (VV16 m c)
  hentry c := by
    rw [Pipeline.ownSems0_none]
    have hsplit := Pipeline.arrays_of_unscopedBufs (p := 1) (pcfgs (F := F)) adm (pdatsW m) launch1.win launch1.arr_whole c
      ((pdatsW m 1 c).share_full fun _ => rfl) (VV16 m c) fun w => A_eq1 (VV16 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsW m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsW m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsW m) ((pdatsW m 1 c).share_full fun _ => rfl)
      (VV16 m c) (VV17 m c) ((pdatsW m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: its arrays taken out of the unscoped buffers at entry and put back at their exit contents. -/
def reg2 : Pipeline.RegionSeg (pcfgs (F := F)) adm (pdatsW m) () defs₀ Vnone L0 lv0 2 where
  win := launch2.win.to₀
  block_pos := launch2.block_pos
  stage_whole := launch2.stage_whole
  K := PEmpty
  osem k := k.elim
  ho := Pipeline.OwnSemFacts.none _
  hbody c := (body_obligation2 (VV17 m) c).loose
  hwaits := Pipeline.hwaits_of_owed_zero _ _ _ _ L0 lv0 2 fun _ _ => rfl
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec2 c (VV17 m c)
  hentry c := by
    rw [Pipeline.ownSems0_none]
    have hsplit := Pipeline.arrays_of_unscopedBufs (p := 2) (pcfgs (F := F)) adm (pdatsW m) launch2.win launch2.arr_whole c
      ((pdatsW m 2 c).share_full fun _ => rfl) (VV17 m c) fun w => A_eq2 (VV17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsW m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsW m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsW m) ((pdatsW m 2 c).share_full fun _ => rfl)
      (VV17 m c) (VV18 m c) ((pdatsW m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: its arrays taken out of the unscoped buffers at entry and put back at their exit contents. -/
def reg3 : Pipeline.RegionSeg (pcfgs (F := F)) adm (pdatsW m) () defs₀ Vnone L0 lv0 3 where
  win := launch3.win.to₀
  block_pos := launch3.block_pos
  stage_whole := launch3.stage_whole
  K := PEmpty
  osem k := k.elim
  ho := Pipeline.OwnSemFacts.none _
  hbody c := (body_obligation3 (VV18 m) c).loose
  hwaits := Pipeline.hwaits_of_owed_zero _ _ _ _ L0 lv0 3 fun _ _ => rfl
  pre c := iprop(StableHlo.held (c : Thread nD τ) (Pipeline.ucRefs τ sig) (W18 m c) ∗ Rr c)
  post c := iprop(TnW m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (VV18 m c)
  hentry c := by
    rw [Pipeline.ownSems0_none]
    have hsplit := Pipeline.arrays_of_unscopedBufs (p := 3) (pcfgs (F := F)) adm (pdatsW m) launch3.win launch3.arr_whole c
      ((pdatsW m 3 c).share_full fun _ => rfl) (VV18 m c) fun w => A_eq3 (VV18 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (VV18 m) c)
    unfold Pipeline.ΦA
    iintro ⟨Hp, -, Hr⟩
    isplitl [Hr]; · iexact Hr
    iexact Hp
  hout c := by
    rw [Pipeline.ownSems0_none]
    refine BIBase.Entails.trans (hout3 (VV18 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsW m) ((pdatsW m 3 c).share_full fun _ => rfl)
      (VV18 m c) (VV19 m c) ((pdatsW m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's nineteen segments in order. -/
abbrev wsegs : List (Pipeline.Seg (pcfgs (F := F)) adm (pdatsW m) () defs₀ Vnone L0 lv0) :=
  [ .host (hsegW hostOps0 hostOps0_sub hostOps0_fresh (V0 m)),
    .host (hsegW hostOps0_1 hostOps0_1_sub hostOps0_1_fresh (V1 m)),
    .host (hsegW hostOps0_2 hostOps0_2_sub hostOps0_2_fresh (V2 m)),
    .host (hsegW hostOps0_3 hostOps0_3_sub hostOps0_3_fresh (V3 m)),
    .host (hsegW hostOps0_4 hostOps0_4_sub hostOps0_4_fresh (V4 m)),
    .host (hsegW hostOps0_5 hostOps0_5_sub hostOps0_5_fresh (V5 m)),
    .host (hsegW hostOps0_6 hostOps0_6_sub hostOps0_6_fresh (V6 m)),
    .host (hsegW hostOps0_7 hostOps0_7_sub hostOps0_7_fresh (V7 m)),
    .host (hsegW hostOps0_8 hostOps0_8_sub hostOps0_8_fresh (V8 m)),
    .host (hsegW hostOps0_9 hostOps0_9_sub hostOps0_9_fresh (V9 m)),
    .host (hsegW hostOps0_10 hostOps0_10_sub hostOps0_10_fresh (V10 m)),
    .host (hsegW hostOps0_11 hostOps0_11_sub hostOps0_11_fresh (V11 m)),
    .host (hsegW hostOps0_12 hostOps0_12_sub hostOps0_12_fresh (V12 m)),
    .host (hsegW hostOps0_13 hostOps0_13_sub hostOps0_13_fresh (V13 m)),
    .host (hsegW hostOps0_14 hostOps0_14_sub hostOps0_14_fresh (V14 m)),
    .region (reg0 m), .region (reg1 m), .region (reg2 m), .region (reg3 m) ]

theorem main_run (c : Dev nD) : main (F := F) c = Pipeline.Seg.run (wsegs m) := by
  rw [main_chain c, Pipeline.Seg.run_eq_chain]
  rfl

set_option backward.isDefEq.respectTransparency.types false in
/-- Every weakly fair execution from memory `m` with zero counters terminates, nothing faulting, with every unscoped buffer of
    every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm (pdatsW m) () cellOf_inj emb₁ defs₀ Vnone L0 lv0 m ρ main (wsegs m)
    (fun c Q => by rw [main_run m c])
    (by simp only [wsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := TnW m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h c => h c)

/-- The arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W19_main_arg0 m c),
     (h c _ (mem_uc main_arg1 (by decide))).trans (W19_main_arg1 m c),
     (h c _ (mem_uc main_arg2 (by decide))).trans (W19_main_arg2 m c),
     (h c _ (mem_uc main_arg3 (by decide))).trans (W19_main_arg3 m c),
     (h c _ (mem_uc main_arg4 (by decide))).trans (W19_main_arg4 m c),
     (h c _ (mem_uc main_arg5 (by decide))).trans (W19_main_arg5 m c),
     (h c _ (mem_uc main_arg6 (by decide))).trans (W19_main_arg6 m c),
     (h c _ (mem_uc main_arg7 (by decide))).trans (W19_main_arg7 m c),
     (h c _ (mem_uc main_arg8 (by decide))).trans (W19_main_arg8 m c),
     (h c _ (mem_uc main_arg9 (by decide))).trans (W19_main_arg9 m c),
     (h c _ (mem_uc main_arg10 (by decide))).trans (W19_main_arg10 m c),
     (h c _ (mem_uc main_arg11 (by decide))).trans (W19_main_arg11 m c),
     (h c _ (mem_uc main_arg12 (by decide))).trans (W19_main_arg12 m c),
     (h c _ (mem_uc main_arg13 (by decide))).trans (W19_main_arg13 m c),
     (h c _ (mem_uc main_arg14 (by decide))).trans (W19_main_arg14 m c)⟩) (run_all m ρ)

end Cert.Kernel.Fr

end
-- ==== Proof.KI.R0.lean ====
/-
  The first pallas call (the gated recurrent step v = g · ((1 − f) · c) from a zero state), one grid point at a time: the body
  loads a 128-row block of x, the three quantised weights and their bias rows, and stores the block of v; stated over the arrays
  as the call finds them.
-/
import proofs.«145004_j89799176225622_2_alg».proof.Proof.Gen.KernelIdeal.Launch
import proofs.«145004_j89799176225622_2_alg».proof.Proof.Gen.KernelIdeal.Skeleton
import proofs.«145004_j89799176225622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the block was fetched there or kept. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the block was fetched there or kept. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev rw0_S128x2048 : Rect S128x2048 := Rect.unit (s := S128x2048) ![0, 0] S128x2048.size inb_S128x2048_S128x2048_0_0
abbrev rw0_S2048x2048 : Rect S2048x2048 := Rect.unit (s := S2048x2048) ![0, 0] S2048x2048.size inb_S2048x2048_S2048x2048_0_0
abbrev rw0_S1x2048 : Rect S1x2048 := Rect.unit (s := S1x2048) ![0, 0] S1x2048.size inb_S1x2048_S1x2048_0_0

/-- What the body leaves in the output window's buffer: its one whole-block store of the payload of the loaded input blocks. -/
def out0_7 (x0 : Vec F S128x2048 .f32) (x1 : Vec F S2048x2048 .bf16) (x2 : Vec F S1x2048 .f32) (x3 : Vec F S2048x2048 .bf16) (x4 : Vec F S1x2048 .f32) (x5 : Vec F S2048x2048 .bf16) (x6 : Vec F S1x2048 .f32) : Vec F S128x2048 .bf16 :=
  View.canon [⟨rw0_S128x2048, k0_pay1 (View.ld x0 rw0_S128x2048) (View.ld x1 rw0_S2048x2048) (View.ld x2 rw0_S1x2048) (View.ld x3 rw0_S2048x2048) (View.ld x4 rw0_S1x2048) (View.ld x5 rw0_S2048x2048) (View.ld x6 rw0_S1x2048)⟩]

theorem cover0_7 (p0 : Vec F S128x2048 .bf16) (y : S128x2048.Idx) :
    ∃ pc ∈ ([⟨rw0_S128x2048, p0⟩] : List (View.Piece (Elt F) S128x2048 .bf16)), y ∈ pc.1.set :=
  View.cover_of_tiled [⟨rw0_S128x2048, p0⟩] S128x2048.size (by rfl) y

set_option maxHeartbeats 4000000 in
/-- The body on whole staging memrefs: the inputs are read and kept, the output's buffer ends at `out0_7` of the inputs. -/
theorem sound_kernel0 (c : Dev nD) (E : Set ℕ) (i : grid0.Coords) (a0 : Memref sig .tc .vmem S128x2048 .f32) (ha0 : a0.IsWhole) (a1 : Memref sig .tc .vmem S2048x2048 .bf16) (ha1 : a1.IsWhole) (a2 : Memref sig .tc .vmem S1x2048 .f32) (ha2 : a2.IsWhole) (a3 : Memref sig .tc .vmem S2048x2048 .bf16) (ha3 : a3.IsWhole) (a4 : Memref sig .tc .vmem S1x2048 .f32) (ha4 : a4.IsWhole) (a5 : Memref sig .tc .vmem S2048x2048 .bf16) (ha5 : a5.IsWhole) (a6 : Memref sig .tc .vmem S1x2048 .f32) (ha6 : a6.IsWhole) (a7 : Memref sig .tc .vmem S128x2048 .bf16) (ha7 : a7.IsWhole)
    (x0 : Vec F S128x2048 .f32) (x1 : Vec F S2048x2048 .bf16) (x2 : Vec F S1x2048 .f32) (x3 : Vec F S2048x2048 .bf16) (x4 : Vec F S1x2048 .f32) (x5 : Vec F S2048x2048 .bf16) (x6 : Vec F S1x2048 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out0_7 x0 x1 x2 x3 x4 x5 x6)) -∗ K ⟨⟩))
      ⊢ wp frame (wpE (defs₀ (F := F)) Variants.none c none) E (cc0_kernel i a0 ha0 a1 ha1 a2 ha2 a3 ha3 a4 ha4 a5 ha5 a6 ha6 a7 ha7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The call's proof data on core `c`: the arrays as found; after the body each input buffer at its block and the output's at `out0_7`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any grid point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
/-
  The second pallas call (the output projection o = v·Woᵀ + bo), one grid point at a time: the body loads a 512-row block of v,
  the whole weight and the bias row, and stores the block of o; stated over the arrays as the call finds them.
-/
import proofs.«145004_j89799176225622_2_alg».proof.Proof.Gen.KernelIdeal.Launch
import proofs.«145004_j89799176225622_2_alg».proof.Proof.Gen.KernelIdeal.Skeleton
import proofs.«145004_j89799176225622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the block was fetched there or kept. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the block was fetched there or kept. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the block was fetched there or kept. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rw1_S512x2048 : Rect S512x2048 := Rect.unit (s := S512x2048) ![0, 0] S512x2048.size inb_S512x2048_S512x2048_0_0
abbrev rw1_S2048x2048 : Rect S2048x2048 := Rect.unit (s := S2048x2048) ![0, 0] S2048x2048.size inb_S2048x2048_S2048x2048_0_0
abbrev rw1_S1x2048 : Rect S1x2048 := Rect.unit (s := S1x2048) ![0, 0] S1x2048.size inb_S1x2048_S1x2048_0_0

/-- What the body leaves in the output window's buffer: its one whole-block store of the payload of the loaded input blocks. -/
def out1_3 (x0 : Vec F S512x2048 .bf16) (x1 : Vec F S2048x2048 .bf16) (x2 : Vec F S1x2048 .f32) : Vec F S512x2048 .bf16 :=
  View.canon [⟨rw1_S512x2048, k1_pay1 (View.ld x0 rw1_S512x2048) (View.ld x1 rw1_S2048x2048) (View.ld x2 rw1_S1x2048)⟩]

theorem cover1_3 (p0 : Vec F S512x2048 .bf16) (y : S512x2048.Idx) :
    ∃ pc ∈ ([⟨rw1_S512x2048, p0⟩] : List (View.Piece (Elt F) S512x2048 .bf16)), y ∈ pc.1.set :=
  View.cover_of_tiled [⟨rw1_S512x2048, p0⟩] S512x2048.size (by rfl) y

set_option maxHeartbeats 4000000 in
/-- The body on whole staging memrefs: the inputs are read and kept, the output's buffer ends at `out1_3` of the inputs. -/
theorem sound_kernel1 (c : Dev nD) (E : Set ℕ) (i : grid1.Coords) (a0 : Memref sig .tc .vmem S512x2048 .bf16) (ha0 : a0.IsWhole) (a1 : Memref sig .tc .vmem S2048x2048 .bf16) (ha1 : a1.IsWhole) (a2 : Memref sig .tc .vmem S1x2048 .f32) (ha2 : a2.IsWhole) (a3 : Memref sig .tc .vmem S512x2048 .bf16) (ha3 : a3.IsWhole)
    (x0 : Vec F S512x2048 .bf16) (x1 : Vec F S2048x2048 .bf16) (x2 : Vec F S1x2048 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) E (cc1_kernel i a0 ha0 a1 ha1 a2 ha2 a3 ha3) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The call's proof data on core `c`: the arrays as found; after the body each input buffer at its block and the output's at `out1_3`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.lean ====
/-
  The third pallas call (the gated linear unit w = σ(o·Wgᵀ + bg) · silu(o·Wuᵀ + bu)), one grid point at a time: the body loads a
  128-row block of o, a 2048-row block of each of the two weights and the matching bias pieces, and stores a 128 × 2048 block
  of w; stated over the arrays as the call finds them.
-/
import proofs.«145004_j89799176225622_2_alg».proof.Proof.Gen.KernelIdeal.Launch
import proofs.«145004_j89799176225622_2_alg».proof.Proof.Gen.KernelIdeal.Skeleton
import proofs.«145004_j89799176225622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the block was fetched there or kept. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the block was fetched there or kept. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the block was fetched there or kept. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the block was fetched there or kept. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the block was fetched there or kept. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rw2_S128x2048 : Rect S128x2048 := Rect.unit (s := S128x2048) ![0, 0] S128x2048.size inb_S128x2048_S128x2048_0_0
abbrev rw2_S2048x2048 : Rect S2048x2048 := Rect.unit (s := S2048x2048) ![0, 0] S2048x2048.size inb_S2048x2048_S2048x2048_0_0
abbrev rw2_S1x2048 : Rect S1x2048 := Rect.unit (s := S1x2048) ![0, 0] S1x2048.size inb_S1x2048_S1x2048_0_0

/-- What the body leaves in the output window's buffer: its one whole-block store of the payload of the loaded input blocks. -/
def out2_5 (x0 : Vec F S128x2048 .bf16) (x1 : Vec F S2048x2048 .bf16) (x2 : Vec F S1x2048 .f32) (x3 : Vec F S2048x2048 .bf16) (x4 : Vec F S1x2048 .f32) : Vec F S128x2048 .bf16 :=
  View.canon [⟨rw2_S128x2048, k2_pay1 (View.ld x0 rw2_S128x2048) (View.ld x1 rw2_S2048x2048) (View.ld x2 rw2_S1x2048) (View.ld x3 rw2_S2048x2048) (View.ld x4 rw2_S1x2048)⟩]

theorem cover2_5 (p0 : Vec F S128x2048 .bf16) (y : S128x2048.Idx) :
    ∃ pc ∈ ([⟨rw2_S128x2048, p0⟩] : List (View.Piece (Elt F) S128x2048 .bf16)), y ∈ pc.1.set :=
  View.cover_of_tiled [⟨rw2_S128x2048, p0⟩] S128x2048.size (by rfl) y

set_option maxHeartbeats 4000000 in
/-- The body on whole staging memrefs: the inputs are read and kept, the output's buffer ends at `out2_5` of the inputs. -/
theorem sound_kernel2 (c : Dev nD) (E : Set ℕ) (i : grid2.Coords) (a0 : Memref sig .tc .vmem S128x2048 .bf16) (ha0 : a0.IsWhole) (a1 : Memref sig .tc .vmem S2048x2048 .bf16) (ha1 : a1.IsWhole) (a2 : Memref sig .tc .vmem S1x2048 .f32) (ha2 : a2.IsWhole) (a3 : Memref sig .tc .vmem S2048x2048 .bf16) (ha3 : a3.IsWhole) (a4 : Memref sig .tc .vmem S1x2048 .f32) (ha4 : a4.IsWhole) (a5 : Memref sig .tc .vmem S128x2048 .bf16) (ha5 : a5.IsWhole)
    (x0 : Vec F S128x2048 .bf16) (x1 : Vec F S2048x2048 .bf16) (x2 : Vec F S1x2048 .f32) (x3 : Vec F S2048x2048 .bf16) (x4 : Vec F S1x2048 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out2_5 x0 x1 x2 x3 x4)) -∗ K ⟨⟩))
      ⊢ wp frame (wpE (defs₀ (F := F)) Variants.none c none) E (cc2_kernel i a0 ha0 a1 ha1 a2 ha2 a3 ha3 a4 ha4 a5 ha5) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The call's proof data on core `c`: the arrays as found; after the body each input buffer at its block and the output's at `out2_5`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any grid point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R3.lean ====
/-
  The fourth pallas call (the down projection out = w·Wpoᵀ + bpo, its 8192-long contraction cut in 8 pieces of 1024 summed in a
  scratch accumulator over the second grid axis), one grid point at a time, stated over the arrays as the call finds them: where
  the second grid coordinate is 0 the accumulator is zeroed; at every point the product of the loaded 512×1024 block of w and the
  2048×1024 block of the weight is added to it; where the coordinate is 7 the output's block is stored, the accumulator plus the
  bias row. The accumulator's contents are carried from point to point in the call's invariant.
-/
import proofs.«145004_j89799176225622_2_alg».proof.Proof.Gen.KernelIdeal.Launch
import proofs.«145004_j89799176225622_2_alg».proof.Proof.Gen.KernelIdeal.Skeleton
import proofs.«145004_j89799176225622_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the block was fetched there or kept. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the block was fetched there or kept. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the block was fetched there or kept. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions on the second grid coordinate -/

/-- The first conditional's test: the second grid coordinate is 0 (the accumulator is zeroed there). -/
abbrev cond3_0 (i : grid3.Coords) : Prop := (Scalar.cmpi .ne (Scalar.extui (Scalar.cmpi .eq (BitVec.ofNat 32 (i 1).val) 0#32)) 0#32) = 1#1
/-- It holds exactly at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)

/-- The second conditional's test: the second grid coordinate is 7 (the output block is stored there). -/
abbrev cond3_1 (i : grid3.Coords) : Prop := k3_cond2 i = 1#1
/-- It holds exactly at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The three input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Where the second coordinate is 0 the output window is idle: nothing is stored into it, -/
theorem idleAt3_3_A : ∀ t : Fin cfg3.N, cond3_0 (grid3.coords t) → ¬cond3_1 (grid3.coords t) → cfg3.idle 3 (grid3.coords t) = true := by decide +kernel
/-- and its block is not written back. -/
theorem noFlush3_3_A : ∀ t : Fin cfg3.N, cond3_0 (grid3.coords t) → ¬cond3_1 (grid3.coords t) → (cfg3.win 3).flush t = false := by decide +kernel
/-- The same where the second coordinate is neither 0 nor 7. -/
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- Where the second coordinate is 7 the output window is live: its block is stored. -/
theorem liveAt3_3_C : ∀ t : Fin cfg3.N, ¬cond3_0 (grid3.coords t) → cond3_1 (grid3.coords t) → cfg3.idle 3 (grid3.coords t) = false := by decide +kernel

/-! ## The memrefs the body is called on -/

/-- One staging buffer of the output window, through which its contents are stated. -/
abbrev VO3_3 : View sig .tc .vmem S512x2048 .f32 := (Memref.whole cc3_stg3_0 : Memref sig .tc .vmem S512x2048 .f32).view
/-- Each window's current staging memref at point `t`, and its wholeness. -/
abbrev ms3_0 (t : Fin cfg3.N) : Memref sig .tc .vmem S512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x2048 .f32 := win3_3.stage (cfg3.slots t 3)
abbrev hs3_3 (t : Fin cfg3.N) : (ms3_3 t).IsWhole := hstage3_3 ((cfg3.slots t 3).cast nbuf3_3)
/-- The accumulator: a whole scoped buffer of the call's own, passed beside the windows and carried from point to point. -/
abbrev scM3_0 : Memref sig .tc .vmem S512x2048 .f32 := Memref.whole cc3_scratch0
abbrev VS3_0 : View sig .tc .vmem S512x2048 .f32 := scM3_0.view

/-- The core's scoped buffers that are neither a staging buffer of this call nor its accumulator: carried unopened. -/
abbrev Rest3 (c : Dev nD) : sProp 𝕄 :=
  Pipeline.scopedRestBut (Ix := Unit) (Name := ℕ) (U := UR sig nD τ) (Lvl := ℕ) (Val := Elt F) spec3 c [cc3_scratch0]

/-- The call's invariant with the accumulator as a memref owned at some contents. -/
theorem PhiA3_eq (c : Dev nD) :
    (Pipeline.ΦA spec3 c : sProp 𝕄)
      = iprop(iprop(iprop((∃ d, owns (c : Thread nD τ) scM3_0 fullShare d)) ∗ Rest3 (F := F) c) ∗ (∃ r, prngReg c r)) := by
  unfold Pipeline.ΦA; rw [scopedRest3_split]; simp only [scM3_0, owns_whole]; try rfl

/-! ## The body, case by case -/

set_option maxHeartbeats 4000000 in
/-- The body where the second grid coordinate is 0: the accumulator is zeroed, then the product of the two loaded blocks is added
    to it; the output's buffer is not touched. The pieces the accumulator ends with are found by running the body. -/
noncomputable def kernelRun3_A (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x1024 .bf16) (x1 : Vec F S2048x1024 .bf16) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body where the second grid coordinate is neither 0 nor 7: the product of the two loaded blocks is added to the accumulator
    as the point before left it; the output's buffer is not touched. -/
noncomputable def kernelRun3_B (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x1024 .bf16) (x1 : Vec F S2048x1024 .bf16) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The body where the second grid coordinate is 7: the product of the two loaded blocks is added to the accumulator as the point
    before left it, and the output's buffer is stored whole: the accumulator plus the bias row. -/
noncomputable def kernelRun3_C (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x1024 .bf16) (x1 : Vec F S2048x1024 .bf16) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-! ## What each case leaves in the output's buffer and in the accumulator -/

/-- What this case leaves in the output's staging buffer: its pieces read back (where nothing is stored, a placeholder nothing consults). -/
def out3_A_3 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x1024 .bf16) (x1 : Vec F S2048x1024 .bf16) (x2 : Vec F S1x2048 .f32) : Vec F S512x2048 .f32 :=
  VO3_3.read (Elt F) (VO3_3.writes (Elt F) VO3_3.junk (kernelRun3_A c i arg2 harg2 arg3 harg3 arg4 harg4 arg5 harg5 arg6 harg6 hc0 hc1 x0 x1 x2).1)

/-- The case's pieces for the accumulator cover it. -/
theorem scover3_A_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x1024 .bf16) (x1 : Vec F S2048x1024 .bf16) (x2 : Vec F S1x2048 .f32) (y : S512x2048.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S512x2048.size (by sl_kernel_rfl) y

/-- What this case leaves in the accumulator: its pieces read back. -/
def sout3_A_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x1024 .bf16) (x1 : Vec F S2048x1024 .bf16) (x2 : Vec F S1x2048 .f32) : Vec F S512x2048 .f32 :=
  VS3_0.read (Elt F) (VS3_0.writes (Elt F) VS3_0.junk (kernelRun3_A c i arg2 harg2 arg3 harg3 arg4 harg4 arg5 harg5 arg6 harg6 hc0 hc1 x0 x1 x2).2.1)

/-- What this case leaves in the output's staging buffer: its pieces read back (where nothing is stored, a placeholder nothing consults). -/
def out3_B_3 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x1024 .bf16) (x1 : Vec F S2048x1024 .bf16) (x2 : Vec F S1x2048 .f32) (xs0 : Vec F S512x2048 .f32) : Vec F S512x2048 .f32 :=
  VO3_3.read (Elt F) (VO3_3.writes (Elt F) VO3_3.junk (kernelRun3_B c i arg2 harg2 arg3 harg3 arg4 harg4 arg5 harg5 arg6 harg6 hc0 hc1 x0 x1 x2 xs0).1)

/-- The case's pieces for the accumulator cover it. -/
theorem scover3_B_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x1024 .bf16) (x1 : Vec F S2048x1024 .bf16) (x2 : Vec F S1x2048 .f32) (xs0 : Vec F S512x2048 .f32) (y : S512x2048.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S512x2048.size (by sl_kernel_rfl) y

/-- What this case leaves in the accumulator: its pieces read back. -/
def sout3_B_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x1024 .bf16) (x1 : Vec F S2048x1024 .bf16) (x2 : Vec F S1x2048 .f32) (xs0 : Vec F S512x2048 .f32) : Vec F S512x2048 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Where the second coordinate is 7 the pieces stored into the output's buffer cover it. -/
theorem cover3_C_3 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x1024 .bf16) (x1 : Vec F S2048x1024 .bf16) (x2 : Vec F S1x2048 .f32) (xs0 : Vec F S512x2048 .f32) (y : S512x2048.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S512x2048.size (by sl_kernel_rfl) y

/-- What this case leaves in the output's staging buffer: its pieces read back (where nothing is stored, a placeholder nothing consults). -/
def out3_C_3 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x1024 .bf16) (x1 : Vec F S2048x1024 .bf16) (x2 : Vec F S1x2048 .f32) (xs0 : Vec F S512x2048 .f32) : Vec F S512x2048 .f32 :=
  VO3_3.read (Elt F) (VO3_3.writes (Elt F) VO3_3.junk (kernelRun3_C c i arg2 harg2 arg3 harg3 arg4 harg4 arg5 harg5 arg6 harg6 hc0 hc1 x0 x1 x2 xs0).1)

/-- The case's pieces for the accumulator cover it. -/
theorem scover3_C_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x1024 .bf16) (x1 : Vec F S2048x1024 .bf16) (x2 : Vec F S1x2048 .f32) (xs0 : Vec F S512x2048 .f32) (y : S512x2048.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S512x2048.size (by sl_kernel_rfl) y

/-- What this case leaves in the accumulator: its pieces read back. -/
def sout3_C_0 (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x1024 .bf16) (x1 : Vec F S2048x1024 .bf16) (x2 : Vec F S1x2048 .f32) (xs0 : Vec F S512x2048 .f32) : Vec F S512x2048 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n` (a pair: the output's
    buffer, then the accumulator): the case of the point's second coordinate, run at the point's memrefs and input blocks, over what
    the point before left in the accumulator. -/
def outsAt3 (c : Dev nD) : (n : ℕ) → n < cfg3.N → Vec F S512x2048 .f32 × Vec F S512x2048 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point whose second coordinate is 0. -/
theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point whose second coordinate is neither 0 nor 7: over what the point before left. -/
theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point whose second coordinate is 7: over what the point before left. -/
theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the launch's (the accumulator at anything); afterwards the
    accumulator at what the point before left in it, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ Rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ Rest3 (F := F) c) ∗ (∃ r, prngReg c r)) := by
  cases n with
  | zero => exact absurd rfl hz
  | succ n => rfl

/-! ## The call's proof data -/

/-- The call's proof data on core `c`: the arrays as found; after the body at point `t` each input's buffer at its block and the
    output's at `outsAt3`'s first component; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) : (dat3 V c).owed = fun _ => 0 := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the point's second coordinate says which case it is in; the
    invariant hands the body the accumulator at what the point before left (at anything at the first point) and takes it back at
    this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    · -- the second coordinate is 0
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    · -- the second coordinate is 7
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    · -- the second coordinate is neither 0 nor 7
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ (Pipeline.ΦA spec3 c : sProp 𝕄) :=
  Phi_out3 V c _ (by rw [Fin.val_last]; have : cfg3.N = 64 := N_3; omega)

end Cert.KernelIdeal.Fr

end
-- ==== Proof.KI.Run.lean ====
/-
  The whole program as a run: fifteen stretches of host operations (the weights' quantisation, the biases' reshapes), then the four
  pallas calls one after the other. The buffer contents are followed boundary by boundary: after the host stretches every unscoped
  buffer holds the host operations' fold of the launch memory; each call leaves its windows' arrays at what its write-backs make of
  them and every other buffer as it found it. Every weakly fair execution terminates with every unscoped buffer at the last
  boundary's contents; the arguments are written by nothing, so they end as launched.
-/
import proofs.«145004_j89799176225622_2_alg».proof.Proof.KI.R0
import proofs.«145004_j89799176225622_2_alg».proof.Proof.KI.R1
import proofs.«145004_j89799176225622_2_alg».proof.Proof.KI.R2
import proofs.«145004_j89799176225622_2_alg».proof.Proof.KI.R3
import proofs.«145004_j89799176225622_2_alg».proof.Proof.Gen.KernelIdeal.Regions
import Idealize.ShloMosaic.Lib.Pipeline.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The contents when call 0 is entered, read at the TensorCore's references. -/
abbrev VV15 : (c : Dev nD) → (b : Ref sig .tc) → Buf (Elt F) ((c : Thread nD τ).loc b) := fun c b => V15 m c b

/-- After call 0: its windows' arrays at what the write-backs leave, every other buffer as entered. -/
def W16 (c : Dev nD) : Valuation τ sig (Elt F) :=
  Pipeline.withArrays spec0 c (V15 m c) fun w => (dat0 (VV15 m) c).arrAt w cfg0.N
theorem W16_arr (c : Dev nD) (w : Fin cfg0.W) :
    W16 m c (Proc.devRef .tc (Pipeline.arrRef spec0 w)) = (dat0 (VV15 m) c).arrAt w cfg0.N := by
  unfold W16; exact Pipeline.withArrays_arr spec0 launch0.win.arr_inj c _ _ w
theorem W16_of_ne (c : Dev nD) (b : Ref sig .tc) (hb : ∀ w, Pipeline.arrRef spec0 w ≠ b) :
    W16 m c (Proc.devRef .tc b) = V15 m c (Proc.devRef .tc b) := by
  unfold W16; exact Pipeline.withArrays_of_ne spec0 c _ _ b hb
abbrev VV16 : (c : Dev nD) → (b : Ref sig .tc) → Buf (Elt F) ((c : Thread nD τ).loc b) := fun c b => W16 m c b
theorem hF0 (c : Dev nD) (w : Fin cfg0.W) : (dat0 (VV15 m) c).arrAt w cfg0.N = VV16 m c (Pipeline.arrRef spec0 w) :=
  (W16_arr m c w).symm
theorem hrest0 (c : Dev nD) : ∀ b, b ∉ Finset.univ.image (Pipeline.arrRef spec0) → VV16 m c b = VV15 m c b :=
  fun b hb => W16_of_ne m c b fun w e => hb (Finset.mem_image.mpr ⟨w, Finset.mem_univ _, e⟩)

/-- After call 1: its windows' arrays at what the write-backs leave, every other buffer as entered. -/
def W17 (c : Dev nD) : Valuation τ sig (Elt F) :=
  Pipeline.withArrays spec1 c (W16 m c) fun w => (dat1 (VV16 m) c).arrAt w cfg1.N
theorem W17_arr (c : Dev nD) (w : Fin cfg1.W) :
    W17 m c (Proc.devRef .tc (Pipeline.arrRef spec1 w)) = (dat1 (VV16 m) c).arrAt w cfg1.N := by
  unfold W17; exact Pipeline.withArrays_arr spec1 launch1.win.arr_inj c _ _ w
theorem W17_of_ne (c : Dev nD) (b : Ref sig .tc) (hb : ∀ w, Pipeline.arrRef spec1 w ≠ b) :
    W17 m c (Proc.devRef .tc b) = W16 m c (Proc.devRef .tc b) := by
  unfold W17; exact Pipeline.withArrays_of_ne spec1 c _ _ b hb
abbrev VV17 : (c : Dev nD) → (b : Ref sig .tc) → Buf (Elt F) ((c : Thread nD τ).loc b) := fun c b => W17 m c b
theorem hF1 (c : Dev nD) (w : Fin cfg1.W) : (dat1 (VV16 m) c).arrAt w cfg1.N = VV17 m c (Pipeline.arrRef spec1 w) :=
  (W17_arr m c w).symm
theorem hrest1 (c : Dev nD) : ∀ b, b ∉ Finset.univ.image (Pipeline.arrRef spec1) → VV17 m c b = VV16 m c b :=
  fun b hb => W17_of_ne m c b fun w e => hb (Finset.mem_image.mpr ⟨w, Finset.mem_univ _, e⟩)

/-- After call 2: its windows' arrays at what the write-backs leave, every other buffer as entered. -/
def W18 (c : Dev nD) : Valuation τ sig (Elt F) :=
  Pipeline.withArrays spec2 c (W17 m c) fun w => (dat2 (VV17 m) c).arrAt w cfg2.N
theorem W18_arr (c : Dev nD) (w : Fin cfg2.W) :
    W18 m c (Proc.devRef .tc (Pipeline.arrRef spec2 w)) = (dat2 (VV17 m) c).arrAt w cfg2.N := by
  unfold W18; exact Pipeline.withArrays_arr spec2 launch2.win.arr_inj c _ _ w
theorem W18_of_ne (c : Dev nD) (b : Ref sig .tc) (hb : ∀ w, Pipeline.arrRef spec2 w ≠ b) :
    W18 m c (Proc.devRef .tc b) = W17 m c (Proc.devRef .tc b) := by
  unfold W18; exact Pipeline.withArrays_of_ne spec2 c _ _ b hb
abbrev VV18 : (c : Dev nD) → (b : Ref sig .tc) → Buf (Elt F) ((c : Thread nD τ).loc b) := fun c b => W18 m c b
theorem hF2 (c : Dev nD) (w : Fin cfg2.W) : (dat2 (VV17 m) c).arrAt w cfg2.N = VV18 m c (Pipeline.arrRef spec2 w) :=
  (W18_arr m c w).symm
theorem hrest2 (c : Dev nD) : ∀ b, b ∉ Finset.univ.image (Pipeline.arrRef spec2) → VV18 m c b = VV17 m c b :=
  fun b hb => W18_of_ne m c b fun w e => hb (Finset.mem_image.mpr ⟨w, Finset.mem_univ _, e⟩)

/-- After call 3: its windows' arrays at what the write-backs leave, every other buffer as entered. -/
def W19 (c : Dev nD) : Valuation τ sig (Elt F) :=
  Pipeline.withArrays spec3 c (W18 m c) fun w => (dat3 (VV18 m) c).arrAt w cfg3.N
theorem W19_arr (c : Dev nD) (w : Fin cfg3.W) :
    W19 m c (Proc.devRef .tc (Pipeline.arrRef spec3 w)) = (dat3 (VV18 m) c).arrAt w cfg3.N := by
  unfold W19; exact Pipeline.withArrays_arr spec3 launch3.win.arr_inj c _ _ w
theorem W19_of_ne (c : Dev nD) (b : Ref sig .tc) (hb : ∀ w, Pipeline.arrRef spec3 w ≠ b) :
    W19 m c (Proc.devRef .tc b) = W18 m c (Proc.devRef .tc b) := by
  unfold W19; exact Pipeline.withArrays_of_ne spec3 c _ _ b hb
abbrev VV19 : (c : Dev nD) → (b : Ref sig .tc) → Buf (Elt F) ((c : Thread nD τ).loc b) := fun c b => W19 m c b
theorem hF3 (c : Dev nD) (w : Fin cfg3.W) : (dat3 (VV18 m) c).arrAt w cfg3.N = VV19 m c (Pipeline.arrRef spec3 w) :=
  (W19_arr m c w).symm
theorem hrest3 (c : Dev nD) : ∀ b, b ∉ Finset.univ.image (Pipeline.arrRef spec3) → VV19 m c b = VV18 m c b :=
  fun b hb => W19_of_ne m c b fun w e => hb (Finset.mem_image.mpr ⟨w, Finset.mem_univ _, e⟩)

/-! The arguments: no host operation and no call writes one. -/
theorem W19_main_arg0 (c : Dev nD) : W19 m c (Proc.devRef .tc main_arg0) = m ((c : Thread nD τ).loc main_arg0) :=
  (W19_of_ne m c main_arg0 (by decide)).trans <| (W18_of_ne m c main_arg0 (by decide)).trans <| (W17_of_ne m c main_arg0 (by decide)).trans <| ((W16_arr m c 0).trans (((dat0 (VV15 m) c).arrAt_in 0 rfl _).trans (A_eq0 (VV15 m) c 0))).trans <|
    (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))
theorem W19_main_arg1 (c : Dev nD) : W19 m c (Proc.devRef .tc main_arg1) = m ((c : Thread nD τ).loc main_arg1) :=
  (W19_of_ne m c main_arg1 (by decide)).trans <| (W18_of_ne m c main_arg1 (by decide)).trans <| (W17_of_ne m c main_arg1 (by decide)).trans <| (W16_of_ne m c main_arg1 (by decide)).trans <|
    (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))
theorem W19_main_arg2 (c : Dev nD) : W19 m c (Proc.devRef .tc main_arg2) = m ((c : Thread nD τ).loc main_arg2) :=
  (W19_of_ne m c main_arg2 (by decide)).trans <| (W18_of_ne m c main_arg2 (by decide)).trans <| (W17_of_ne m c main_arg2 (by decide)).trans <| (W16_of_ne m c main_arg2 (by decide)).trans <|
    (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))
theorem W19_main_arg3 (c : Dev nD) : W19 m c (Proc.devRef .tc main_arg3) = m ((c : Thread nD τ).loc main_arg3) :=
  (W19_of_ne m c main_arg3 (by decide)).trans <| (W18_of_ne m c main_arg3 (by decide)).trans <| (W17_of_ne m c main_arg3 (by decide)).trans <| (W16_of_ne m c main_arg3 (by decide)).trans <|
    (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))
theorem W19_main_arg4 (c : Dev nD) : W19 m c (Proc.devRef .tc main_arg4) = m ((c : Thread nD τ).loc main_arg4) :=
  (W19_of_ne m c main_arg4 (by decide)).trans <| (W18_of_ne m c main_arg4 (by decide)).trans <| (W17_of_ne m c main_arg4 (by decide)).trans <| (W16_of_ne m c main_arg4 (by decide)).trans <|
    (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))
theorem W19_main_arg5 (c : Dev nD) : W19 m c (Proc.devRef .tc main_arg5) = m ((c : Thread nD τ).loc main_arg5) :=
  (W19_of_ne m c main_arg5 (by decide)).trans <| (W18_of_ne m c main_arg5 (by decide)).trans <| (W17_of_ne m c main_arg5 (by decide)).trans <| (W16_of_ne m c main_arg5 (by decide)).trans <|
    (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))
theorem W19_main_arg6 (c : Dev nD) : W19 m c (Proc.devRef .tc main_arg6) = m ((c : Thread nD τ).loc main_arg6) :=
  (W19_of_ne m c main_arg6 (by decide)).trans <| (W18_of_ne m c main_arg6 (by decide)).trans <| (W17_of_ne m c main_arg6 (by decide)).trans <| (W16_of_ne m c main_arg6 (by decide)).trans <|
    (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))
theorem W19_main_arg7 (c : Dev nD) : W19 m c (Proc.devRef .tc main_arg7) = m ((c : Thread nD τ).loc main_arg7) :=
  (W19_of_ne m c main_arg7 (by decide)).trans <| (W18_of_ne m c main_arg7 (by decide)).trans <| (W17_of_ne m c main_arg7 (by decide)).trans <| (W16_of_ne m c main_arg7 (by decide)).trans <|
    (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
theorem W19_main_arg8 (c : Dev nD) : W19 m c (Proc.devRef .tc main_arg8) = m ((c : Thread nD τ).loc main_arg8) :=
  (W19_of_ne m c main_arg8 (by decide)).trans <| (W18_of_ne m c main_arg8 (by decide)).trans <| (W17_of_ne m c main_arg8 (by decide)).trans <| (W16_of_ne m c main_arg8 (by decide)).trans <|
    (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))
theorem W19_main_arg9 (c : Dev nD) : W19 m c (Proc.devRef .tc main_arg9) = m ((c : Thread nD τ).loc main_arg9) :=
  (W19_of_ne m c main_arg9 (by decide)).trans <| (W18_of_ne m c main_arg9 (by decide)).trans <| (W17_of_ne m c main_arg9 (by decide)).trans <| (W16_of_ne m c main_arg9 (by decide)).trans <|
    (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))
theorem W19_main_arg10 (c : Dev nD) : W19 m c (Proc.devRef .tc main_arg10) = m ((c : Thread nD τ).loc main_arg10) :=
  (W19_of_ne m c main_arg10 (by decide)).trans <| (W18_of_ne m c main_arg10 (by decide)).trans <| (W17_of_ne m c main_arg10 (by decide)).trans <| (W16_of_ne m c main_arg10 (by decide)).trans <|
    (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide))
theorem W19_main_arg11 (c : Dev nD) : W19 m c (Proc.devRef .tc main_arg11) = m ((c : Thread nD τ).loc main_arg11) :=
  (W19_of_ne m c main_arg11 (by decide)).trans <| (W18_of_ne m c main_arg11 (by decide)).trans <| (W17_of_ne m c main_arg11 (by decide)).trans <| (W16_of_ne m c main_arg11 (by decide)).trans <|
    (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))
theorem W19_main_arg12 (c : Dev nD) : W19 m c (Proc.devRef .tc main_arg12) = m ((c : Thread nD τ).loc main_arg12) :=
  (W19_of_ne m c main_arg12 (by decide)).trans <| (W18_of_ne m c main_arg12 (by decide)).trans <| (W17_of_ne m c main_arg12 (by decide)).trans <| (W16_of_ne m c main_arg12 (by decide)).trans <|
    (V15_of m c main_arg12 (by decide)).trans <| (V14_of m c main_arg12 (by decide)).trans <| (V13_of m c main_arg12 (by decide)).trans <| (V12_of m c main_arg12 (by decide)).trans <| (V11_of m c main_arg12 (by decide)).trans <| (V10_of m c main_arg12 (by decide)).trans <| (V9_of m c main_arg12 (by decide)).trans <| (V8_of m c main_arg12 (by decide)).trans <| (V7_of m c main_arg12 (by decide)).trans <| (V6_of m c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide))
theorem W19_main_arg13 (c : Dev nD) : W19 m c (Proc.devRef .tc main_arg13) = m ((c : Thread nD τ).loc main_arg13) :=
  (W19_of_ne m c main_arg13 (by decide)).trans <| (W18_of_ne m c main_arg13 (by decide)).trans <| (W17_of_ne m c main_arg13 (by decide)).trans <| (W16_of_ne m c main_arg13 (by decide)).trans <|
    (V15_of m c main_arg13 (by decide)).trans <| (V14_of m c main_arg13 (by decide)).trans <| (V13_of m c main_arg13 (by decide)).trans <| (V12_of m c main_arg13 (by decide)).trans <| (V11_of m c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide))
theorem W19_main_arg14 (c : Dev nD) : W19 m c (Proc.devRef .tc main_arg14) = m ((c : Thread nD τ).loc main_arg14) :=
  (W19_of_ne m c main_arg14 (by decide)).trans <| (W18_of_ne m c main_arg14 (by decide)).trans <| (W17_of_ne m c main_arg14 (by decide)).trans <| (W16_of_ne m c main_arg14 (by decide)).trans <|
    (V15_of m c main_arg14 (by decide)).trans <| (V14_of m c main_arg14 (by decide)).trans <| (V13_of m c main_arg14 (by decide)).trans <| (V12_of m c main_arg14 (by decide)).trans <| (V11_of m c main_arg14 (by decide)).trans <| (V10_of m c main_arg14 (by decide)).trans <| (V9_of m c main_arg14 (by decide)).trans <| (V8_of m c main_arg14 (by decide)).trans <| (V7_of m c main_arg14 (by decide)).trans <| (V6_of m c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide))

/-! The proof data of the four calls, each at its entry contents; the thread state between segments. -/

def pdatsW : (p : Fin 4) → (c : Dev nD) → Dat τ (Elt F) Unit ℕ (UR sig nD τ) ℕ (Pipeline.pin (pcfgs (F := F)) adm p) c
  | ⟨0, _⟩ => fun c => dat0 (VV15 m) c
  | ⟨1, _⟩ => fun c => dat1 (VV16 m) c
  | ⟨2, _⟩ => fun c => dat2 (VV17 m) c
  | ⟨3, _⟩ => fun c => dat3 (VV18 m) c
abbrev Vnone : Variants := Variants.none
abbrev L0 : GSem nD τ sig → Finset Unit := fun _ => ∅
abbrev lv0 : GSem nD τ sig → Unit → ℕ := fun _ _ => 0
/-- What rides beside the buffers: the generator register at some state, and nothing owed. -/
abbrev Rr (c : Dev nD) : sProp 𝕄 := iprop((∃ r, prngReg c r) ∗ ∃ W, owes (c : Thread nD τ) (0 : CellTallies nD τ sig Unit) W)
abbrev hsegW (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vnone L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnW (c : Dev nD) : sProp 𝕄 := iprop(StableHlo.held (c : Thread nD τ) (Pipeline.ucRefs τ sig) (W19 m c) ∗ ∃ r, prngReg c r)

set_option backward.isDefEq.respectTransparency.types false in
/-- Call 0 as a segment: its arrays taken out of the unscoped buffers at entry and put back at their exit contents. -/
def reg0 : Pipeline.RegionSeg (pcfgs (F := F)) adm (pdatsW m) () defs₀ Vnone L0 lv0 0 where
  win := launch0.win.to₀
  block_pos := launch0.block_pos
  stage_whole := launch0.stage_whole
  K := PEmpty
  osem k := k.elim
  ho := Pipeline.OwnSemFacts.none _
  hbody c := (body_obligation0 (VV15 m) c).loose
  hwaits := Pipeline.hwaits_of_owed_zero _ _ _ _ L0 lv0 0 fun _ _ => rfl
  pre c := iprop(StableHlo.held (c : Thread nD τ) (Pipeline.ucRefs τ sig) (V15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec0 c (VV15 m c)
  hentry c := by
    rw [Pipeline.ownSems0_none]
    have hsplit := Pipeline.arrays_of_unscopedBufs (p := 0) (pcfgs (F := F)) adm (pdatsW m) launch0.win launch0.arr_whole c
      ((pdatsW m 0 c).share_full fun _ => rfl) (VV15 m c) fun w => A_eq0 (VV15 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsW m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsW m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsW m) ((pdatsW m 0 c).share_full fun _ => rfl)
      (VV15 m c) (VV16 m c) ((pdatsW m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: its arrays taken out of the unscoped buffers at entry and put back at their exit contents. -/
def reg1 : Pipeline.RegionSeg (pcfgs (F := F)) adm (pdatsW m) () defs₀ Vnone L0 lv0 1 where
  win := launch1.win.to₀
  block_pos := launch1.block_pos
  stage_whole := launch1.stage_whole
  K := PEmpty
  osem k := k.elim
  ho := Pipeline.OwnSemFacts.none _
  hbody c := (body_obligation1 (VV16 m) c).loose
  hwaits := Pipeline.hwaits_of_owed_zero _ _ _ _ L0 lv0 1 fun _ _ => rfl
  pre c := iprop(StableHlo.held (c : Thread nD τ) (Pipeline.ucRefs τ sig) (W16 m c) ∗ Rr c)
  post c := iprop(StableHlo.held (c : Thread nD τ) (Pipeline.ucRefs τ sig) (W17 m c) ∗ Rr c)
  X c := iprop(∃ r, prngReg c r)
  Y c := iprop(∃ r, prngReg c r)
  Z c := Pipeline.unscopedRest (Ix := Unit) (Name := ℕ) (U := UR sig nD τ) (Lvl := ℕ) spec1 c (VV16 m c)
  hentry c := by
    rw [Pipeline.ownSems0_none]
    have hsplit := Pipeline.arrays_of_unscopedBufs (p := 1) (pcfgs (F := F)) adm (pdatsW m) launch1.win launch1.arr_whole c
      ((pdatsW m 1 c).share_full fun _ => rfl) (VV16 m c) fun w => A_eq1 (VV16 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsW m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsW m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsW m) ((pdatsW m 1 c).share_full fun _ => rfl)
      (VV16 m c) (VV17 m c) ((pdatsW m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: its arrays taken out of the unscoped buffers at entry and put back at their exit contents. -/
def reg2 : Pipeline.RegionSeg (pcfgs (F := F)) adm (pdatsW m) () defs₀ Vnone L0 lv0 2 where
  win := launch2.win.to₀
  block_pos := launch2.block_pos
  stage_whole := launch2.stage_whole
  K := PEmpty
  osem k := k.elim
  ho := Pipeline.OwnSemFacts.none _
  hbody c := (body_obligation2 (VV17 m) c).loose
  hwaits := Pipeline.hwaits_of_owed_zero _ _ _ _ L0 lv0 2 fun _ _ => rfl
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec2 c (VV17 m c)
  hentry c := by
    rw [Pipeline.ownSems0_none]
    have hsplit := Pipeline.arrays_of_unscopedBufs (p := 2) (pcfgs (F := F)) adm (pdatsW m) launch2.win launch2.arr_whole c
      ((pdatsW m 2 c).share_full fun _ => rfl) (VV17 m c) fun w => A_eq2 (VV17 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsW m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsW m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsW m) ((pdatsW m 2 c).share_full fun _ => rfl)
      (VV17 m c) (VV18 m c) ((pdatsW m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment: its arrays taken out of the unscoped buffers at entry and put back at their exit contents. -/
def reg3 : Pipeline.RegionSeg (pcfgs (F := F)) adm (pdatsW m) () defs₀ Vnone L0 lv0 3 where
  win := launch3.win.to₀
  block_pos := launch3.block_pos
  stage_whole := launch3.stage_whole
  K := PEmpty
  osem k := k.elim
  ho := Pipeline.OwnSemFacts.none _
  hbody c := (body_obligation3 (VV18 m) c).loose
  hwaits := Pipeline.hwaits_of_owed_zero _ _ _ _ L0 lv0 3 fun _ _ => rfl
  pre c := iprop(StableHlo.held (c : Thread nD τ) (Pipeline.ucRefs τ sig) (W18 m c) ∗ Rr c)
  post c := iprop(TnW m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (VV18 m c)
  hentry c := by
    rw [Pipeline.ownSems0_none]
    have hsplit := Pipeline.arrays_of_unscopedBufs (p := 3) (pcfgs (F := F)) adm (pdatsW m) launch3.win launch3.arr_whole c
      ((pdatsW m 3 c).share_full fun _ => rfl) (VV18 m c) fun w => A_eq3 (VV18 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (VV18 m) c)
    unfold Pipeline.ΦA
    iintro ⟨Hp, -, Hr⟩
    isplitl [Hr]; · iexact Hr
    iexact Hp
  hout c := by
    rw [Pipeline.ownSems0_none]
    refine BIBase.Entails.trans (hout3 (VV18 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdatsW m) ((pdatsW m 3 c).share_full fun _ => rfl)
      (VV18 m c) (VV19 m c) ((pdatsW m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's nineteen segments in order. -/
abbrev wsegs : List (Pipeline.Seg (pcfgs (F := F)) adm (pdatsW m) () defs₀ Vnone L0 lv0) :=
  [ .host (hsegW hostOps0 hostOps0_sub hostOps0_fresh (V0 m)),
    .host (hsegW hostOps0_1 hostOps0_1_sub hostOps0_1_fresh (V1 m)),
    .host (hsegW hostOps0_2 hostOps0_2_sub hostOps0_2_fresh (V2 m)),
    .host (hsegW hostOps0_3 hostOps0_3_sub hostOps0_3_fresh (V3 m)),
    .host (hsegW hostOps0_4 hostOps0_4_sub hostOps0_4_fresh (V4 m)),
    .host (hsegW hostOps0_5 hostOps0_5_sub hostOps0_5_fresh (V5 m)),
    .host (hsegW hostOps0_6 hostOps0_6_sub hostOps0_6_fresh (V6 m)),
    .host (hsegW hostOps0_7 hostOps0_7_sub hostOps0_7_fresh (V7 m)),
    .host (hsegW hostOps0_8 hostOps0_8_sub hostOps0_8_fresh (V8 m)),
    .host (hsegW hostOps0_9 hostOps0_9_sub hostOps0_9_fresh (V9 m)),
    .host (hsegW hostOps0_10 hostOps0_10_sub hostOps0_10_fresh (V10 m)),
    .host (hsegW hostOps0_11 hostOps0_11_sub hostOps0_11_fresh (V11 m)),
    .host (hsegW hostOps0_12 hostOps0_12_sub hostOps0_12_fresh (V12 m)),
    .host (hsegW hostOps0_13 hostOps0_13_sub hostOps0_13_fresh (V13 m)),
    .host (hsegW hostOps0_14 hostOps0_14_sub hostOps0_14_fresh (V14 m)),
    .region (reg0 m), .region (reg1 m), .region (reg2 m), .region (reg3 m) ]

theorem main_run (c : Dev nD) : main (F := F) c = Pipeline.Seg.run (wsegs m) := by
  rw [main_chain c, Pipeline.Seg.run_eq_chain]
  rfl

set_option backward.isDefEq.respectTransparency.types false in
/-- Every weakly fair execution from memory `m` with zero counters terminates, nothing faulting, with every unscoped buffer of
    every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W19 m c b) :=
  Pipeline.θ_run_regions_kit (pcfgs (F := F)) adm (pdatsW m) () cellOf_inj emb₁ defs₀ Vnone L0 lv0 m ρ main (wsegs m)
    (fun c Q => by rw [main_run m c])
    (by simp only [wsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := TnW m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h c => h c)

/-- The arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W19_main_arg0 m c),
     (h c _ (mem_uc main_arg1 (by decide))).trans (W19_main_arg1 m c),
     (h c _ (mem_uc main_arg2 (by decide))).trans (W19_main_arg2 m c),
     (h c _ (mem_uc main_arg3 (by decide))).trans (W19_main_arg3 m c),
     (h c _ (mem_uc main_arg4 (by decide))).trans (W19_main_arg4 m c),
     (h c _ (mem_uc main_arg5 (by decide))).trans (W19_main_arg5 m c),
     (h c _ (mem_uc main_arg6 (by decide))).trans (W19_main_arg6 m c),
     (h c _ (mem_uc main_arg7 (by decide))).trans (W19_main_arg7 m c),
     (h c _ (mem_uc main_arg8 (by decide))).trans (W19_main_arg8 m c),
     (h c _ (mem_uc main_arg9 (by decide))).trans (W19_main_arg9 m c),
     (h c _ (mem_uc main_arg10 (by decide))).trans (W19_main_arg10 m c),
     (h c _ (mem_uc main_arg11 (by decide))).trans (W19_main_arg11 m c),
     (h c _ (mem_uc main_arg12 (by decide))).trans (W19_main_arg12 m c),
     (h c _ (mem_uc main_arg13 (by decide))).trans (W19_main_arg13 m c),
     (h c _ (mem_uc main_arg14 (by decide))).trans (W19_main_arg14 m c)⟩) (run_all m ρ)

end Cert.KernelIdeal.Fr

end
-- ==== Proof.Spec.lean ====
/-
  The function both programs compute, entry by entry, over the extended reals.

  Every weight matrix W is first quantised entrywise to {-1, 0, 1} (`tern`); a quantised linear layer is
  lin X Q b (i, n) = Σₖ X(i,k) · Q(n,k) + b(n). With σ the logistic function and silu y = y · σ y:
    v   = σ(lin x Qg bg) · ((1 − σ(lin x Qf bf)) · silu(lin x Qc bc))          (the gated recurrent step from a zero state)
    o   = lin v Qo bo
    w   = σ(lin o Qpg bpg) · silu(lin o Qpu bpu)                                (the gated linear unit)
    out = lin w Qpo bpo
  Arrays are taken as functions of their coordinates.
-/
import Idealize.ShloMosaic.PureOps.Ideal
import Idealize.ShloMosaic.Lib.ValueIdx

noncomputable section

open scoped BigOperators

namespace Cert.Spec

open Idealize.ShloMosaic

/-- One weight entry quantised: zero where |w| is below the threshold, the sign of w elsewhere — written with the
    comparison, the selection and the sign function both programs apply to the entry. -/
def tern (w : Ideal .f32) : Ideal .f32 :=
  Scalar.select (FloatOps.cmpf .olt (FloatOps.hostAbsf w) (FloatOps.ofBits (F := Ideal) .f32 0x3EA8F5C3#32))
    (FloatOps.ofBits (F := Ideal) .f32 0x00000000#32) (FloatOps.hostUnary .sign w)

/-- A linear layer with the weight stored row per output: Σₖ X(i,k) · Q(n,k) + b(n). -/
def lin {M K N : ℕ} (X : Fin M → Fin K → EReal) (Q : Fin N → Fin K → EReal) (b : Fin N → EReal) (i : Fin M) (n : Fin N) : EReal :=
  (∑ k : Fin K, X i k * Q n k) + b n

/-- The logistic function on the extended reals. -/
def sg (y : EReal) : EReal := Ideal.logistic y

/-- silu y = y · σ y. -/
def silu (y : EReal) : EReal := y * Ideal.logistic y

/-- The gated recurrent step from a zero state: g · ((1 − f) · c). -/
def gru {M K N : ℕ} (X : Fin M → Fin K → EReal) (Qf : Fin N → Fin K → EReal) (bf : Fin N → EReal)
    (Qc : Fin N → Fin K → EReal) (bc : Fin N → EReal) (Qg : Fin N → Fin K → EReal) (bg : Fin N → EReal) (i : Fin M) (n : Fin N) : EReal :=
  sg (lin X Qg bg i n) * ((1 - sg (lin X Qf bf i n)) * silu (lin X Qc bc i n))

/-- The gated linear unit: σ(gate) · silu(up). -/
def glu {M K N : ℕ} (O : Fin M → Fin K → EReal) (Qg : Fin N → Fin K → EReal) (bg : Fin N → EReal)
    (Qu : Fin N → Fin K → EReal) (bu : Fin N → EReal) (i : Fin M) (n : Fin N) : EReal :=
  sg (lin O Qg bg i n) * silu (lin O Qu bu i n)

/-- The whole network from the raw arguments (weights quantised here), in the order the programs take them:
    x, f-gate w b, c-proj w b, g-gate w b, out-proj w b, up-proj w b, gate-proj w b, down-proj w b. -/
def net (x : Fin 4096 → Fin 2048 → EReal)
    (wf : Fin 2048 → Fin 2048 → EReal) (bf : Fin 2048 → EReal) (wc : Fin 2048 → Fin 2048 → EReal) (bc : Fin 2048 → EReal)
    (wg : Fin 2048 → Fin 2048 → EReal) (bg : Fin 2048 → EReal) (wo : Fin 2048 → Fin 2048 → EReal) (bo : Fin 2048 → EReal)
    (wu : Fin 8192 → Fin 2048 → EReal) (bu : Fin 8192 → EReal) (wpg : Fin 8192 → Fin 2048 → EReal) (bpg : Fin 8192 → EReal)
    (wpo : Fin 2048 → Fin 8192 → EReal) (bpo : Fin 2048 → EReal) : Fin 4096 → Fin 2048 → EReal :=
  lin (glu (lin (gru x (fun n k => tern (wf n k)) bf (fun n k => tern (wc n k)) bc (fun n k => tern (wg n k)) bg)
        (fun n k => tern (wo n k)) bo)
      (fun n k => tern (wpg n k)) bpg (fun n k => tern (wu n k)) bu)
    (fun n k => tern (wpo n k)) bpo

end Cert.Spec

end
-- ==== Proof.KI.Host.lean ====
/-
  The host operations before the first pallas call, read at an index over the extended reals: each weight matrix is quantised
  entrywise (compare |w| with the threshold, select 0 or the sign; the change of float format is the identity), each bias
  vector is re-laid as a one-row matrix. `V15 m c` is what core c's buffers hold after these operations.
-/
import proofs.«145004_j89799176225622_2_alg».proof.Proof.Gen.KernelIdeal.Regions
import proofs.«145004_j89799176225622_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Idealize.ShloMosaic.StableHlo

variable (m : (ℓ : Loc nD τ sig) → Buf (Elt Ideal) ℓ)

/-- The quantised weight read at (n, k). -/
theorem q_main_v5 (c : Dev nD) (n : Fin 2048) (k : Fin 2048) :
    V15 m c main_v5 (ix2 n k) = Cert.Spec.tern (m ((c : Thread nD τ).loc main_arg1) (ix2 n k)) := by
  rw [V15_of m c main_v5 (by decide), V14_of m c main_v5 (by decide), V13_of m c main_v5 (by decide), V12_of m c main_v5 (by decide), V11_of m c main_v5 (by decide), V10_of m c main_v5 (by decide), V9_of m c main_v5 (by decide), V8_of m c main_v5 (by decide), V7_of m c main_v5 (by decide), V6_of m c main_v5 (by decide), V5_of m c main_v5 (by decide), V4_of m c main_v5 (by decide)]
  have hb : V0 m c main_arg1 = m ((c : Thread nD τ).loc main_arg1) := rfl
  dsimp only [V3, V2, V1, hostOps0_2, hostOps0_1, hostOps0]
  generalize V0 m c = W0 at hb ⊢
  after_results
  rw [hb]
  rfl

/-- The quantised weight read at (n, k). -/
theorem q_main_v11 (c : Dev nD) (n : Fin 2048) (k : Fin 2048) :
    V15 m c main_v11 (ix2 n k) = Cert.Spec.tern (m ((c : Thread nD τ).loc main_arg3) (ix2 n k)) := by
  rw [V15_of m c main_v11 (by decide), V14_of m c main_v11 (by decide), V13_of m c main_v11 (by decide), V12_of m c main_v11 (by decide), V11_of m c main_v11 (by decide), V10_of m c main_v11 (by decide), V9_of m c main_v11 (by decide), V8_of m c main_v11 (by decide), V7_of m c main_v11 (by decide), V6_of m c main_v11 (by decide)]
  have hb : V2 m c main_arg3 = m ((c : Thread nD τ).loc main_arg3) := (V2_of m c main_arg3 (by decide)).trans <| (V1_of m c main_arg3 (by decide))
  dsimp only [V5, V4, V3, hostOps0_4, hostOps0_3, hostOps0_2]
  generalize V2 m c = W0 at hb ⊢
  after_results
  rw [hb]
  rfl

/-- The quantised weight read at (n, k). -/
theorem q_main_v17 (c : Dev nD) (n : Fin 2048) (k : Fin 2048) :
    V15 m c main_v17 (ix2 n k) = Cert.Spec.tern (m ((c : Thread nD τ).loc main_arg5) (ix2 n k)) := by
  rw [V15_of m c main_v17 (by decide), V14_of m c main_v17 (by decide), V13_of m c main_v17 (by decide), V12_of m c main_v17 (by decide), V11_of m c main_v17 (by decide), V10_of m c main_v17 (by decide), V9_of m c main_v17 (by decide), V8_of m c main_v17 (by decide)]
  have hb : V4 m c main_arg5 = m ((c : Thread nD τ).loc main_arg5) := (V4_of m c main_arg5 (by decide)).trans <| (V3_of m c main_arg5 (by decide)).trans <| (V2_of m c main_arg5 (by decide)).trans <| (V1_of m c main_arg5 (by decide))
  dsimp only [V7, V6, V5, hostOps0_6, hostOps0_5, hostOps0_4]
  generalize V4 m c = W0 at hb ⊢
  after_results
  rw [hb]
  rfl

/-- The quantised weight read at (n, k). -/
theorem q_main_v23 (c : Dev nD) (n : Fin 2048) (k : Fin 2048) :
    V15 m c main_v23 (ix2 n k) = Cert.Spec.tern (m ((c : Thread nD τ).loc main_arg7) (ix2 n k)) := by
  rw [V15_of m c main_v23 (by decide), V14_of m c main_v23 (by decide), V13_of m c main_v23 (by decide), V12_of m c main_v23 (by decide), V11_of m c main_v23 (by decide), V10_of m c main_v23 (by decide)]
  have hb : V6 m c main_arg7 = m ((c : Thread nD τ).loc main_arg7) := (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))
  dsimp only [V9, V8, V7, hostOps0_8, hostOps0_7, hostOps0_6]
  generalize V6 m c = W0 at hb ⊢
  after_results
  rw [hb]
  rfl

/-- The quantised weight read at (n, k). -/
theorem q_main_v29 (c : Dev nD) (n : Fin 8192) (k : Fin 2048) :
    V15 m c main_v29 (ix2 n k) = Cert.Spec.tern (m ((c : Thread nD τ).loc main_arg11) (ix2 n k)) := by
  rw [V15_of m c main_v29 (by decide), V14_of m c main_v29 (by decide), V13_of m c main_v29 (by decide), V12_of m c main_v29 (by decide)]
  have hb : V8 m c main_arg11 = m ((c : Thread nD τ).loc main_arg11) := (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))
  dsimp only [V11, V10, V9, hostOps0_10, hostOps0_9, hostOps0_8]
  generalize V8 m c = W0 at hb ⊢
  after_results
  rw [hb]
  rfl

/-- The quantised weight read at (n, k). -/
theorem q_main_v35 (c : Dev nD) (n : Fin 8192) (k : Fin 2048) :
    V15 m c main_v35 (ix2 n k) = Cert.Spec.tern (m ((c : Thread nD τ).loc main_arg9) (ix2 n k)) := by
  rw [V15_of m c main_v35 (by decide), V14_of m c main_v35 (by decide)]
  have hb : V10 m c main_arg9 = m ((c : Thread nD τ).loc main_arg9) := (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))
  dsimp only [V13, V12, V11, hostOps0_12, hostOps0_11, hostOps0_10]
  generalize V10 m c = W0 at hb ⊢
  after_results
  rw [hb]
  rfl

/-- The quantised weight read at (n, k). -/
theorem q_main_v41 (c : Dev nD) (n : Fin 2048) (k : Fin 8192) :
    V15 m c main_v41 (ix2 n k) = Cert.Spec.tern (m ((c : Thread nD τ).loc main_arg13) (ix2 n k)) := by
  have hb : V12 m c main_arg13 = m ((c : Thread nD τ).loc main_arg13) := (V12_of m c main_arg13 (by decide)).trans <| (V11_of m c main_arg13 (by decide)).trans <| (V10_of m c main_arg13 (by decide)).trans <| (V9_of m c main_arg13 (by decide)).trans <| (V8_of m c main_arg13 (by decide)).trans <| (V7_of m c main_arg13 (by decide)).trans <| (V6_of m c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide))
  dsimp only [V15, V14, V13, hostOps0_14, hostOps0_13, hostOps0_12]
  generalize V12 m c = W0 at hb ⊢
  after_results
  rw [hb]
  rfl

/-- The bias row read at (0, n). -/
theorem b_main_v42 (c : Dev nD) (n : Fin 2048) :
    V15 m c main_v42 (ix2 (0 : Fin 1) n) = m ((c : Thread nD τ).loc main_arg2) (ix1 n) := by
  dsimp only [V15, V14, V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12, hostOps0_13, hostOps0_14]
  after_results
  exact shapeCast_a_1a_apply _ _ (0 : Fin 1) n

/-- The bias row read at (0, n). -/
theorem b_main_v43 (c : Dev nD) (n : Fin 2048) :
    V15 m c main_v43 (ix2 (0 : Fin 1) n) = m ((c : Thread nD τ).loc main_arg4) (ix1 n) := by
  dsimp only [V15, V14, V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12, hostOps0_13, hostOps0_14]
  after_results
  exact shapeCast_a_1a_apply _ _ (0 : Fin 1) n

/-- The bias row read at (0, n). -/
theorem b_main_v44 (c : Dev nD) (n : Fin 2048) :
    V15 m c main_v44 (ix2 (0 : Fin 1) n) = m ((c : Thread nD τ).loc main_arg6) (ix1 n) := by
  dsimp only [V15, V14, V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12, hostOps0_13, hostOps0_14]
  after_results
  exact shapeCast_a_1a_apply _ _ (0 : Fin 1) n

/-- The bias row read at (0, n). -/
theorem b_main_v45 (c : Dev nD) (n : Fin 2048) :
    V15 m c main_v45 (ix2 (0 : Fin 1) n) = m ((c : Thread nD τ).loc main_arg8) (ix1 n) := by
  dsimp only [V15, V14, V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12, hostOps0_13, hostOps0_14]
  after_results
  exact shapeCast_a_1a_apply _ _ (0 : Fin 1) n

/-- The bias row read at (0, n). -/
theorem b_main_v46 (c : Dev nD) (n : Fin 8192) :
    V15 m c main_v46 (ix2 (0 : Fin 1) n) = m ((c : Thread nD τ).loc main_arg12) (ix1 n) := by
  dsimp only [V15, V14, V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12, hostOps0_13, hostOps0_14]
  after_results
  exact shapeCast_a_1a_apply _ _ (0 : Fin 1) n

/-- The bias row read at (0, n). -/
theorem b_main_v47 (c : Dev nD) (n : Fin 8192) :
    V15 m c main_v47 (ix2 (0 : Fin 1) n) = m ((c : Thread nD τ).loc main_arg10) (ix1 n) := by
  dsimp only [V15, V14, V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12, hostOps0_13, hostOps0_14]
  after_results
  exact shapeCast_a_1a_apply _ _ (0 : Fin 1) n

/-- The bias row read at (0, n). -/
theorem b_main_v48 (c : Dev nD) (n : Fin 2048) :
    V15 m c main_v48 (ix2 (0 : Fin 1) n) = m ((c : Thread nD τ).loc main_arg14) (ix1 n) := by
  dsimp only [V15, V14, V13, V12, V11, V10, V9, V8, V7, V6, V5, V4, V3, V2, V1, V0, hostOps0, hostOps0_1, hostOps0_2, hostOps0_3, hostOps0_4, hostOps0_5, hostOps0_6, hostOps0_7, hostOps0_8, hostOps0_9, hostOps0_10, hostOps0_11, hostOps0_12, hostOps0_13, hostOps0_14]
  after_results
  exact shapeCast_a_1a_apply _ _ (0 : Fin 1) n

/-- The first call's input x is the first argument as launched. -/
theorem x_main_arg0 (c : Dev nD) : V15 m c main_arg0 = m ((c : Thread nD τ).loc main_arg0) :=
  (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))

end Cert.KernelIdeal.Val

end
-- ==== Proof.SpecCongr.lean ====
/-
  The specification's layers depend on their array arguments only through the rows they read: an entry (i, n) of a linear layer
  reads row i of the input, row n of the weight and entry n of the bias. So two entries whose rows agree are equal — the form in
  which a block of an array is compared with the array.
-/
import proofs.«145004_j89799176225622_2_alg».proof.Proof.Spec

noncomputable section

open scoped BigOperators

namespace Cert.Spec

theorem lin_congr {M K N M' N' : ℕ} {X : Fin M → Fin K → EReal} {Q : Fin N → Fin K → EReal} {b : Fin N → EReal}
    {X' : Fin M' → Fin K → EReal} {Q' : Fin N' → Fin K → EReal} {b' : Fin N' → EReal} {i : Fin M} {n : Fin N} {i' : Fin M'} {n' : Fin N'}
    (hX : ∀ k, X i k = X' i' k) (hQ : ∀ k, Q n k = Q' n' k) (hb : b n = b' n') : lin X Q b i n = lin X' Q' b' i' n' := by
  unfold lin
  rw [hb]
  exact congrArg (· + _) (Finset.sum_congr rfl fun k _ => by rw [hX k, hQ k])

theorem gru_congr {M K N M' N' : ℕ} {X : Fin M → Fin K → EReal} {Qf Qc Qg : Fin N → Fin K → EReal} {bf bc bg : Fin N → EReal}
    {X' : Fin M' → Fin K → EReal} {Qf' Qc' Qg' : Fin N' → Fin K → EReal} {bf' bc' bg' : Fin N' → EReal}
    {i : Fin M} {n : Fin N} {i' : Fin M'} {n' : Fin N'}
    (hX : ∀ k, X i k = X' i' k) (hQf : ∀ k, Qf n k = Qf' n' k) (hbf : bf n = bf' n') (hQc : ∀ k, Qc n k = Qc' n' k) (hbc : bc n = bc' n')
    (hQg : ∀ k, Qg n k = Qg' n' k) (hbg : bg n = bg' n') :
    gru X Qf bf Qc bc Qg bg i n = gru X' Qf' bf' Qc' bc' Qg' bg' i' n' := by
  unfold gru
  rw [lin_congr hX hQf hbf, lin_congr hX hQc hbc, lin_congr hX hQg hbg]

theorem glu_congr {M K N M' N' : ℕ} {O : Fin M → Fin K → EReal} {Qg Qu : Fin N → Fin K → EReal} {bg bu : Fin N → EReal}
    {O' : Fin M' → Fin K → EReal} {Qg' Qu' : Fin N' → Fin K → EReal} {bg' bu' : Fin N' → EReal}
    {i : Fin M} {n : Fin N} {i' : Fin M'} {n' : Fin N'}
    (hO : ∀ k, O i k = O' i' k) (hQg : ∀ k, Qg n k = Qg' n' k) (hbg : bg n = bg' n') (hQu : ∀ k, Qu n k = Qu' n' k) (hbu : bu n = bu' n') :
    glu O Qg bg Qu bu i n = glu O' Qg' bg' Qu' bu' i' n' := by
  unfold glu
  rw [lin_congr hO hQg hbg, lin_congr hO hQu hbu]

end Cert.Spec

end
-- ==== Proof.LibMatmulT.lean ====
/-
  A matrix product into a zero accumulator whose right operand is stored row per output column (both operands contracted
  on their second axis: out = L · Rᵀ), read at an index as a plain sum of products over the contracted axis.

  For an n-by-K left operand and an M-by-K right operand, the entry at (p, q) is Σₖ L(p, k) · R(q, k). The four facts about
  the dimension numbers that say which coordinate of each operand index comes from the output index and which from the
  contraction index are taken as hypotheses: each printed record proves them by unfolding.
-/
import Idealize.ShloMosaic.PureOps.Ideal.Laws
import Idealize.ShloMosaic.Lib.ValueIdx

noncomputable section

open scoped BigOperators

namespace Cert.Lib.MatmulT

open Idealize.ShloMosaic Idealize.ShloMosaic.ValueIdx

/-- A kernel's matrix product L · Rᵀ into the zero splat, at the ideal values, read at `(p, q)`: the sum over the
    contracted axis of the left operand's row `p` times the right operand's row `q`. -/
theorem matmul_zero_ix2_t {n K M : ℕ} {φ₁ φ₂ : FTy}
    (d : DotDims (⟨2, ![n, K]⟩ : Shape) (⟨2, ![M, K]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (j 1).val) (hr1 : ∀ j c, (d.rhsIdx j c 1).val = (c ⟨0, by omega⟩).val)
    (lhs : FVec Ideal (⟨2, ![n, K]⟩ : Shape) φ₁) (rhs : FVec Ideal (⟨2, ![M, K]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lib.MatmulT

end
-- ==== Proof.KI.Val0.lean ====
/-
  What the first pallas call computes, over the extended reals: the array it leaves is, entry by entry, the gated recurrent step
  v(i, n) = σ(yg) · ((1 − σ(yf)) · (yc · σ(yc))) with y•(i, n) = Σₖ x(i, k) · Q•(n, k) + b•(n), of the arrays it found. Each grid
  point handles 128 rows with the three whole weights and biases, and the 32 blocks tile the 4096 rows. Rounding x to the
  narrower float format is the identity here; the literal 1.0 is the real number 1.
-/
import proofs.«145004_j89799176225622_2_alg».proof.Proof.KI.R0
import proofs.«145004_j89799176225622_2_alg».proof.Proof.Spec
import proofs.«145004_j89799176225622_2_alg».proof.Proof.SpecCongr
import proofs.«145004_j89799176225622_2_alg».proof.Proof.LibMatmulT
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

theorem hz0 : (![0, 0] : Fin 2 → Nat) = fun _ => 0 := funext fun a => by fin_cases a <;> rfl

/-! The dimension numbers of the 128 × 2048 by 2048 × 2048 product: both operands contracted on their second axis. -/

theorem D0_l0 (j : S128x2048.Idx) (q : dot_S128x2048_S2048x2048_S128x2048_1_1_0_0_n_n.contr.Idx) : (dot_S128x2048_S2048x2048_S128x2048_1_1_0_0_n_n.lhsIdx j q 0).val = (j 0).val := by
  unfold DotDims.lhsIdx
  rw [dif_neg (show ¬(0 : Fin S128x2048.rank) ∈ dot_S128x2048_S2048x2048_S128x2048_1_1_0_0_n_n.lhsBatch by decide), dif_pos (show (0 : Fin S128x2048.rank) ∈ dot_S128x2048_S2048x2048_S128x2048_1_1_0_0_n_n.lhsNonContracting by decide)]
  rfl
theorem D0_l1 (j : S128x2048.Idx) (q : dot_S128x2048_S2048x2048_S128x2048_1_1_0_0_n_n.contr.Idx) : (dot_S128x2048_S2048x2048_S128x2048_1_1_0_0_n_n.lhsIdx j q 1).val = (q ⟨0, by decide⟩).val :=
  dot_S128x2048_S2048x2048_S128x2048_1_1_0_0_n_n.lhsIdx_val_of_single rfl j q
theorem D0_r0 (j : S128x2048.Idx) (q : dot_S128x2048_S2048x2048_S128x2048_1_1_0_0_n_n.contr.Idx) : (dot_S128x2048_S2048x2048_S128x2048_1_1_0_0_n_n.rhsIdx j q 0).val = (j 1).val := by
  unfold DotDims.rhsIdx
  rw [dif_neg (show ¬(0 : Fin S2048x2048.rank) ∈ dot_S128x2048_S2048x2048_S128x2048_1_1_0_0_n_n.rhsBatch by decide), dif_pos (show (0 : Fin S2048x2048.rank) ∈ dot_S128x2048_S2048x2048_S128x2048_1_1_0_0_n_n.rhsNonContracting by decide)]
  rfl
theorem D0_r1 (j : S128x2048.Idx) (q : dot_S128x2048_S2048x2048_S128x2048_1_1_0_0_n_n.contr.Idx) : (dot_S128x2048_S2048x2048_S128x2048_1_1_0_0_n_n.rhsIdx j q 1).val = (q ⟨0, by decide⟩).val :=
  dot_S128x2048_S2048x2048_S128x2048_1_1_0_0_n_n.rhsIdx_val_of_single rfl j q

/-- One linear layer of the body at row r, column n of the block. -/
theorem lin0_at (x0 : FVec Ideal S128x2048 .f32) (q : FVec Ideal S2048x2048 .bf16) (b : FVec Ideal S1x2048 .f32) (r : Fin 128) (n : Fin 2048) :
    addf (matmul dot_S128x2048_S2048x2048_S128x2048_1_1_0_0_n_n none (truncf .bf16 x0 bitsLt_bf16_f32) (shapeCast S2048x2048 q shapeCasts_S2048x2048_S2048x2048) (constant (F := Ideal) S128x2048 .f32 0x00000000#32))
        (broadcastTo S128x2048 (shapeCast S1x2048 b shapeCasts_S1x2048_S1x2048) broadcasts_S1x2048_S128x2048) (ix2 r n)
      = (∑ k : Fin 2048, x0 (ix2 r k) * q (ix2 n k)) + b (ix2 (0 : Fin 1) n) := by
  show _ + _ = _
  refine congrArg₂ (· + ·) ?_ ?_
  · rw [shapeCast_self]
    exact (Cert.Lib.MatmulT.matmul_zero_ix2_t dot_S128x2048_S2048x2048_S128x2048_1_1_0_0_n_n none rfl rfl D0_l0 D0_l1 D0_r0 D0_r1 (truncf .bf16 x0 bitsLt_bf16_f32) q r n).trans
      (Finset.sum_congr rfl fun k _ => rfl)
  · rw [shapeCast_self]
    exact broadcastTo_1b_ab_apply b _ r n

/-- The body's stored value at row r, column n of the block: the gated step of the loaded blocks. -/
theorem pay0_apply (x0 : Vec Ideal S128x2048 .f32) (q1 : Vec Ideal S2048x2048 .bf16) (b1 : Vec Ideal S1x2048 .f32)
    (q2 : Vec Ideal S2048x2048 .bf16) (b2 : Vec Ideal S1x2048 .f32) (q3 : Vec Ideal S2048x2048 .bf16) (b3 : Vec Ideal S1x2048 .f32) (r : Fin 128) (n : Fin 2048) :
    k0_pay1 (F := Ideal) x0 q1 b1 q2 b2 q3 b3 (ix2 r n)
      = Cert.Spec.gru (fun r k => x0 (ix2 r k)) (fun n k => q1 (ix2 n k)) (fun n => b1 (ix2 (0 : Fin 1) n))
          (fun n k => q2 (ix2 n k)) (fun n => b2 (ix2 (0 : Fin 1) n)) (fun n k => q3 (ix2 n k)) (fun n => b3 (ix2 (0 : Fin 1) n)) r n := by
  unfold k0_pay1 Cert.Spec.gru Cert.Spec.sg Cert.Spec.silu Cert.Spec.lin
  dsimp only
  show Ideal.logistic ((addf _ _ : FVec Ideal S128x2048 .f32) (ix2 r n)) * ((Ideal.ofBits .f32 0x3F800000#32 - Ideal.logistic ((addf _ _ : FVec Ideal S128x2048 .f32) (ix2 r n))) * ((addf _ _ : FVec Ideal S128x2048 .f32) (ix2 r n) * Ideal.logistic ((addf _ _ : FVec Ideal S128x2048 .f32) (ix2 r n)))) = _
  rw [lin0_at x0 q3 b3 r n, lin0_at x0 q1 b1 r n, lin0_at x0 q2 b2 r n, Ideal.ofBits_one_f32]

variable (V : (c : Dev nD) → (b : Ref sig .tc) → Buf (Elt Ideal) ((c : Thread nD τ).loc b))

/-- The array the call leaves, as one function of the arrays it found. -/
def G0 (c : Dev nD) : S4096x2048.Idx → Elt Ideal .bf16 := fun j =>
  Cert.Spec.gru (fun i k => V c main_arg0 (ix2 i k)) (fun n k => V c main_v5 (ix2 n k)) (fun n => V c main_v42 (ix2 (0 : Fin 1) n))
    (fun n k => V c main_v11 (ix2 n k)) (fun n => V c main_v43 (ix2 (0 : Fin 1) n)) (fun n k => V c main_v17 (ix2 n k)) (fun n => V c main_v44 (ix2 (0 : Fin 1) n))
    ⟨(j 0).val, idx2_lt0 j⟩ ⟨(j 1).val, idx2_lt1 j⟩

theorem G0_apply (c : Dev nD) (i : Fin 4096) (n : Fin 2048) :
    G0 V c (ix2 i n) = Cert.Spec.gru (fun i k => V c main_arg0 (ix2 i k)) (fun n k => V c main_v5 (ix2 n k)) (fun n => V c main_v42 (ix2 (0 : Fin 1) n))
      (fun n k => V c main_v11 (ix2 n k)) (fun n => V c main_v43 (ix2 (0 : Fin 1) n)) (fun n k => V c main_v17 (ix2 n k)) (fun n => V c main_v44 (ix2 (0 : Fin 1) n)) i n := rfl

/-- The printed index maps over the grid: the block of x moves with the output block along the rows; every weight and bias is its
    one whole block. -/
theorem idx_facts0 : ∀ t : Fin cfg0.N, win0_0.index t (0 : Fin 2) = win0_7.index t (0 : Fin 2) ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

set_option maxHeartbeats 1600000 in
/-- What grid point t writes back is its block of `G0`. -/
theorem flushed0_eq (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  unfold out0_7
  rw [View.canon_unit_zero hz0]
  simp only [View.ld_unit_zero (S := S128x2048) hz0, View.ld_unit_zero (S := S2048x2048) hz0, View.ld_unit_zero (S := S1x2048) hz0]
  obtain ⟨e0, e1, e2, e3, e4, e5, e6, e7, e8, e9, e10, e11, e12, e13, e14, e15⟩ := idx_facts0 t
  funext j
  obtain ⟨r, n, rfl⟩ : ∃ (r : Fin 128) (n : Fin 2048), j = ix2 r n := ⟨j 0, j 1, eq_ix2 j⟩
  refine (pay0_apply (iblk0 V c 0 t) (iblk0 V c 1 t) (iblk0 V c 2 t) (iblk0 V c 3 t) (iblk0 V c 4 t) (iblk0 V c 5 t) (iblk0 V c 6 t) r n).trans ?_
  show _ = G0 V c (((cfg0.win 7).blk t).view.emb (ix2 r n))
  unfold G0
  exact Cert.Spec.gru_congr
    (fun k => by
      show V c main_arg0 (((cfg0.win 0).blk t).view.emb (ix2 r k)) = V c main_arg0 _
      refine congrArg (V c main_arg0) (funext fun a => Fin.ext ?_)
      match a with
      | ⟨0, _⟩ => show win0_0.index t (0 : Fin 2) * 128 + 1 * r.val = win0_7.index t (0 : Fin 2) * 128 + 1 * r.val; omega
      | ⟨1, _⟩ => show win0_0.index t (1 : Fin 2) * 2048 + 1 * k.val = k.val; omega)
    (fun k => by
      show V c main_v5 (((cfg0.win 1).blk t).view.emb (ix2 n k)) = V c main_v5 _
      refine congrArg (V c main_v5) (funext fun a => Fin.ext ?_)
      match a with
      | ⟨0, _⟩ => show win0_1.index t (0 : Fin 2) * 2048 + 1 * n.val = win0_7.index t (1 : Fin 2) * 2048 + 1 * n.val; omega
      | ⟨1, _⟩ => show win0_1.index t (1 : Fin 2) * 2048 + 1 * k.val = k.val; omega)
    (by
      show V c main_v42 (((cfg0.win 2).blk t).view.emb (ix2 (0 : Fin 1) n)) = V c main_v42 _
      refine congrArg (V c main_v42) (funext fun a => Fin.ext ?_)
      match a with
      | ⟨0, _⟩ => show win0_2.index t (0 : Fin 2) * 1 + 1 * 0 = 0; omega
      | ⟨1, _⟩ => show win0_2.index t (1 : Fin 2) * 2048 + 1 * n.val = win0_7.index t (1 : Fin 2) * 2048 + 1 * n.val; omega)
    (fun k => by
      show V c main_v11 (((cfg0.win 3).blk t).view.emb (ix2 n k)) = V c main_v11 _
      refine congrArg (V c main_v11) (funext fun a => Fin.ext ?_)
      match a with
      | ⟨0, _⟩ => show win0_3.index t (0 : Fin 2) * 2048 + 1 * n.val = win0_7.index t (1 : Fin 2) * 2048 + 1 * n.val; omega
      | ⟨1, _⟩ => show win0_3.index t (1 : Fin 2) * 2048 + 1 * k.val = k.val; omega)
    (by
      show V c main_v43 (((cfg0.win 4).blk t).view.emb (ix2 (0 : Fin 1) n)) = V c main_v43 _
      refine congrArg (V c main_v43) (funext fun a => Fin.ext ?_)
      match a with
      | ⟨0, _⟩ => show win0_4.index t (0 : Fin 2) * 1 + 1 * 0 = 0; omega
      | ⟨1, _⟩ => show win0_4.index t (1 : Fin 2) * 2048 + 1 * n.val = win0_7.index t (1 : Fin 2) * 2048 + 1 * n.val; omega)
    (fun k => by
      show V c main_v17 (((cfg0.win 5).blk t).view.emb (ix2 n k)) = V c main_v17 _
      refine congrArg (V c main_v17) (funext fun a => Fin.ext ?_)
      match a with
      | ⟨0, _⟩ => show win0_5.index t (0 : Fin 2) * 2048 + 1 * n.val = win0_7.index t (1 : Fin 2) * 2048 + 1 * n.val; omega
      | ⟨1, _⟩ => show win0_5.index t (1 : Fin 2) * 2048 + 1 * k.val = k.val; omega)
    (by
      show V c main_v44 (((cfg0.win 6).blk t).view.emb (ix2 (0 : Fin 1) n)) = V c main_v44 _
      refine congrArg (V c main_v44) (funext fun a => Fin.ext ?_)
      match a with
      | ⟨0, _⟩ => show win0_6.index t (0 : Fin 2) * 1 + 1 * 0 = 0; omega
      | ⟨1, _⟩ => show win0_6.index t (1 : Fin 2) * 2048 + 1 * n.val = win0_7.index t (1 : Fin 2) * 2048 + 1 * n.val; omega)

theorem mem_blk0 (t : Fin cfg0.N) (i : S4096x2048.Idx) :
    i ∈ ((cfg0.win 7).blk t).view.set ↔ ∀ a : Fin 2, win0_7.index t a * S128x2048.size a ≤ (i a).val ∧ (i a).val < win0_7.index t a * S128x2048.size a + S128x2048.size a := by
  show i ∈ ((View.whole main_v49).slice (win0_7.rect t)).set ↔ _
  rw [View.set_slice_whole, Rect.mem_set_unit]
  exact Iff.rfl

/-- Every row of the array lies in some grid point's block. -/
theorem cover0 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  have hN : cfg0.N = 32 := N_0
  refine ⟨⟨(i 0).val / 128, by rw [hN]; omega⟩, flush0_7 _, ?_⟩
  rw [mem_blk0]
  obtain ⟨e0, e1, e2, e3, e4, e5, e6, e7, e8, e9, e10, e11, e12, e13, e14, e15⟩ := idx_facts0 ⟨(i 0).val / 128, by rw [hN]; omega⟩
  intro a
  match a with
  | ⟨0, _⟩ => show win0_7.index _ (0 : Fin 2) * 128 ≤ (i 0).val ∧ (i 0).val < win0_7.index _ (0 : Fin 2) * 128 + 128; rw [e14]; dsimp only; omega
  | ⟨1, _⟩ => show win0_7.index _ (1 : Fin 2) * 2048 ≤ (i 1).val ∧ (i 1).val < win0_7.index _ (1 : Fin 2) * 2048 + 2048; rw [e15]; omega

/-- The array after the call. -/
theorem final0 (c : Dev nD) : (dat0 V c).arrAt 7 cfg0.N = G0 V c :=
  (dat0 V c).arrAt_eq_of_cover 7 (G0 V c) (fun t _ => flushed0_eq V c t) (cover0)

end Cert.KernelIdeal.Val

end
-- ==== Proof.KI.Val1.lean ====
/-
  What the second pallas call computes, over the extended reals: the array it leaves is, entry by entry, the linear layer
  o(i, n) = Σₖ v(i, k) · Q(n, k) + b(n) of the arrays it found. Each grid point handles 512 rows: its block of the result is the
  layer of its block of v with the whole weight and bias, and the 8 blocks tile the 4096 rows.
-/
import proofs.«145004_j89799176225622_2_alg».proof.Proof.KI.R1
import proofs.«145004_j89799176225622_2_alg».proof.Proof.Spec
import proofs.«145004_j89799176225622_2_alg».proof.Proof.LibMatmulT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

theorem hz2 : (![0, 0] : Fin 2 → Nat) = fun _ => 0 := funext fun a => by fin_cases a <;> rfl

/-! The dimension numbers of the 512 × 2048 by 2048 × 2048 product: both operands contracted on their second axis. -/
theorem D1_l0 (j : S512x2048.Idx) (q : dot_S512x2048_S2048x2048_S512x2048_1_1_0_0_n_n.contr.Idx) :
    (dot_S512x2048_S2048x2048_S512x2048_1_1_0_0_n_n.lhsIdx j q 0).val = (j 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem D1_l1 (j : S512x2048.Idx) (q : dot_S512x2048_S2048x2048_S512x2048_1_1_0_0_n_n.contr.Idx) :
    (dot_S512x2048_S2048x2048_S512x2048_1_1_0_0_n_n.lhsIdx j q 1).val = (q ⟨0, by decide⟩).val :=
  dot_S512x2048_S2048x2048_S512x2048_1_1_0_0_n_n.lhsIdx_val_of_single rfl j q
theorem D1_r0 (j : S512x2048.Idx) (q : dot_S512x2048_S2048x2048_S512x2048_1_1_0_0_n_n.contr.Idx) :
    (dot_S512x2048_S2048x2048_S512x2048_1_1_0_0_n_n.rhsIdx j q 0).val = (j 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem D1_r1 (j : S512x2048.Idx) (q : dot_S512x2048_S2048x2048_S512x2048_1_1_0_0_n_n.contr.Idx) :
    (dot_S512x2048_S2048x2048_S512x2048_1_1_0_0_n_n.rhsIdx j q 1).val = (q ⟨0, by decide⟩).val :=
  dot_S512x2048_S2048x2048_S512x2048_1_1_0_0_n_n.rhsIdx_val_of_single rfl j q

/-- The body's stored value at row r, column n of the block: the linear layer of the loaded blocks. -/
theorem pay1_apply (x0 : Vec Ideal S512x2048 .bf16) (q : Vec Ideal S2048x2048 .bf16) (b : Vec Ideal S1x2048 .f32) (r : Fin 512) (n : Fin 2048) :
    k1_pay1 (F := Ideal) x0 q b (ix2 r n)
      = Cert.Spec.lin (fun r k => x0 (ix2 r k)) (fun n k => q (ix2 n k)) (fun n => b (ix2 (0 : Fin 1) n)) r n := by
  unfold k1_pay1 Cert.Spec.lin
  dsimp only
  show (addf _ _ : FVec Ideal S512x2048 .f32) (ix2 r n) = _
  show _ + _ = _
  refine congrArg₂ (· + ·) ?_ ?_
  · rw [shapeCast_self, shapeCast_self]
    exact Cert.Lib.MatmulT.matmul_zero_ix2_t dot_S512x2048_S2048x2048_S512x2048_1_1_0_0_n_n none rfl rfl D1_l0 D1_l1 D1_r0 D1_r1 x0 q r n
  · rw [shapeCast_self]
    exact broadcastTo_1b_ab_apply b _ r n

variable (V : (c : Dev nD) → (b : Ref sig .tc) → Buf (Elt Ideal) ((c : Thread nD τ).loc b))

/-- The array the call leaves, as one function of the arrays it found. -/
def G1 (c : Dev nD) : S4096x2048.Idx → Elt Ideal .bf16 := fun j =>
  Cert.Spec.lin (fun i k => V c main_v49 (ix2 i k)) (fun n k => V c main_v23 (ix2 n k)) (fun n => V c main_v45 (ix2 (0 : Fin 1) n)) ⟨(j 0).val, idx2_lt0 j⟩ ⟨(j 1).val, idx2_lt1 j⟩

/-- The printed index maps over the grid: the input block of v moves with the output block along the rows; the weight and the
    bias are the one whole block; the output's column block is the only one. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is its block of `G1`. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz2]
  simp only [View.ld_unit_zero (S := S512x2048) hz2, View.ld_unit_zero (S := S2048x2048) hz2, View.ld_unit_zero (S := S1x2048) hz2]
  obtain ⟨e0, e1, e2, e3, e4, e5, e6, e7⟩ := idx_facts1 t
  funext j
  obtain ⟨r, n, rfl⟩ : ∃ (r : Fin 512) (n : Fin 2048), j = ix2 r n := ⟨j 0, j 1, eq_ix2 j⟩
  refine (pay1_apply (iblk1 V c 0 t) (iblk1 V c 1 t) (iblk1 V c 2 t) r n).trans ?_
  show _ = G1 V c (((cfg1.win 3).blk t).view.emb (ix2 r n))
  unfold G1 Cert.Spec.lin
  dsimp only
  refine congrArg₂ (· + ·) (Finset.sum_congr rfl fun k _ => congrArg₂ (· * ·) ?_ ?_) ?_
  · show V c main_v49 (((cfg1.win 0).blk t).view.emb (ix2 r k)) = V c main_v49 _
    refine congrArg (V c main_v49) (funext fun a => Fin.ext ?_)
    match a with
    | ⟨0, _⟩ => show win1_0.index t (0 : Fin 2) * 512 + 1 * r.val = win1_3.index t (0 : Fin 2) * 512 + 1 * r.val; omega
    | ⟨1, _⟩ => show win1_0.index t (1 : Fin 2) * 2048 + 1 * k.val = k.val; omega
  · show V c main_v23 (((cfg1.win 1).blk t).view.emb (ix2 n k)) = V c main_v23 _
    refine congrArg (V c main_v23) (funext fun a => Fin.ext ?_)
    match a with
    | ⟨0, _⟩ => show win1_1.index t (0 : Fin 2) * 2048 + 1 * n.val = win1_3.index t (1 : Fin 2) * 2048 + 1 * n.val; omega
    | ⟨1, _⟩ => show win1_1.index t (1 : Fin 2) * 2048 + 1 * k.val = k.val; omega
  · show V c main_v45 (((cfg1.win 2).blk t).view.emb (ix2 (0 : Fin 1) n)) = V c main_v45 _
    refine congrArg (V c main_v45) (funext fun a => Fin.ext ?_)
    match a with
    | ⟨0, _⟩ => show win1_2.index t (0 : Fin 2) * 1 + 1 * 0 = 0; omega
    | ⟨1, _⟩ => show win1_2.index t (1 : Fin 2) * 2048 + 1 * n.val = win1_3.index t (1 : Fin 2) * 2048 + 1 * n.val; omega

/-- Every row of the array lies in some grid point's block. -/
theorem mem_blk1 (t : Fin cfg1.N) (i : S4096x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v50).slice (win1_3.rect t)).set ↔ _
  rw [View.set_slice_whole, Rect.mem_set_unit]
  exact Iff.rfl

theorem cover1 (i : S4096x2048.Idx) : ∃ t : Fin cfg1.N, (cfg1.win 3).flush t = true ∧ i ∈ ((cfg1.win 3).blk t).view.set := by
  have hi0 : (i 0).val < 4096 := (i 0).isLt
  have hi1 : (i 1).val < 2048 := (i 1).isLt
  have hN : cfg1.N = 8 := N_1
  refine ⟨⟨(i 0).val / 512, by rw [hN]; omega⟩, flush1_3 _, ?_⟩
  rw [mem_blk1]
  obtain ⟨e0, e1, e2, e3, e4, e5, e6, e7⟩ := idx_facts1 ⟨(i 0).val / 512, by rw [hN]; omega⟩
  intro a
  match a with
  | ⟨0, _⟩ => show win1_3.index _ (0 : Fin 2) * 512 ≤ (i 0).val ∧ (i 0).val < win1_3.index _ (0 : Fin 2) * 512 + 512; rw [e6]; dsimp only; omega
  | ⟨1, _⟩ => show win1_3.index _ (1 : Fin 2) * 2048 ≤ (i 1).val ∧ (i 1).val < win1_3.index _ (1 : Fin 2) * 2048 + 2048; rw [e7]; omega

theorem G1_apply (c : Dev nD) (i : Fin 4096) (n : Fin 2048) :
    G1 V c (ix2 i n) = Cert.Spec.lin (fun i k => V c main_v49 (ix2 i k)) (fun n k => V c main_v23 (ix2 n k)) (fun n => V c main_v45 (ix2 (0 : Fin 1) n)) i n := rfl

/-- The array after the call. -/
theorem final1 (c : Dev nD) : (dat1 V c).arrAt 3 cfg1.N = G1 V c :=
  (dat1 V c).arrAt_eq_of_cover 3 (G1 V c) (fun t _ => flushed1_eq V c t) (cover1)

end Cert.KernelIdeal.Val

end
-- ==== Proof.KI.Val2.lean ====
/-
  What the third pallas call computes, over the extended reals: the array it leaves is, entry by entry, the gated linear unit
  w(i, n) = σ(Σₖ o(i, k) · Qg(n, k) + bg(n)) · silu(Σₖ o(i, k) · Qu(n, k) + bu(n)) of the arrays it found. Each grid point handles
  128 rows and 2048 columns: its block of the result is the unit of its row block of o with its row blocks of the two weights
  and its pieces of the two biases, and the 32 × 4 blocks tile the 4096 × 8192 array.
-/
import proofs.«145004_j89799176225622_2_alg».proof.Proof.KI.R2
import proofs.«145004_j89799176225622_2_alg».proof.Proof.Spec
import proofs.«145004_j89799176225622_2_alg».proof.Proof.LibMatmulT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

theorem hzero2 : (![0, 0] : Fin 2 → Nat) = fun _ => 0 := funext fun a => by fin_cases a <;> rfl

/-! The dimension numbers of the 128 × 2048 by 2048 × 2048 product: both operands contracted on their second axis. -/
theorem D2_l0 (j : S128x2048.Idx) (q : dot_S128x2048_S2048x2048_S128x2048_1_1_0_0_n_n.contr.Idx) :
    (dot_S128x2048_S2048x2048_S128x2048_1_1_0_0_n_n.lhsIdx j q 0).val = (j 0).val := by
  unfold DotDims.lhsIdx
  rw [dif_neg (show ¬(0 : Fin S128x2048.rank) ∈ dot_S128x2048_S2048x2048_S128x2048_1_1_0_0_n_n.lhsBatch by decide), dif_pos (show (0 : Fin S128x2048.rank) ∈ dot_S128x2048_S2048x2048_S128x2048_1_1_0_0_n_n.lhsNonContracting by decide)]
  rfl
theorem D2_l1 (j : S128x2048.Idx) (q : dot_S128x2048_S2048x2048_S128x2048_1_1_0_0_n_n.contr.Idx) :
    (dot_S128x2048_S2048x2048_S128x2048_1_1_0_0_n_n.lhsIdx j q 1).val = (q ⟨0, by decide⟩).val :=
  dot_S128x2048_S2048x2048_S128x2048_1_1_0_0_n_n.lhsIdx_val_of_single rfl j q
theorem D2_r0 (j : S128x2048.Idx) (q : dot_S128x2048_S2048x2048_S128x2048_1_1_0_0_n_n.contr.Idx) :
    (dot_S128x2048_S2048x2048_S128x2048_1_1_0_0_n_n.rhsIdx j q 0).val = (j 1).val := by
  unfold DotDims.rhsIdx
  rw [dif_neg (show ¬(0 : Fin S2048x2048.rank) ∈ dot_S128x2048_S2048x2048_S128x2048_1_1_0_0_n_n.rhsBatch by decide), dif_pos (show (0 : Fin S2048x2048.rank) ∈ dot_S128x2048_S2048x2048_S128x2048_1_1_0_0_n_n.rhsNonContracting by decide)]
  rfl
theorem D2_r1 (j : S128x2048.Idx) (q : dot_S128x2048_S2048x2048_S128x2048_1_1_0_0_n_n.contr.Idx) :
    (dot_S128x2048_S2048x2048_S128x2048_1_1_0_0_n_n.rhsIdx j q 1).val = (q ⟨0, by decide⟩).val :=
  dot_S128x2048_S2048x2048_S128x2048_1_1_0_0_n_n.rhsIdx_val_of_single rfl j q

/-- One branch's pre-activation at row r, column n of the block: the linear layer of the loaded blocks. -/
theorem lin2_apply (x0 : Vec Ideal S128x2048 .bf16) (q : Vec Ideal S2048x2048 .bf16) (b : Vec Ideal S1x2048 .f32) (r : Fin 128) (n : Fin 2048) :
    (addf (matmul dot_S128x2048_S2048x2048_S128x2048_1_1_0_0_n_n none (shapeCast S128x2048 x0 shapeCasts_S128x2048_S128x2048 : FVec Ideal S128x2048 .bf16)
        (shapeCast S2048x2048 q shapeCasts_S2048x2048_S2048x2048 : FVec Ideal S2048x2048 .bf16) (constant S128x2048 .f32 0x00000000#32))
      (broadcastTo S128x2048 (shapeCast S1x2048 b shapeCasts_S1x2048_S1x2048 : FVec Ideal S1x2048 .f32) broadcasts_S1x2048_S128x2048) : FVec Ideal S128x2048 .f32) (ix2 r n)
      = (∑ k : Fin 2048, x0 (ix2 r k) * q (ix2 n k)) + b (ix2 (0 : Fin 1) n) := by
  show _ + _ = _
  refine congrArg₂ (· + ·) ?_ ?_
  · rw [shapeCast_self, shapeCast_self]
    exact Cert.Lib.MatmulT.matmul_zero_ix2_t dot_S128x2048_S2048x2048_S128x2048_1_1_0_0_n_n none rfl rfl D2_l0 D2_l1 D2_r0 D2_r1 x0 q r n
  · rw [shapeCast_self]
    exact broadcastTo_1b_ab_apply b _ r n

/-- The body's stored value at row r, column n of the block: the gated linear unit of the loaded blocks. -/
theorem pay2_apply (x0 : Vec Ideal S128x2048 .bf16) (q1 : Vec Ideal S2048x2048 .bf16) (b1 : Vec Ideal S1x2048 .f32)
    (q2 : Vec Ideal S2048x2048 .bf16) (b2 : Vec Ideal S1x2048 .f32) (r : Fin 128) (n : Fin 2048) :
    k2_pay1 (F := Ideal) x0 q1 b1 q2 b2 (ix2 r n)
      = Cert.Spec.glu (fun r k => x0 (ix2 r k)) (fun n k => q1 (ix2 n k)) (fun n => b1 (ix2 (0 : Fin 1) n))
          (fun n k => q2 (ix2 n k)) (fun n => b2 (ix2 (0 : Fin 1) n)) r n := by
  unfold k2_pay1 Cert.Spec.glu Cert.Spec.sg Cert.Spec.silu Cert.Spec.lin
  dsimp only
  show Ideal.logistic ((addf _ _ : FVec Ideal S128x2048 .f32) (ix2 r n))
      * ((addf _ _ : FVec Ideal S128x2048 .f32) (ix2 r n) * Ideal.logistic ((addf _ _ : FVec Ideal S128x2048 .f32) (ix2 r n))) = _
  rw [lin2_apply x0 q1 b1 r n, lin2_apply x0 q2 b2 r n]

/-- A linear layer's entry depends only on the row of the input, the row of the weight and the bias entry it reads. -/
theorem lin_congr2 {M M' K N N' : ℕ} (X : Fin M → Fin K → EReal) (X' : Fin M' → Fin K → EReal) (Q : Fin N → Fin K → EReal)
    (Q' : Fin N' → Fin K → EReal) (b : Fin N → EReal) (b' : Fin N' → EReal) (i : Fin M) (i' : Fin M') (n : Fin N) (n' : Fin N')
    (hX : ∀ k, X i k = X' i' k) (hQ : ∀ k, Q n k = Q' n' k) (hb : b n = b' n') :
    Cert.Spec.lin X Q b i n = Cert.Spec.lin X' Q' b' i' n' := by
  unfold Cert.Spec.lin
  rw [hb]
  exact congrArg (· + b' n') (Finset.sum_congr rfl fun k _ => by rw [hX k, hQ k])

variable (V : (c : Dev nD) → (b : Ref sig .tc) → Buf (Elt Ideal) ((c : Thread nD τ).loc b))

/-- The array the call leaves, as one function of the arrays it found. -/
def G2 (c : Dev nD) : S4096x8192.Idx → Elt Ideal .bf16 := fun j =>
  Cert.Spec.glu (fun i k => V c main_v50 (ix2 i k)) (fun n k => V c main_v29 (ix2 n k)) (fun n => V c main_v46 (ix2 (0 : Fin 1) n))
    (fun n k => V c main_v35 (ix2 n k)) (fun n => V c main_v47 (ix2 (0 : Fin 1) n)) ⟨(j 0).val, idx2_lt0 j⟩ ⟨(j 1).val, idx2_lt1 j⟩

theorem G2_apply (c : Dev nD) (i : Fin 4096) (n : Fin 8192) :
    G2 V c (ix2 i n) = Cert.Spec.glu (fun i k => V c main_v50 (ix2 i k)) (fun n k => V c main_v29 (ix2 n k)) (fun n => V c main_v46 (ix2 (0 : Fin 1) n))
    (fun n k => V c main_v35 (ix2 n k)) (fun n => V c main_v47 (ix2 (0 : Fin 1) n)) i n := rfl

/-- The printed index maps over the grid, whose point t is column block t / 32 and row block t % 32: the block of o moves with
    the output block along the rows; each weight's row block and each bias's piece move with the output block along the columns. -/
theorem idx_facts2 : ∀ t : Fin cfg2.N, win2_0.index t (0 : Fin 2) = win2_5.index t (0 : Fin 2)
    ∧ win2_0.index t (1 : Fin 2) = 0
    ∧ win2_1.index t (0 : Fin 2) = win2_5.index t (1 : Fin 2) ∧ win2_1.index t (1 : Fin 2) = 0
    ∧ win2_2.index t (0 : Fin 2) = 0 ∧ win2_2.index t (1 : Fin 2) = win2_5.index t (1 : Fin 2)
    ∧ win2_3.index t (0 : Fin 2) = win2_5.index t (1 : Fin 2) ∧ win2_3.index t (1 : Fin 2) = 0
    ∧ win2_4.index t (0 : Fin 2) = 0 ∧ win2_4.index t (1 : Fin 2) = win2_5.index t (1 : Fin 2)
    ∧ win2_5.index t (0 : Fin 2) = t.val % 32 ∧ win2_5.index t (1 : Fin 2) = t.val / 32 :=
  (by decide +kernel : ∀ t : Fin grid2.N, _)

set_option maxHeartbeats 1600000 in
/-- What grid point t writes back is its block of `G2`. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hzero2]
  simp only [View.ld_unit_zero (S := S128x2048) hzero2, View.ld_unit_zero (S := S2048x2048) hzero2, View.ld_unit_zero (S := S1x2048) hzero2]
  obtain ⟨e0, e1, e2, e3, e4, e5, e6, e7, e8, e9, e10, e11⟩ := idx_facts2 t
  funext j
  obtain ⟨r, n, rfl⟩ : ∃ (r : Fin 128) (n : Fin 2048), j = ix2 r n := ⟨j 0, j 1, eq_ix2 j⟩
  refine (pay2_apply (iblk2 V c 0 t) (iblk2 V c 1 t) (iblk2 V c 2 t) (iblk2 V c 3 t) (iblk2 V c 4 t) r n).trans ?_
  show _ = G2 V c (((cfg2.win 5).blk t).view.emb (ix2 r n))
  unfold G2 Cert.Spec.glu
  dsimp only
  refine congrArg₂ (· * ·) (congrArg Cert.Spec.sg (lin_congr2 _ _ _ _ _ _ _ _ _ _ (fun k => ?_) (fun k => ?_) ?_))
    (congrArg Cert.Spec.silu (lin_congr2 _ _ _ _ _ _ _ _ _ _ (fun k => ?_) (fun k => ?_) ?_))
  · show V c main_v50 (((cfg2.win 0).blk t).view.emb (ix2 r k)) = V c main_v50 _
    refine congrArg (V c main_v50) (funext fun a => Fin.ext ?_)
    match a with
    | ⟨0, _⟩ => show win2_0.index t (0 : Fin 2) * 128 + 1 * r.val = win2_5.index t (0 : Fin 2) * 128 + 1 * r.val; omega
    | ⟨1, _⟩ => show win2_0.index t (1 : Fin 2) * 2048 + 1 * k.val = k.val; omega
  · show V c main_v29 (((cfg2.win 1).blk t).view.emb (ix2 n k)) = V c main_v29 _
    refine congrArg (V c main_v29) (funext fun a => Fin.ext ?_)
    match a with
    | ⟨0, _⟩ => show win2_1.index t (0 : Fin 2) * 2048 + 1 * n.val = win2_5.index t (1 : Fin 2) * 2048 + 1 * n.val; omega
    | ⟨1, _⟩ => show win2_1.index t (1 : Fin 2) * 2048 + 1 * k.val = k.val; omega
  · show V c main_v46 (((cfg2.win 2).blk t).view.emb (ix2 (0 : Fin 1) n)) = V c main_v46 _
    refine congrArg (V c main_v46) (funext fun a => Fin.ext ?_)
    match a with
    | ⟨0, _⟩ => show win2_2.index t (0 : Fin 2) * 1 + 1 * 0 = 0; omega
    | ⟨1, _⟩ => show win2_2.index t (1 : Fin 2) * 2048 + 1 * n.val = win2_5.index t (1 : Fin 2) * 2048 + 1 * n.val; omega
  · show V c main_v50 (((cfg2.win 0).blk t).view.emb (ix2 r k)) = V c main_v50 _
    refine congrArg (V c main_v50) (funext fun a => Fin.ext ?_)
    match a with
    | ⟨0, _⟩ => show win2_0.index t (0 : Fin 2) * 128 + 1 * r.val = win2_5.index t (0 : Fin 2) * 128 + 1 * r.val; omega
    | ⟨1, _⟩ => show win2_0.index t (1 : Fin 2) * 2048 + 1 * k.val = k.val; omega
  · show V c main_v35 (((cfg2.win 3).blk t).view.emb (ix2 n k)) = V c main_v35 _
    refine congrArg (V c main_v35) (funext fun a => Fin.ext ?_)
    match a with
    | ⟨0, _⟩ => show win2_3.index t (0 : Fin 2) * 2048 + 1 * n.val = win2_5.index t (1 : Fin 2) * 2048 + 1 * n.val; omega
    | ⟨1, _⟩ => show win2_3.index t (1 : Fin 2) * 2048 + 1 * k.val = k.val; omega
  · show V c main_v47 (((cfg2.win 4).blk t).view.emb (ix2 (0 : Fin 1) n)) = V c main_v47 _
    refine congrArg (V c main_v47) (funext fun a => Fin.ext ?_)
    match a with
    | ⟨0, _⟩ => show win2_4.index t (0 : Fin 2) * 1 + 1 * 0 = 0; omega
    | ⟨1, _⟩ => show win2_4.index t (1 : Fin 2) * 2048 + 1 * n.val = win2_5.index t (1 : Fin 2) * 2048 + 1 * n.val; omega

/-- A grid point's block of the array, as bounds on the two coordinates. -/
theorem mem_blk2 (t : Fin cfg2.N) (i : S4096x8192.Idx) :
    i ∈ ((cfg2.win 5).blk t).view.set ↔ ∀ a : Fin 2, win2_5.index t a * S128x2048.size a ≤ (i a).val ∧ (i a).val < win2_5.index t a * S128x2048.size a + S128x2048.size a := by
  show i ∈ ((View.whole main_v51).slice (win2_5.rect t)).set ↔ _
  rw [View.set_slice_whole, Rect.mem_set_unit]
  exact Iff.rfl

/-- Every entry of the array lies in some grid point's block: column block (i 1) / 2048, row block (i 0) / 128. -/
theorem cover2 (i : S4096x8192.Idx) : ∃ t : Fin cfg2.N, (cfg2.win 5).flush t = true ∧ i ∈ ((cfg2.win 5).blk t).view.set := by
  have hi0 : (i 0).val < 4096 := (i 0).isLt
  have hi1 : (i 1).val < 8192 := (i 1).isLt
  have hN : cfg2.N = 128 := N_2
  refine ⟨⟨32 * ((i 1).val / 2048) + (i 0).val / 128, by rw [hN]; omega⟩, flush2_5 _, ?_⟩
  rw [mem_blk2]
  obtain ⟨e0, e1, e2, e3, e4, e5, e6, e7, e8, e9, e10, e11⟩ := idx_facts2 ⟨32 * ((i 1).val / 2048) + (i 0).val / 128, by rw [hN]; omega⟩
  intro a
  match a with
  | ⟨0, _⟩ => show win2_5.index _ (0 : Fin 2) * 128 ≤ (i 0).val ∧ (i 0).val < win2_5.index _ (0 : Fin 2) * 128 + 128; rw [e10]; dsimp only; omega
  | ⟨1, _⟩ => show win2_5.index _ (1 : Fin 2) * 2048 ≤ (i 1).val ∧ (i 1).val < win2_5.index _ (1 : Fin 2) * 2048 + 2048; rw [e11]; dsimp only; omega

/-- The array after the call. -/
theorem final2 (c : Dev nD) : (dat2 V c).arrAt 5 cfg2.N = G2 V c :=
  (dat2 V c).arrAt_eq_of_cover 5 (G2 V c) (fun t _ => flushed2_eq V c t) (cover2)

end Cert.KernelIdeal.Val

end
-- ==== Proof.KI.R3Value.lean ====
/-
  What the fourth pallas call computes, over the extended reals: the array it leaves is, entry by entry, the linear layer
  out(i, n) = Σₖ w(i, k) · Q(n, k) + b(n) of the arrays it found, the 8192-long sum taken in 8 pieces of 1024 along the second grid
  axis: at the point (m, k) the accumulator holds, for the 512 rows of block m, the partial sums over the first k + 1 pieces; at
  k = 7 the block written back is the whole sum plus the bias, and the 8 row blocks tile the 4096 rows.
-/
import proofs.«145004_j89799176225622_2_alg».proof.Proof.KI.R3
import proofs.«145004_j89799176225622_2_alg».proof.Proof.Spec
import proofs.«145004_j89799176225622_2_alg».proof.Proof.LibMatmulT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

section Pieces
variable {F : FTy → Type} [FloatOps F]

/-! ## What each case's stores leave, as the payloads of the loaded blocks -/

theorem hz3 : (![0, 0] : Fin 2 → Nat) = fun _ => 0 := funext fun a => by fin_cases a <;> rfl

/-- Where the second coordinate is neither 0 nor 7 the accumulator ends at its old contents plus the product of the two blocks. -/
theorem sout3_B_eq (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i) (x0 : Vec F S512x1024 .bf16) (x1 : Vec F S2048x1024 .bf16) (x2 : Vec F S1x2048 .f32) (xs0 : Vec F S512x2048 .f32) :
    sout3_B_0 c i arg2 harg2 arg3 harg3 arg4 harg4 arg5 harg5 arg6 harg6 hc0 hc1 x0 x1 x2 xs0 = k3_pay2 xs0 x0 x1 := by
  unfold sout3_B_0
  rw [View.read_writes_eq_canon _ _ _ (scover3_B_0 c i arg2 harg2 arg3 harg3 arg4 harg4 arg5 harg5 arg6 harg6 hc0 hc1 x0 x1 x2 xs0)]
  unfold kernelRun3_B
  dsimp only
  (try sl_unfold_words)
  rw [View.canon_unit_zero hz3]
  simp only [View.readAt_eq_ld, harg2.read_unread, harg3.read_unread, harg4.read_unread, harg6.read_unread, View.ld_unit_zero (S := S512x2048) hz3, View.ld_unit_zero (S := S512x1024) hz3, View.ld_unit_zero (S := S2048x1024) hz3, View.ld_unit_zero (S := S1x2048) hz3]

/-- Where the second coordinate is 0 the accumulator ends at the zero block plus the product of the two blocks. -/
theorem sout3_A_eq (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i) (x0 : Vec F S512x1024 .bf16) (x1 : Vec F S2048x1024 .bf16) (x2 : Vec F S1x2048 .f32) :
    sout3_A_0 c i arg2 harg2 arg3 harg3 arg4 harg4 arg5 harg5 arg6 harg6 hc0 hc1 x0 x1 x2 = k3_pay2 (k3_pay1 (F := F)) x0 x1 := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  sl_unfold_words
  rw [View.canon_cons_unit_zero (S := S512x2048) hz3, View.readCov_unit_zero (S := S512x2048) _ hz3]
  simp only [View.readAt_eq_ld, harg2.read_unread, harg3.read_unread, harg4.read_unread, harg6.read_unread, View.ld_unit_zero (S := S512x2048) hz3, View.ld_unit_zero (S := S512x1024) hz3, View.ld_unit_zero (S := S2048x1024) hz3, View.ld_unit_zero (S := S1x2048) hz3]

/-- Where the second coordinate is 7 the accumulator ends at its old contents plus the product of the two blocks, -/
theorem sout3_C_eq (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i) (x0 : Vec F S512x1024 .bf16) (x1 : Vec F S2048x1024 .bf16) (x2 : Vec F S1x2048 .f32) (xs0 : Vec F S512x2048 .f32) :
    sout3_C_0 c i arg2 harg2 arg3 harg3 arg4 harg4 arg5 harg5 arg6 harg6 hc0 hc1 x0 x1 x2 xs0 = k3_pay2 xs0 x0 x1 := by
  unfold sout3_C_0
  rw [View.read_writes_eq_canon _ _ _ (scover3_C_0 c i arg2 harg2 arg3 harg3 arg4 harg4 arg5 harg5 arg6 harg6 hc0 hc1 x0 x1 x2 xs0)]
  unfold kernelRun3_C
  dsimp only
  (try sl_unfold_words)
  rw [View.canon_unit_zero hz3]
  simp only [View.readAt_eq_ld, harg2.read_unread, harg3.read_unread, harg4.read_unread, harg6.read_unread, View.ld_unit_zero (S := S512x2048) hz3, View.ld_unit_zero (S := S512x1024) hz3, View.ld_unit_zero (S := S2048x1024) hz3, View.ld_unit_zero (S := S1x2048) hz3]

/-- and the output's buffer at that plus the bias row. -/
theorem out3_C_eq (c : Dev nD) (i : grid3.Coords) (arg2 : Memref sig .tc .vmem S512x1024 .bf16) (harg2 : arg2.IsWhole) (arg3 : Memref sig .tc .vmem S2048x1024 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i) (x0 : Vec F S512x1024 .bf16) (x1 : Vec F S2048x1024 .bf16) (x2 : Vec F S1x2048 .f32) (xs0 : Vec F S512x2048 .f32) :
    out3_C_3 c i arg2 harg2 arg3 harg3 arg4 harg4 arg5 harg5 arg6 harg6 hc0 hc1 x0 x1 x2 xs0 = k3_pay3 (k3_pay2 xs0 x0 x1) x2 := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  sl_unfold_words
  rw [View.canon_unit_zero hz3, View.readCov_unit_zero (S := S512x2048) _ hz3]
  simp only [View.readAt_eq_ld, harg2.read_unread, harg3.read_unread, harg4.read_unread, harg6.read_unread, View.ld_unit_zero (S := S512x2048) hz3, View.ld_unit_zero (S := S512x1024) hz3, View.ld_unit_zero (S := S2048x1024) hz3, View.ld_unit_zero (S := S1x2048) hz3]

end Pieces

/-! The dimension numbers of the 512 × 1024 by 2048 × 1024 product: both operands contracted on their second axis. -/
theorem D3_l0 (j : S512x2048.Idx) (q : dot_S512x1024_S2048x1024_S512x2048_1_1_0_0_n_n.contr.Idx) :
    (dot_S512x1024_S2048x1024_S512x2048_1_1_0_0_n_n.lhsIdx j q 0).val = (j 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem D3_l1 (j : S512x2048.Idx) (q : dot_S512x1024_S2048x1024_S512x2048_1_1_0_0_n_n.contr.Idx) :
    (dot_S512x1024_S2048x1024_S512x2048_1_1_0_0_n_n.lhsIdx j q 1).val = (q ⟨0, by decide⟩).val :=
  dot_S512x1024_S2048x1024_S512x2048_1_1_0_0_n_n.lhsIdx_val_of_single rfl j q
theorem D3_r0 (j : S512x2048.Idx) (q : dot_S512x1024_S2048x1024_S512x2048_1_1_0_0_n_n.contr.Idx) :
    (dot_S512x1024_S2048x1024_S512x2048_1_1_0_0_n_n.rhsIdx j q 0).val = (j 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem D3_r1 (j : S512x2048.Idx) (q : dot_S512x1024_S2048x1024_S512x2048_1_1_0_0_n_n.contr.Idx) :
    (dot_S512x1024_S2048x1024_S512x2048_1_1_0_0_n_n.rhsIdx j q 1).val = (q ⟨0, by decide⟩).val :=
  dot_S512x1024_S2048x1024_S512x2048_1_1_0_0_n_n.rhsIdx_val_of_single rfl j q

/-- The block the accumulator is reset to is zero everywhere. -/
theorem pay3_1_apply (r : Fin 512) (n : Fin 2048) : k3_pay1 (F := Ideal) (ix2 r n) = 0 := by
  unfold k3_pay1
  (try dsimp only)
  rw [shapeCast_self]
  exact Ideal.ofBits_zero_f32

/-- One step of the accumulation at row r, column n: the old entry plus the 1024-long sum of products of the two loaded blocks. -/
theorem pay3_2_apply (a : Vec Ideal S512x2048 .f32) (x : Vec Ideal S512x1024 .bf16) (q : Vec Ideal S2048x1024 .bf16) (r : Fin 512) (n : Fin 2048) :
    k3_pay2 (F := Ideal) a x q (ix2 r n) = a (ix2 r n) + ∑ k : Fin 1024, x (ix2 r k) * q (ix2 n k) := by
  unfold k3_pay2
  (try dsimp only)
  rw [shapeCast_self, shapeCast_self, shapeCast_self]
  show (addf _ _ : FVec Ideal S512x2048 .f32) (ix2 r n) = _
  show _ + _ = _
  refine congrArg (a (ix2 r n) + ·) ?_
  exact Cert.Lib.MatmulT.matmul_zero_ix2_t dot_S512x1024_S2048x1024_S512x2048_1_1_0_0_n_n none rfl rfl D3_l0 D3_l1 D3_r0 D3_r1 x q r n

/-- The stored output entry at row r, column n: the accumulator's entry plus the bias at n. -/
theorem pay3_3_apply (a : Vec Ideal S512x2048 .f32) (b : Vec Ideal S1x2048 .f32) (r : Fin 512) (n : Fin 2048) :
    k3_pay3 (F := Ideal) a b (ix2 r n) = a (ix2 r n) + b (ix2 (0 : Fin 1) n) := by
  unfold k3_pay3
  (try dsimp only)
  rw [shapeCast_self]
  show (addf _ _ : FVec Ideal S512x2048 .f32) (ix2 r n) = _
  show _ + _ = _
  refine congrArg (a (ix2 r n) + ·) ?_
  exact broadcastTo_1b_ab_apply b _ r n

/-! ## The 8192-long sum in 8 pieces of 1024 -/

/-- A sum over 8192 terms is the sum over 8 pieces of the sums over the 1024 terms of each. -/
theorem sum_pieces (f : Fin 8192 → EReal) :
    ∑ K : Fin 8192, f K = ∑ k' : Fin 8, ∑ kk : Fin 1024, f ⟨1024 * k'.val + kk.val, by have := k'.isLt; have := kk.isLt; omega⟩ :=
  calc ∑ K : Fin 8192, f K = ∑ p : Fin 8 × Fin 1024, f (finProdFinEquiv p) := (Equiv.sum_comp (finProdFinEquiv (m := 8) (n := 1024)) f).symm
    _ = ∑ k' : Fin 8, ∑ kk : Fin 1024, f (finProdFinEquiv (k', kk)) := Fintype.sum_prod_type _
    _ = _ := Finset.sum_congr rfl fun k' _ => Finset.sum_congr rfl fun kk _ => congrArg f (Fin.ext (by
      simp only [finProdFinEquiv_apply_val]; omega))

variable (V : (c : Dev nD) → (b : Ref sig .tc) → Buf (Elt Ideal) ((c : Thread nD τ).loc b))

/-- The arrays the call finds, as functions of their coordinates over the extended reals: the left operand w, -/
def X3 (c : Dev nD) : Fin 4096 → Fin 8192 → EReal := fun i k => V c main_v51 (ix2 i k)
/-- the quantised weight, stored row per output column, -/
def W3 (c : Dev nD) : Fin 2048 → Fin 8192 → EReal := fun n k => V c main_v41 (ix2 n k)
/-- and the bias row. -/
def B3 (c : Dev nD) : Fin 2048 → EReal := fun n => V c main_v48 (ix2 (0 : Fin 1) n)

/-- Piece k' of the 8192-long sum at row i, column n: the products over the 1024 places of the piece (zero past the 8 pieces). -/
def piece3 (c : Dev nD) (i : Fin 4096) (n : Fin 2048) (k' : ℕ) : EReal :=
  if h : k' < 8 then ∑ kk : Fin 1024, X3 V c i ⟨1024 * k' + kk.val, by have := kk.isLt; omega⟩ * W3 V c n ⟨1024 * k' + kk.val, by have := kk.isLt; omega⟩ else 0

/-- The partial sum over the first k + 1 pieces. -/
def part3 (c : Dev nD) (i : Fin 4096) (n : Fin 2048) (k : ℕ) : EReal := ∑ k' ∈ Finset.range (k + 1), piece3 V c i n k'

/-- All 8 pieces make the whole sum. -/
theorem part3_full (c : Dev nD) (i : Fin 4096) (n : Fin 2048) :
    part3 V c i n 7 = ∑ K : Fin 8192, X3 V c i K * W3 V c n K := by
  unfold part3
  show ∑ k' ∈ Finset.range 8, piece3 V c i n k' = _
  rw [Finset.sum_range, sum_pieces]
  refine Finset.sum_congr rfl fun k' _ => ?_
  unfold piece3
  rw [dif_pos k'.isLt]

/-- The printed index maps over the grid (point t = 8·m + k): the block of w is (m, k), the weight's (0, k), the bias the one
    block, the output's (m, 0). -/
theorem idx_facts3 : ∀ t : Fin cfg3.N, win3_0.index t (0 : Fin 2) = t.val / 8 ∧ win3_0.index t (1 : Fin 2) = t.val % 8
    ∧ win3_1.index t (0 : Fin 2) = 0 ∧ win3_1.index t (1 : Fin 2) = t.val % 8
    ∧ win3_2.index t (0 : Fin 2) = 0 ∧ win3_2.index t (1 : Fin 2) = 0
    ∧ win3_3.index t (0 : Fin 2) = t.val / 8 ∧ win3_3.index t (1 : Fin 2) = 0 :=
  (by decide +kernel : ∀ t : Fin grid3.N, _)

/-- The product of the two blocks loaded at point t, at row r and column n, is the point's piece of the sum at the row's place
    in the array. -/
theorem blockSum3 (c : Dev nD) (t : Fin cfg3.N) (r : Fin 512) (n : Fin 2048) (i : Fin 4096) (hi : i.val = 512 * (t.val / 8) + r.val)
    (x : Vec Ideal S512x1024 .bf16) (q : Vec Ideal S2048x1024 .bf16) (hx : x = iblk3 V c 0 t) (hq : q = iblk3 V c 1 t) :
    ∑ kk : Fin 1024, x (ix2 r kk) * q (ix2 n kk) = piece3 V c i n (t.val % 8) := by
  subst hx hq
  have hk : t.val % 8 < 8 := Nat.mod_lt _ (by decide)
  unfold piece3
  rw [dif_pos hk]
  obtain ⟨e0, e1, e2, e3, e4, e5, e6, e7⟩ := idx_facts3 t
  refine Finset.sum_congr rfl fun kk _ => congrArg₂ (· * ·) ?_ ?_
  · show V c main_v51 (((cfg3.win 0).blk t).view.emb (ix2 r kk)) = V c main_v51 (ix2 i _)
    refine congrArg (V c main_v51) (funext fun a => Fin.ext ?_)
    match a with
    | ⟨0, _⟩ => show win3_0.index t (0 : Fin 2) * 512 + 1 * r.val = i.val; omega
    | ⟨1, _⟩ => show win3_0.index t (1 : Fin 2) * 1024 + 1 * kk.val = 1024 * (t.val % 8) + kk.val; omega
  · show V c main_v41 (((cfg3.win 1).blk t).view.emb (ix2 n kk)) = V c main_v41 (ix2 n _)
    refine congrArg (V c main_v41) (funext fun a => Fin.ext ?_)
    match a with
    | ⟨0, _⟩ => show win3_1.index t (0 : Fin 2) * 2048 + 1 * n.val = n.val; omega
    | ⟨1, _⟩ => show win3_1.index t (1 : Fin 2) * 1024 + 1 * kk.val = 1024 * (t.val % 8) + kk.val; omega

set_option maxHeartbeats 2000000 in
/-- THE ACCUMULATOR after point t = 8·m + k, at row r and column n: the partial sum over the first k + 1 pieces, at row 512·m + r
    of the array — by induction on the point. -/
theorem acc3_eq (c : Dev nD) : ∀ (m : ℕ) (hm : m < cfg3.N) (r : Fin 512) (n : Fin 2048) (i : Fin 4096), i.val = 512 * (m / 8) + r.val →
    (outsAt3 V c m hm).2 (ix2 r n) = part3 V c i n (m % 8)
  | 0, hm, r, n, i, hi => by
    have h0 : (⟨0, hm⟩ : Fin cfg3.N).val % 8 = 0 := rfl
    have h1 : ¬(⟨0, hm⟩ : Fin cfg3.N).val % 8 = 7 := by show ¬(0 : ℕ) % 8 = 7; decide
    rw [outsAt3_A V c ⟨0, hm⟩ h0 h1]
    dsimp only
    refine (congrFun (sout3_A_eq (F := Ideal) c (grid3.coords ⟨0, hm⟩) (ms3_0 ⟨0, hm⟩) (hs3_0 ⟨0, hm⟩) (ms3_1 ⟨0, hm⟩) (hs3_1 ⟨0, hm⟩) (ms3_2 ⟨0, hm⟩) (hs3_2 ⟨0, hm⟩) (ms3_3 ⟨0, hm⟩) (hs3_3 ⟨0, hm⟩) scM3_0 (Memref.isWhole_whole _) ((hcond3_0 ⟨0, hm⟩).mpr h0) (fun h => h1 ((hcond3_1 ⟨0, hm⟩).mp h)) (iblk3 V c 0 ⟨0, hm⟩) (iblk3 V c 1 ⟨0, hm⟩) (iblk3 V c 2 ⟨0, hm⟩)) (ix2 r n)).trans ?_
    refine (pay3_2_apply _ _ _ r n).trans ?_
    rw [pay3_1_apply, zero_add]
    refine (blockSum3 V c ⟨0, hm⟩ r n i hi _ _ rfl rfl).trans ?_
    unfold part3
    show _ = ∑ k' ∈ Finset.range 1, piece3 V c i n k'
    rw [Finset.sum_range_one]
    rfl
  | m + 1, hm, r, n, i, hi => by
    have hN : cfg3.N = 64 := N_3
    by_cases h0 : (⟨m + 1, hm⟩ : Fin cfg3.N).val % 8 = 0
    · have h1 : ¬(⟨m + 1, hm⟩ : Fin cfg3.N).val % 8 = 7 := by omega
      rw [outsAt3_A V c ⟨m + 1, hm⟩ h0 h1]
      dsimp only
      refine (congrFun (sout3_A_eq (F := Ideal) c (grid3.coords ⟨m + 1, hm⟩) (ms3_0 ⟨m + 1, hm⟩) (hs3_0 ⟨m + 1, hm⟩) (ms3_1 ⟨m + 1, hm⟩) (hs3_1 ⟨m + 1, hm⟩) (ms3_2 ⟨m + 1, hm⟩) (hs3_2 ⟨m + 1, hm⟩) (ms3_3 ⟨m + 1, hm⟩) (hs3_3 ⟨m + 1, hm⟩) scM3_0 (Memref.isWhole_whole _) ((hcond3_0 ⟨m + 1, hm⟩).mpr h0) (fun h => h1 ((hcond3_1 ⟨m + 1, hm⟩).mp h)) (iblk3 V c 0 ⟨m + 1, hm⟩) (iblk3 V c 1 ⟨m + 1, hm⟩) (iblk3 V c 2 ⟨m + 1, hm⟩)) (ix2 r n)).trans ?_
      refine (pay3_2_apply _ _ _ r n).trans ?_
      rw [pay3_1_apply, zero_add]
      refine (blockSum3 V c ⟨m + 1, hm⟩ r n i hi _ _ rfl rfl).trans ?_
      unfold part3
      have e : (m + 1) % 8 = 0 := h0
      show piece3 V c i n ((m + 1) % 8) = ∑ k' ∈ Finset.range ((m + 1) % 8 + 1), piece3 V c i n k'
      rw [e, Finset.sum_range_one]
    · have hprev : (outsAt3 V c ((⟨m + 1, hm⟩ : Fin cfg3.N).val - 1) (Nat.lt_of_le_of_lt (Nat.sub_le _ _) (⟨m + 1, hm⟩ : Fin cfg3.N).isLt)).2 (ix2 r n) = part3 V c i n (m % 8) :=
        acc3_eq c m (Nat.lt_of_succ_lt hm) r n i (by have : (m + 1) % 8 ≠ 0 := h0; omega)
      have hstep : part3 V c i n (m % 8) + piece3 V c i n ((m + 1) % 8) = part3 V c i n ((m + 1) % 8) := by
        have e : (m + 1) % 8 = m % 8 + 1 := by have : (m + 1) % 8 ≠ 0 := h0; omega
        unfold part3
        rw [e, Finset.sum_range_succ _ (m % 8 + 1)]
      by_cases h1 : (⟨m + 1, hm⟩ : Fin cfg3.N).val % 8 = 7
      · rw [outsAt3_C V c ⟨m + 1, hm⟩ h0 h1]
        dsimp only
        refine (congrFun (sout3_C_eq (F := Ideal) c (grid3.coords ⟨m + 1, hm⟩) (ms3_0 ⟨m + 1, hm⟩) (hs3_0 ⟨m + 1, hm⟩) (ms3_1 ⟨m + 1, hm⟩) (hs3_1 ⟨m + 1, hm⟩) (ms3_2 ⟨m + 1, hm⟩) (hs3_2 ⟨m + 1, hm⟩) (ms3_3 ⟨m + 1, hm⟩) (hs3_3 ⟨m + 1, hm⟩) scM3_0 (Memref.isWhole_whole _) (fun h => h0 ((hcond3_0 ⟨m + 1, hm⟩).mp h)) ((hcond3_1 ⟨m + 1, hm⟩).mpr h1) (iblk3 V c 0 ⟨m + 1, hm⟩) (iblk3 V c 1 ⟨m + 1, hm⟩) (iblk3 V c 2 ⟨m + 1, hm⟩) (outsAt3 V c ((⟨m + 1, hm⟩ : Fin cfg3.N).val - 1) (Nat.lt_of_le_of_lt (Nat.sub_le _ _) (⟨m + 1, hm⟩ : Fin cfg3.N).isLt)).2) (ix2 r n)).trans ?_
        refine (pay3_2_apply _ _ _ r n).trans ?_
        rw [hprev]
        refine (congrArg (part3 V c i n (m % 8) + ·) (blockSum3 V c ⟨m + 1, hm⟩ r n i hi _ _ rfl rfl)).trans ?_
        exact hstep
      · rw [outsAt3_B V c ⟨m + 1, hm⟩ h0 h1]
        dsimp only
        refine (congrFun (sout3_B_eq (F := Ideal) c (grid3.coords ⟨m + 1, hm⟩) (ms3_0 ⟨m + 1, hm⟩) (hs3_0 ⟨m + 1, hm⟩) (ms3_1 ⟨m + 1, hm⟩) (hs3_1 ⟨m + 1, hm⟩) (ms3_2 ⟨m + 1, hm⟩) (hs3_2 ⟨m + 1, hm⟩) (ms3_3 ⟨m + 1, hm⟩) (hs3_3 ⟨m + 1, hm⟩) scM3_0 (Memref.isWhole_whole _) (fun h => h0 ((hcond3_0 ⟨m + 1, hm⟩).mp h)) (fun h => h1 ((hcond3_1 ⟨m + 1, hm⟩).mp h)) (iblk3 V c 0 ⟨m + 1, hm⟩) (iblk3 V c 1 ⟨m + 1, hm⟩) (iblk3 V c 2 ⟨m + 1, hm⟩) (outsAt3 V c ((⟨m + 1, hm⟩ : Fin cfg3.N).val - 1) (Nat.lt_of_le_of_lt (Nat.sub_le _ _) (⟨m + 1, hm⟩ : Fin cfg3.N).isLt)).2) (ix2 r n)).trans ?_
        refine (pay3_2_apply _ _ _ r n).trans ?_
        rw [hprev]
        refine (congrArg (part3 V c i n (m % 8) + ·) (blockSum3 V c ⟨m + 1, hm⟩ r n i hi _ _ rfl rfl)).trans ?_
        exact hstep

/-- The array the call leaves, as one function of the arrays it found. -/
def G3 (c : Dev nD) : S4096x2048.Idx → Elt Ideal .f32 := fun j =>
  Cert.Spec.lin (X3 V c) (W3 V c) (B3 V c) ⟨(j 0).val, idx2_lt0 j⟩ ⟨(j 1).val, idx2_lt1 j⟩

theorem G3_apply (c : Dev nD) (i : Fin 4096) (n : Fin 2048) :
    G3 V c (ix2 i n) = Cert.Spec.lin (X3 V c) (W3 V c) (B3 V c) i n := rfl

set_option maxHeartbeats 2000000 in
/-- What a grid point with second coordinate 7 writes back is its block of `G3`: the whole sum, plus the bias. -/
theorem flushed3_eq (c : Dev nD) (t : Fin cfg3.N) (hf : (cfg3.win 3).flush t = true) :
    (dat3 V c).flushed 3 t = ((cfg3.win 3).blk t).view.read (Elt Ideal) (G3 V c) := by
  have hN : cfg3.N = 64 := N_3
  have h1 : t.val % 8 = 7 := (flush3_3 t).mp hf
  have h0 : ¬t.val % 8 = 0 := by omega
  have ht : t.val < 64 := lt_of_lt_of_eq t.isLt hN
  obtain ⟨e0, e1, e2, e3, e4, e5, e6, e7⟩ := idx_facts3 t
  show (cfg3.win 3).cut (grid3.coords t) ((dat3 V c).after 3 t) = _
  rw [after3_3]
  have eC : (outsAt3 V c t.val t.isLt).1 = k3_pay3 (outsAt3 V c t.val t.isLt).2 (iblk3 V c 2 t) := by
    rw [outsAt3_C V c t h0 h1]
    dsimp only
    rw [out3_C_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C_eq (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2]
  funext j
  obtain ⟨r, n, rfl⟩ : ∃ (r : Fin 512) (n : Fin 2048), j = ix2 r n := ⟨j 0, j 1, eq_ix2 j⟩
  have hrow : 512 * (t.val / 8) + r.val < 4096 := by have := r.isLt; omega
  refine (congrFun eC (ix2 r n)).trans ?_
  refine (pay3_3_apply _ _ r n).trans ?_
  rw [acc3_eq V c t.val t.isLt r n ⟨512 * (t.val / 8) + r.val, hrow⟩ rfl, h1, part3_full]
  show _ = G3 V c (((cfg3.win 3).blk t).view.emb (ix2 r n))
  have hemb : ((cfg3.win 3).blk t).view.emb (ix2 r n) = (ix2 (⟨512 * (t.val / 8) + r.val, hrow⟩ : Fin 4096) n : S4096x2048.Idx) := funext fun a => Fin.ext (by
    match a with
    | ⟨0, _⟩ => show win3_3.index t (0 : Fin 2) * 512 + 1 * r.val = 512 * (t.val / 8) + r.val; omega
    | ⟨1, _⟩ => show win3_3.index t (1 : Fin 2) * 2048 + 1 * n.val = n.val; omega)
  rw [hemb, G3_apply]
  unfold Cert.Spec.lin
  refine congrArg (_ + ·) ?_
  show V c main_v48 (((cfg3.win 2).blk t).view.emb (ix2 (0 : Fin 1) n)) = V c main_v48 (ix2 (0 : Fin 1) n)
  refine congrArg (V c main_v48) (funext fun a => Fin.ext ?_)
  match a with
  | ⟨0, _⟩ => show win3_2.index t (0 : Fin 2) * 1 + 1 * 0 = 0; omega
  | ⟨1, _⟩ => show win3_2.index t (1 : Fin 2) * 2048 + 1 * n.val = n.val; omega

/-- Membership in a grid point's output block, coordinate by coordinate. -/
theorem mem_blk3 (t : Fin cfg3.N) (i : S4096x2048.Idx) :
    i ∈ ((cfg3.win 3).blk t).view.set ↔ ∀ a : Fin 2, win3_3.index t a * S512x2048.size a ≤ (i a).val ∧ (i a).val < win3_3.index t a * S512x2048.size a + S512x2048.size a := by
  show i ∈ ((View.whole main_v52).slice (win3_3.rect t)).set ↔ _
  rw [View.set_slice_whole, Rect.mem_set_unit]
  exact Iff.rfl

/-- Every row of the array lies in the block some grid point with second coordinate 7 writes back. -/
theorem cover3 (i : S4096x2048.Idx) : ∃ t : Fin cfg3.N, (cfg3.win 3).flush t = true ∧ i ∈ ((cfg3.win 3).blk t).view.set := by
  have hi0 : (i 0).val < 4096 := (i 0).isLt
  have hi1 : (i 1).val < 2048 := (i 1).isLt
  have hN : cfg3.N = 64 := N_3
  have hlt : 8 * ((i 0).val / 512) + 7 < cfg3.N := by rw [hN]; omega
  refine ⟨⟨8 * ((i 0).val / 512) + 7, hlt⟩, (flush3_3 _).mpr (by dsimp only; omega), ?_⟩
  rw [mem_blk3]
  obtain ⟨e0, e1, e2, e3, e4, e5, e6, e7⟩ := idx_facts3 ⟨8 * ((i 0).val / 512) + 7, hlt⟩
  intro a
  match a with
  | ⟨0, _⟩ => show win3_3.index _ (0 : Fin 2) * 512 ≤ (i 0).val ∧ (i 0).val < win3_3.index _ (0 : Fin 2) * 512 + 512; rw [e6]; dsimp only; omega
  | ⟨1, _⟩ => show win3_3.index _ (1 : Fin 2) * 2048 ≤ (i 1).val ∧ (i 1).val < win3_3.index _ (1 : Fin 2) * 2048 + 2048; rw [e7]; omega

/-- The array after the call. -/
theorem final3_arr (c : Dev nD) : (dat3 V c).arrAt 3 cfg3.N = G3 V c :=
  (dat3 V c).arrAt_eq_of_cover 3 (G3 V c) (fun t hf => flushed3_eq V c t hf) cover3

/-- The array after the call, entry by entry: the linear layer of the specification over the arrays the call found. -/
theorem final3 (c : Dev nD) (i : Fin 4096) (n : Fin 2048) :
    (dat3 (F := Ideal) V c).arrAt 3 cfg3.N (ix2 i n)
      = Cert.Spec.lin (fun i k => V c main_v51 (ix2 i k)) (fun n k => V c main_v41 (ix2 n k)) (fun n => V c main_v48 (ix2 (0 : Fin 1) n)) i n := by
  rw [final3_arr]
  rfl

end Cert.KernelIdeal.Val

end
-- ==== Proof.KI.Value.lean ====
/-
  The kernel program's result, entry by entry, over the extended reals: following the buffer contents through the four pallas
  calls — each call's output array is its function (gated step, linear layer, gated linear unit, linear layer) of the arrays it
  found; the arrays a call finds are the previous call's output and the host operations' quantised weights and re-laid biases —
  the last array is the specification's network of the launch arguments.
-/
import proofs.«145004_j89799176225622_2_alg».proof.Proof.KI.Run
import proofs.«145004_j89799176225622_2_alg».proof.Proof.KI.Host
import proofs.«145004_j89799176225622_2_alg».proof.Proof.KI.Val0
import proofs.«145004_j89799176225622_2_alg».proof.Proof.KI.Val1
import proofs.«145004_j89799176225622_2_alg».proof.Proof.KI.Val2
import proofs.«145004_j89799176225622_2_alg».proof.Proof.KI.R3Value

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable (m : (ℓ : Loc nD τ sig) → Buf (Elt Ideal) ℓ)

/-- After the first call: the gated recurrent step of x and the three quantised gate weights. -/
theorem stage0 (c : Dev nD) (i : Fin 4096) (n : Fin 2048) :
    W16 m c main_v49 (ix2 i n) = Cert.Spec.gru (fun i k => m ((c : Thread nD τ).loc main_arg0) (ix2 i k)) (fun n k => Cert.Spec.tern (m ((c : Thread nD τ).loc main_arg1) (ix2 n k))) (fun n => m ((c : Thread nD τ).loc main_arg2) (ix1 n)) (fun n k => Cert.Spec.tern (m ((c : Thread nD τ).loc main_arg3) (ix2 n k))) (fun n => m ((c : Thread nD τ).loc main_arg4) (ix1 n)) (fun n k => Cert.Spec.tern (m ((c : Thread nD τ).loc main_arg5) (ix2 n k))) (fun n => m ((c : Thread nD τ).loc main_arg6) (ix1 n)) i n := by
  refine (congrFun ((W16_arr m c 7).trans (final0 (VV15 m) c)) (ix2 i n)).trans ((G0_apply (VV15 m) c i n).trans ?_)
  simp only [VV15, q_main_v5 m c, q_main_v11 m c, q_main_v17 m c, b_main_v42 m c, b_main_v43 m c, b_main_v44 m c, x_main_arg0 m c]

/-- After the second call: the output projection of that. -/
theorem stage1 (c : Dev nD) (i : Fin 4096) (n : Fin 2048) :
    W17 m c main_v50 (ix2 i n) = Cert.Spec.lin (Cert.Spec.gru (fun i k => m ((c : Thread nD τ).loc main_arg0) (ix2 i k)) (fun n k => Cert.Spec.tern (m ((c : Thread nD τ).loc main_arg1) (ix2 n k))) (fun n => m ((c : Thread nD τ).loc main_arg2) (ix1 n)) (fun n k => Cert.Spec.tern (m ((c : Thread nD τ).loc main_arg3) (ix2 n k))) (fun n => m ((c : Thread nD τ).loc main_arg4) (ix1 n)) (fun n k => Cert.Spec.tern (m ((c : Thread nD τ).loc main_arg5) (ix2 n k))) (fun n => m ((c : Thread nD τ).loc main_arg6) (ix1 n))) (fun n k => Cert.Spec.tern (m ((c : Thread nD τ).loc main_arg7) (ix2 n k))) (fun n => m ((c : Thread nD τ).loc main_arg8) (ix1 n)) i n := by
  refine (congrFun ((W17_arr m c 3).trans (final1 (VV16 m) c)) (ix2 i n)).trans ((G1_apply (VV16 m) c i n).trans ?_)
  have h23 : W16 m c main_v23 = V15 m c main_v23 := W16_of_ne m c main_v23 (by decide)
  have h45 : W16 m c main_v45 = V15 m c main_v45 := W16_of_ne m c main_v45 (by decide)
  simp only [VV16, h23, h45, stage0 m c, q_main_v23 m c, b_main_v45 m c]

/-- After the third call: the gated linear unit of that. -/
theorem stage2 (c : Dev nD) (i : Fin 4096) (n : Fin 8192) :
    W18 m c main_v51 (ix2 i n) = Cert.Spec.glu (Cert.Spec.lin (Cert.Spec.gru (fun i k => m ((c : Thread nD τ).loc main_arg0) (ix2 i k)) (fun n k => Cert.Spec.tern (m ((c : Thread nD τ).loc main_arg1) (ix2 n k))) (fun n => m ((c : Thread nD τ).loc main_arg2) (ix1 n)) (fun n k => Cert.Spec.tern (m ((c : Thread nD τ).loc main_arg3) (ix2 n k))) (fun n => m ((c : Thread nD τ).loc main_arg4) (ix1 n)) (fun n k => Cert.Spec.tern (m ((c : Thread nD τ).loc main_arg5) (ix2 n k))) (fun n => m ((c : Thread nD τ).loc main_arg6) (ix1 n))) (fun n k => Cert.Spec.tern (m ((c : Thread nD τ).loc main_arg7) (ix2 n k))) (fun n => m ((c : Thread nD τ).loc main_arg8) (ix1 n))) (fun n k => Cert.Spec.tern (m ((c : Thread nD τ).loc main_arg11) (ix2 n k))) (fun n => m ((c : Thread nD τ).loc main_arg12) (ix1 n)) (fun n k => Cert.Spec.tern (m ((c : Thread nD τ).loc main_arg9) (ix2 n k))) (fun n => m ((c : Thread nD τ).loc main_arg10) (ix1 n)) i n := by
  refine (congrFun ((W18_arr m c 5).trans (final2 (VV17 m) c)) (ix2 i n)).trans ((G2_apply (VV17 m) c i n).trans ?_)
  have h29 : W17 m c main_v29 = V15 m c main_v29 := (W17_of_ne m c main_v29 (by decide)).trans (W16_of_ne m c main_v29 (by decide))
  have h46 : W17 m c main_v46 = V15 m c main_v46 := (W17_of_ne m c main_v46 (by decide)).trans (W16_of_ne m c main_v46 (by decide))
  have h35 : W17 m c main_v35 = V15 m c main_v35 := (W17_of_ne m c main_v35 (by decide)).trans (W16_of_ne m c main_v35 (by decide))
  have h47 : W17 m c main_v47 = V15 m c main_v47 := (W17_of_ne m c main_v47 (by decide)).trans (W16_of_ne m c main_v47 (by decide))
  simp only [VV17, h29, h46, h35, h47, stage1 m c, q_main_v29 m c, q_main_v35 m c, b_main_v46 m c, b_main_v47 m c]

/-- After the fourth call: the down projection of that — the whole network of the launch arguments. -/
theorem kernel_out_eq (c : Dev nD) (i : Fin 4096) (n : Fin 2048) :
    W19 m c main_v52 (ix2 i n) = Cert.Spec.net (fun i k => m ((c : Thread nD τ).loc main_arg0) (ix2 i k))
      (fun n k => m ((c : Thread nD τ).loc main_arg1) (ix2 n k)) (fun n => m ((c : Thread nD τ).loc main_arg2) (ix1 n)) (fun n k => m ((c : Thread nD τ).loc main_arg3) (ix2 n k)) (fun n => m ((c : Thread nD τ).loc main_arg4) (ix1 n))
      (fun n k => m ((c : Thread nD τ).loc main_arg5) (ix2 n k)) (fun n => m ((c : Thread nD τ).loc main_arg6) (ix1 n)) (fun n k => m ((c : Thread nD τ).loc main_arg7) (ix2 n k)) (fun n => m ((c : Thread nD τ).loc main_arg8) (ix1 n))
      (fun n k => m ((c : Thread nD τ).loc main_arg9) (ix2 n k)) (fun n => m ((c : Thread nD τ).loc main_arg10) (ix1 n)) (fun n k => m ((c : Thread nD τ).loc main_arg11) (ix2 n k)) (fun n => m ((c : Thread nD τ).loc main_arg12) (ix1 n))
      (fun n k => m ((c : Thread nD τ).loc main_arg13) (ix2 n k)) (fun n => m ((c : Thread nD τ).loc main_arg14) (ix1 n)) i n := by
  unfold Cert.Spec.net
  refine (congrFun (W19_arr m c 3) (ix2 i n)).trans ((final3 (VV18 m) c i n).trans ?_)
  have h41 : W18 m c main_v41 = V15 m c main_v41 := (W18_of_ne m c main_v41 (by decide)).trans <| (W17_of_ne m c main_v41 (by decide)).trans (W16_of_ne m c main_v41 (by decide))
  have h48 : W18 m c main_v48 = V15 m c main_v48 := (W18_of_ne m c main_v48 (by decide)).trans <| (W17_of_ne m c main_v48 (by decide)).trans (W16_of_ne m c main_v48 (by decide))
  simp only [VV18, h41, h48, stage2 m c, q_main_v41 m c, b_main_v48 m c]

end Cert.KernelIdeal.Val

end
-- ==== Proof.RefGates.lean ====
import proofs.«145004_j89799176225622_2_alg».proof.Proof.Gen.ReferenceIdeal.Read
import proofs.«145004_j89799176225622_2_alg».proof.Proof.Spec
import Idealize.ShloMosaic.Lib.IdealHost

noncomputable section

open scoped BigOperators

/-!
  The three gate pre-activations of the recurrent step, read entry by entry: each is a linear layer of the input with
  the weight quantised entrywise, Σₖ x(i,k) · tern(W(n,k)) + b(n). The program transposes the quantised weight before
  contracting, so the contraction reads W at (n, k).
-/
namespace Cert.RefValue

open Cert.ReferenceIdeal Cert.ReferenceIdeal.Gen Cert.ReferenceIdeal.Read Idealize.ShloMosaic Idealize.ShloMosaic.ValueIdx

/-- The forget gate's pre-activation. -/
theorem lin_f (x0 : (⟨S4096x2048, .f32⟩ : BufTy).Contents (Elt Ideal)) (x1 : (⟨S2048x2048, .f32⟩ : BufTy).Contents (Elt Ideal)) (x2 : (⟨S2048, .f32⟩ : BufTy).Contents (Elt Ideal)) (i : Fin 4096) (n : Fin 2048) :
    val_main_v10 (F := Ideal) x0 x1 x2 (ix2 i n) =
      Cert.Spec.lin (fun i k => x0 (ix2 i k)) (fun n k => Cert.Spec.tern (x1 (ix2 n k))) (fun n => x2 (ix1 n)) i n := by
  have el : ∀ k : Fin 2048, lidx_main_v7 (ix2 i n) k = ix2 i k := fun k =>
    funext fun a => Fin.ext (by match a with | ⟨0, _⟩ => rfl | ⟨1, _⟩ => rfl)
  have er : ∀ k : Fin 2048, idx_main_v6 (ridx_main_v7 (ix2 i n) k) = ix2 n k := fun k =>
    funext fun a => Fin.ext (by match a with | ⟨0, _⟩ => rfl | ⟨1, _⟩ => rfl)
  have eb : idx_main_v8 (idx_main_v9 (ix2 i n)) = ix1 n :=
    funext fun a => Fin.ext (by match a with | ⟨0, _⟩ => rfl)
  rw [val_main_v10_apply, val_main_v7_apply, val_main_v9_apply, val_main_v8_apply]
  simp only [val_main_v6_apply, val_main_v5_apply, val_main_v3_apply, val_main_v1_apply, val_main_v2_apply,
    val_main_cst_0_apply, val_main_call0_v1_apply, val_main_call0_v0_apply, val_main_cst_1_apply, val_main_v4_apply,
    el, er, eb, Cert.Spec.lin, Cert.Spec.tern, Ideal.addf_def]

/-- The candidate's pre-activation. -/
theorem lin_c (x0 : (⟨S4096x2048, .f32⟩ : BufTy).Contents (Elt Ideal)) (x3 : (⟨S2048x2048, .f32⟩ : BufTy).Contents (Elt Ideal)) (x4 : (⟨S2048, .f32⟩ : BufTy).Contents (Elt Ideal)) (i : Fin 4096) (n : Fin 2048) :
    val_main_v26 (F := Ideal) x0 x3 x4 (ix2 i n) =
      Cert.Spec.lin (fun i k => x0 (ix2 i k)) (fun n k => Cert.Spec.tern (x3 (ix2 n k))) (fun n => x4 (ix1 n)) i n := by
  have el : ∀ k : Fin 2048, lidx_main_v23 (ix2 i n) k = ix2 i k := fun k =>
    funext fun a => Fin.ext (by match a with | ⟨0, _⟩ => rfl | ⟨1, _⟩ => rfl)
  have er : ∀ k : Fin 2048, idx_main_v22 (ridx_main_v23 (ix2 i n) k) = ix2 n k := fun k =>
    funext fun a => Fin.ext (by match a with | ⟨0, _⟩ => rfl | ⟨1, _⟩ => rfl)
  have eb : idx_main_v24 (idx_main_v25 (ix2 i n)) = ix1 n :=
    funext fun a => Fin.ext (by match a with | ⟨0, _⟩ => rfl)
  rw [val_main_v26_apply, val_main_v23_apply, val_main_v25_apply, val_main_v24_apply]
  simp only [val_main_v22_apply, val_main_v21_apply, val_main_v19_apply, val_main_v17_apply, val_main_v18_apply,
    val_main_cst_4_apply, val_main_call1_v1_apply, val_main_call1_v0_apply, val_main_cst_5_apply, val_main_v20_apply,
    el, er, eb, Cert.Spec.lin, Cert.Spec.tern, Ideal.addf_def]

/-- The output gate's pre-activation. -/
theorem lin_g (x0 : (⟨S4096x2048, .f32⟩ : BufTy).Contents (Elt Ideal)) (x5 : (⟨S2048x2048, .f32⟩ : BufTy).Contents (Elt Ideal)) (x6 : (⟨S2048, .f32⟩ : BufTy).Contents (Elt Ideal)) (i : Fin 4096) (n : Fin 2048) :
    val_main_v42 (F := Ideal) x0 x5 x6 (ix2 i n) =
      Cert.Spec.lin (fun i k => x0 (ix2 i k)) (fun n k => Cert.Spec.tern (x5 (ix2 n k))) (fun n => x6 (ix1 n)) i n := by
  have el : ∀ k : Fin 2048, lidx_main_v39 (ix2 i n) k = ix2 i k := fun k =>
    funext fun a => Fin.ext (by match a with | ⟨0, _⟩ => rfl | ⟨1, _⟩ => rfl)
  have er : ∀ k : Fin 2048, idx_main_v38 (ridx_main_v39 (ix2 i n) k) = ix2 n k := fun k =>
    funext fun a => Fin.ext (by match a with | ⟨0, _⟩ => rfl | ⟨1, _⟩ => rfl)
  have eb : idx_main_v40 (idx_main_v41 (ix2 i n)) = ix1 n :=
    funext fun a => Fin.ext (by match a with | ⟨0, _⟩ => rfl)
  rw [val_main_v42_apply, val_main_v39_apply, val_main_v41_apply, val_main_v40_apply]
  simp only [val_main_v38_apply, val_main_v37_apply, val_main_v35_apply, val_main_v33_apply, val_main_v34_apply,
    val_main_cst_7_apply, val_main_call3_v1_apply, val_main_call3_v0_apply, val_main_cst_8_apply, val_main_v36_apply,
    el, er, eb, Cert.Spec.lin, Cert.Spec.tern, Ideal.addf_def]

end Cert.RefValue

end
-- ==== Proof.RefGru.lean ====
import proofs.«145004_j89799176225622_2_alg».proof.Proof.RefGates

noncomputable section

open scoped BigOperators

/-!
  The gated recurrent step of the reference, entry by entry: g · ((1 − f) · c) with f, g logistic gates and c the
  silu of the candidate's pre-activation.
-/
namespace Cert.RefValue

open Cert.ReferenceIdeal Cert.ReferenceIdeal.Gen Cert.ReferenceIdeal.Read Idealize.ShloMosaic Idealize.ShloMosaic.ValueIdx

/-- The program spells the logistic function 1 / (1 + exp(−y)) in its own division, sum, exponential and negation, with
    the literal 1; that is the logistic function's definition on the extended reals. -/
theorem logistic_spelled (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y))) = Ideal.logistic y := by
  simp only [Ideal.hostDivf_def, Ideal.addf_def, Ideal.hostUnary_exp_def, Ideal.hostNegf_def, Ideal.negf_def, Ideal.ofBits_def,
    Ideal.ofBits_one_f32, Ideal.logistic]

/-- The recurrent step from a zero state, entry by entry: the program forms f · 0 + (1 − f) · c, and on the extended reals
    f · 0 = 0 and 0 + y = y for every f and y; its logistic is spelled 1 / (1 + exp(−y)), which is the logistic function's
    definition. -/
theorem gru_eq (x0 : (⟨S4096x2048, .f32⟩ : BufTy).Contents (Elt Ideal)) (x1 : (⟨S2048x2048, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (i : Fin 4096) (n : Fin 2048) :
    val_main_v49 (F := Ideal) x0 x1 x2 x3 x4 x5 x6 (ix2 i n) =
      Cert.Spec.gru (fun i k => x0 (ix2 i k)) (fun n k => Cert.Spec.tern (x1 (ix2 n k))) (fun n => x2 (ix1 n))
        (fun n k => Cert.Spec.tern (x3 (ix2 n k))) (fun n => x4 (ix1 n)) (fun n k => Cert.Spec.tern (x5 (ix2 n k))) (fun n => x6 (ix1 n)) i n := by
  simp only [val_main_v49_apply, val_main_v48_apply, val_main_v47_apply, val_main_cst_10_apply, val_main_v46_apply, val_main_v45_apply,
    val_main_cst_9_apply, val_main_v44_apply, val_main_v43_apply,
    val_main_v32_apply, val_main_v31_apply, val_main_v30_apply, val_main_v29_apply, val_main_cst_6_apply, val_main_v28_apply,
    val_main_v0_apply, val_main_cst_apply,
    val_main_v27_apply, val_main_call2_v5_apply, val_main_call2_v4_apply, val_main_call2_cst_0_apply, val_main_call2_v3_apply,
    val_main_call2_v2_apply, val_main_call2_cst_apply, val_main_call2_v1_apply, val_main_call2_v0_apply,
    val_main_v16_apply, val_main_v15_apply, val_main_cst_3_apply, val_main_v14_apply, val_main_v13_apply, val_main_cst_2_apply,
    val_main_v12_apply, val_main_v11_apply,
    lin_f, lin_c, lin_g, logistic_spelled]
  simp only [Cert.Spec.gru, Cert.Spec.sg, Cert.Spec.silu, Ideal.mulf_def, Ideal.addf_def, Ideal.subf_def, Ideal.ofBits_def,
    Ideal.ofBits_one_f32, Ideal.ofBits_zero_f32, mul_zero, zero_add]

end Cert.RefValue

end
-- ==== Proof.RefOProj.lean ====
import proofs.«145004_j89799176225622_2_alg».proof.Proof.RefGru

noncomputable section

open scoped BigOperators

/-!
  The recurrent block's output projection, entry by entry.
-/
namespace Cert.RefValue

open Cert.ReferenceIdeal Cert.ReferenceIdeal.Gen Cert.ReferenceIdeal.Read Idealize.ShloMosaic Idealize.ShloMosaic.ValueIdx

/-- The recurrent block's output projection: a linear layer of the recurrent step's result with the quantised weight. -/
theorem o_eq (x0 : (⟨S4096x2048, .f32⟩ : BufTy).Contents (Elt Ideal)) (x1 : (⟨S2048x2048, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (i : Fin 4096) (n : Fin 2048) :
    val_main_v59 (F := Ideal) x0 x1 x2 x3 x4 x5 x6 x7 x8 (ix2 i n) =
      Cert.Spec.lin (Cert.Spec.gru (fun i k => x0 (ix2 i k)) (fun n k => Cert.Spec.tern (x1 (ix2 n k))) (fun n => x2 (ix1 n))
        (fun n k => Cert.Spec.tern (x3 (ix2 n k))) (fun n => x4 (ix1 n)) (fun n k => Cert.Spec.tern (x5 (ix2 n k))) (fun n => x6 (ix1 n))) (fun n k => Cert.Spec.tern (x7 (ix2 n k))) (fun n => x8 (ix1 n)) i n := by
  have el : ∀ k : Fin 2048, lidx_main_v56 (ix2 i n) k = ix2 i k := fun k =>
    funext fun a => Fin.ext (by match a with | ⟨0, _⟩ => rfl | ⟨1, _⟩ => rfl)
  have er : ∀ k : Fin 2048, idx_main_v55 (ridx_main_v56 (ix2 i n) k) = ix2 n k := fun k =>
    funext fun a => Fin.ext (by match a with | ⟨0, _⟩ => rfl | ⟨1, _⟩ => rfl)
  have eb : idx_main_v57 (idx_main_v58 (ix2 i n)) = ix1 n :=
    funext fun a => Fin.ext (by match a with | ⟨0, _⟩ => rfl)
  rw [val_main_v59_apply, val_main_v56_apply, val_main_v58_apply, val_main_v57_apply]
  simp only [val_main_v55_apply, val_main_v54_apply, val_main_v52_apply, val_main_v50_apply, val_main_v51_apply,
    val_main_cst_11_apply, val_main_call4_v1_apply, val_main_call4_v0_apply, val_main_cst_12_apply, val_main_v53_apply,
    el, er, eb, gru_eq, Cert.Spec.lin, Cert.Spec.tern, Ideal.addf_def]

end Cert.RefValue

end
-- ==== Proof.RefGlu.lean ====
import proofs.«145004_j89799176225622_2_alg».proof.Proof.RefOProj

noncomputable section

open scoped BigOperators

/-!
  The gated linear unit of the reference, entry by entry: its two pre-activations are linear layers of the recurrent
  block's output with quantised weights, and the unit is σ(gate) · silu(up).
-/
namespace Cert.RefValue

open Cert.ReferenceIdeal Cert.ReferenceIdeal.Gen Cert.ReferenceIdeal.Read Idealize.ShloMosaic Idealize.ShloMosaic.ValueIdx

/-- The gate branch's pre-activation of the gated linear unit. -/
theorem lin_pg (x0 : (⟨S4096x2048, .f32⟩ : BufTy).Contents (Elt Ideal)) (x1 : (⟨S2048x2048, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x11 : (⟨S8192x2048, .f32⟩ : BufTy).Contents (Elt Ideal)) (x12 : (⟨S8192, .f32⟩ : BufTy).Contents (Elt Ideal)) (i : Fin 4096) (n : Fin 8192) :
    val_main_v69 (F := Ideal) x0 x1 x2 x3 x4 x5 x6 x7 x8 x11 x12 (ix2 i n) =
      Cert.Spec.lin (Cert.Spec.lin (Cert.Spec.gru (fun i k => x0 (ix2 i k)) (fun n k => Cert.Spec.tern (x1 (ix2 n k))) (fun n => x2 (ix1 n))
        (fun n k => Cert.Spec.tern (x3 (ix2 n k))) (fun n => x4 (ix1 n)) (fun n k => Cert.Spec.tern (x5 (ix2 n k))) (fun n => x6 (ix1 n)))
        (fun n k => Cert.Spec.tern (x7 (ix2 n k))) (fun n => x8 (ix1 n))) (fun n k => Cert.Spec.tern (x11 (ix2 n k))) (fun n => x12 (ix1 n)) i n := by
  have el : ∀ k : Fin 2048, lidx_main_v66 (ix2 i n) k = ix2 i k := fun k =>
    funext fun a => Fin.ext (by match a with | ⟨0, _⟩ => rfl | ⟨1, _⟩ => rfl)
  have er : ∀ k : Fin 2048, idx_main_v65 (ridx_main_v66 (ix2 i n) k) = ix2 n k := fun k =>
    funext fun a => Fin.ext (by match a with | ⟨0, _⟩ => rfl | ⟨1, _⟩ => rfl)
  have eb : idx_main_v67 (idx_main_v68 (ix2 i n)) = ix1 n :=
    funext fun a => Fin.ext (by match a with | ⟨0, _⟩ => rfl)
  rw [val_main_v69_apply, val_main_v66_apply, val_main_v68_apply, val_main_v67_apply]
  simp only [val_main_v65_apply, val_main_v64_apply, val_main_v62_apply, val_main_v60_apply, val_main_v61_apply,
    val_main_cst_13_apply, val_main_call5_v1_apply, val_main_call5_v0_apply, val_main_cst_14_apply, val_main_v63_apply,
    el, er, eb, o_eq, Cert.Spec.lin, Cert.Spec.tern, Ideal.addf_def]

/-- The up branch's pre-activation of the gated linear unit. -/
theorem lin_pu (x0 : (⟨S4096x2048, .f32⟩ : BufTy).Contents (Elt Ideal)) (x1 : (⟨S2048x2048, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S8192x2048, .f32⟩ : BufTy).Contents (Elt Ideal)) (x10 : (⟨S8192, .f32⟩ : BufTy).Contents (Elt Ideal)) (i : Fin 4096) (n : Fin 8192) :
    val_main_v85 (F := Ideal) x0 x1 x2 x3 x4 x5 x6 x7 x8 x9 x10 (ix2 i n) =
      Cert.Spec.lin (Cert.Spec.lin (Cert.Spec.gru (fun i k => x0 (ix2 i k)) (fun n k => Cert.Spec.tern (x1 (ix2 n k))) (fun n => x2 (ix1 n))
        (fun n k => Cert.Spec.tern (x3 (ix2 n k))) (fun n => x4 (ix1 n)) (fun n k => Cert.Spec.tern (x5 (ix2 n k))) (fun n => x6 (ix1 n)))
        (fun n k => Cert.Spec.tern (x7 (ix2 n k))) (fun n => x8 (ix1 n))) (fun n k => Cert.Spec.tern (x9 (ix2 n k))) (fun n => x10 (ix1 n)) i n := by
  have el : ∀ k : Fin 2048, lidx_main_v82 (ix2 i n) k = ix2 i k := fun k =>
    funext fun a => Fin.ext (by match a with | ⟨0, _⟩ => rfl | ⟨1, _⟩ => rfl)
  have er : ∀ k : Fin 2048, idx_main_v81 (ridx_main_v82 (ix2 i n) k) = ix2 n k := fun k =>
    funext fun a => Fin.ext (by match a with | ⟨0, _⟩ => rfl | ⟨1, _⟩ => rfl)
  have eb : idx_main_v83 (idx_main_v84 (ix2 i n)) = ix1 n :=
    funext fun a => Fin.ext (by match a with | ⟨0, _⟩ => rfl)
  rw [val_main_v85_apply, val_main_v82_apply, val_main_v84_apply, val_main_v83_apply]
  simp only [val_main_v81_apply, val_main_v80_apply, val_main_v78_apply, val_main_v76_apply, val_main_v77_apply,
    val_main_cst_17_apply, val_main_call6_v1_apply, val_main_call6_v0_apply, val_main_cst_18_apply, val_main_v79_apply,
    el, er, eb, o_eq, Cert.Spec.lin, Cert.Spec.tern, Ideal.addf_def]

/-- The gated linear unit, entry by entry: σ(gate) · silu(up), the logistic spelled 1 / (1 + exp(−y)) in both factors. -/
theorem w_eq (x0 : (⟨S4096x2048, .f32⟩ : BufTy).Contents (Elt Ideal)) (x1 : (⟨S2048x2048, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S8192x2048, .f32⟩ : BufTy).Contents (Elt Ideal)) (x10 : (⟨S8192, .f32⟩ : BufTy).Contents (Elt Ideal)) (x11 : (⟨S8192x2048, .f32⟩ : BufTy).Contents (Elt Ideal)) (x12 : (⟨S8192, .f32⟩ : BufTy).Contents (Elt Ideal)) (i : Fin 4096) (n : Fin 8192) :
    val_main_v87 (F := Ideal) x0 x1 x2 x3 x4 x5 x6 x7 x8 x9 x10 x11 x12 (ix2 i n) =
      (Cert.Spec.glu (Cert.Spec.lin (Cert.Spec.gru (fun i k => x0 (ix2 i k)) (fun n k => Cert.Spec.tern (x1 (ix2 n k))) (fun n => x2 (ix1 n))
        (fun n k => Cert.Spec.tern (x3 (ix2 n k))) (fun n => x4 (ix1 n)) (fun n k => Cert.Spec.tern (x5 (ix2 n k))) (fun n => x6 (ix1 n)))
        (fun n k => Cert.Spec.tern (x7 (ix2 n k))) (fun n => x8 (ix1 n)))
        (fun n k => Cert.Spec.tern (x11 (ix2 n k))) (fun n => x12 (ix1 n)) (fun n k => Cert.Spec.tern (x9 (ix2 n k))) (fun n => x10 (ix1 n))) i n := by
  simp only [val_main_v87_apply, val_main_v75_apply, val_main_v74_apply, val_main_cst_16_apply, val_main_v73_apply, val_main_v72_apply,
    val_main_cst_15_apply, val_main_v71_apply, val_main_v70_apply,
    val_main_v86_apply, val_main_call7_v5_apply, val_main_call7_v4_apply, val_main_call7_cst_0_apply, val_main_call7_v3_apply,
    val_main_call7_v2_apply, val_main_call7_cst_apply, val_main_call7_v1_apply, val_main_call7_v0_apply,
    lin_pg, lin_pu, logistic_spelled]
  simp only [Cert.Spec.glu, Cert.Spec.sg, Cert.Spec.silu, Ideal.mulf_def]

end Cert.RefValue

end
-- ==== Proof.RefValue.lean ====
import proofs.«145004_j89799176225622_2_alg».proof.Proof.RefGlu

noncomputable section

open scoped BigOperators

/-!
  The reference's result, entry by entry, is the specification of its argument arrays: the down projection is a linear
  layer of the gated linear unit's result with the quantised weight, and the run's result term is that last stage.
-/
namespace Cert.RefValue

open Cert.ReferenceIdeal Cert.ReferenceIdeal.Gen Cert.ReferenceIdeal.Read Idealize.ShloMosaic Idealize.ShloMosaic.ValueIdx Idealize.ShloMosaic.TcCoe Idealize.SL.Sem

/-- The down projection: a linear layer of the gated linear unit's result with the quantised weight — the program's result. -/
theorem out_eq (x0 : (⟨S4096x2048, .f32⟩ : BufTy).Contents (Elt Ideal)) (x1 : (⟨S2048x2048, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) (x7 : (⟨S2048x2048, .f32⟩ : BufTy).Contents (Elt Ideal)) (x8 : (⟨S2048, .f32⟩ : BufTy).Contents (Elt Ideal)) (x9 : (⟨S8192x2048, .f32⟩ : BufTy).Contents (Elt Ideal)) (x10 : (⟨S8192, .f32⟩ : BufTy).Contents (Elt Ideal)) (x11 : (⟨S8192x2048, .f32⟩ : BufTy).Contents (Elt Ideal)) (x12 : (⟨S8192, .f32⟩ : BufTy).Contents (Elt Ideal)) (x13 : (⟨S2048x8192, .f32⟩ : BufTy).Contents (Elt Ideal)) (x14 : (⟨S2048, .f32⟩ : BufTy).Contents (Elt Ideal)) (i : Fin 4096) (n : Fin 2048) :
    val_main_v97 (F := Ideal) x0 x1 x2 x3 x4 x5 x6 x7 x8 x9 x10 x11 x12 x13 x14 (ix2 i n) =
      Cert.Spec.lin (Cert.Spec.glu (Cert.Spec.lin (Cert.Spec.gru (fun i k => x0 (ix2 i k)) (fun n k => Cert.Spec.tern (x1 (ix2 n k))) (fun n => x2 (ix1 n))
        (fun n k => Cert.Spec.tern (x3 (ix2 n k))) (fun n => x4 (ix1 n)) (fun n k => Cert.Spec.tern (x5 (ix2 n k))) (fun n => x6 (ix1 n)))
        (fun n k => Cert.Spec.tern (x7 (ix2 n k))) (fun n => x8 (ix1 n)))
        (fun n k => Cert.Spec.tern (x11 (ix2 n k))) (fun n => x12 (ix1 n)) (fun n k => Cert.Spec.tern (x9 (ix2 n k))) (fun n => x10 (ix1 n))) (fun n k => Cert.Spec.tern (x13 (ix2 n k))) (fun n => x14 (ix1 n)) i n := by
  have el : ∀ k : Fin 8192, lidx_main_v94 (ix2 i n) k = ix2 i k := fun k =>
    funext fun a => Fin.ext (by match a with | ⟨0, _⟩ => rfl | ⟨1, _⟩ => rfl)
  have er : ∀ k : Fin 8192, idx_main_v93 (ridx_main_v94 (ix2 i n) k) = ix2 n k := fun k =>
    funext fun a => Fin.ext (by match a with | ⟨0, _⟩ => rfl | ⟨1, _⟩ => rfl)
  have eb : idx_main_v95 (idx_main_v96 (ix2 i n)) = ix1 n :=
    funext fun a => Fin.ext (by match a with | ⟨0, _⟩ => rfl)
  rw [val_main_v97_apply, val_main_v94_apply, val_main_v96_apply, val_main_v95_apply]
  simp only [val_main_v93_apply, val_main_v92_apply, val_main_v90_apply, val_main_v88_apply, val_main_v89_apply,
    val_main_cst_19_apply, val_main_call8_v1_apply, val_main_call8_v0_apply, val_main_cst_20_apply, val_main_v91_apply,
    el, er, eb, w_eq, Cert.Spec.lin, Cert.Spec.tern, Ideal.addf_def]

/-- The reference run's result, entry by entry, is the specification of the argument arrays. -/
theorem ref_eq (m : (ℓ : Loc Cert.ReferenceIdeal.nD Cert.ReferenceIdeal.τ Cert.ReferenceIdeal.sig) → Buf (Elt Ideal) ℓ) (c : Dev Cert.ReferenceIdeal.nD) (i : Fin 4096) (n : Fin 2048) :
    Cert.ReferenceIdeal.Value.res_main_v97 (F := Ideal) m c (ix2 i n) =
      Cert.Spec.net (fun i k => m ((c.tc : Thread Cert.ReferenceIdeal.nD Cert.ReferenceIdeal.τ).loc Cert.ReferenceIdeal.main_arg0) (ix2 i k))
        (fun n k => m ((c.tc : Thread Cert.ReferenceIdeal.nD Cert.ReferenceIdeal.τ).loc Cert.ReferenceIdeal.main_arg1) (ix2 n k)) (fun n => m ((c.tc : Thread Cert.ReferenceIdeal.nD Cert.ReferenceIdeal.τ).loc Cert.ReferenceIdeal.main_arg2) (ix1 n)) (fun n k => m ((c.tc : Thread Cert.ReferenceIdeal.nD Cert.ReferenceIdeal.τ).loc Cert.ReferenceIdeal.main_arg3) (ix2 n k)) (fun n => m ((c.tc : Thread Cert.ReferenceIdeal.nD Cert.ReferenceIdeal.τ).loc Cert.ReferenceIdeal.main_arg4) (ix1 n))
        (fun n k => m ((c.tc : Thread Cert.ReferenceIdeal.nD Cert.ReferenceIdeal.τ).loc Cert.ReferenceIdeal.main_arg5) (ix2 n k)) (fun n => m ((c.tc : Thread Cert.ReferenceIdeal.nD Cert.ReferenceIdeal.τ).loc Cert.ReferenceIdeal.main_arg6) (ix1 n)) (fun n k => m ((c.tc : Thread Cert.ReferenceIdeal.nD Cert.ReferenceIdeal.τ).loc Cert.ReferenceIdeal.main_arg7) (ix2 n k)) (fun n => m ((c.tc : Thread Cert.ReferenceIdeal.nD Cert.ReferenceIdeal.τ).loc Cert.ReferenceIdeal.main_arg8) (ix1 n))
        (fun n k => m ((c.tc : Thread Cert.ReferenceIdeal.nD Cert.ReferenceIdeal.τ).loc Cert.ReferenceIdeal.main_arg9) (ix2 n k)) (fun n => m ((c.tc : Thread Cert.ReferenceIdeal.nD Cert.ReferenceIdeal.τ).loc Cert.ReferenceIdeal.main_arg10) (ix1 n)) (fun n k => m ((c.tc : Thread Cert.ReferenceIdeal.nD Cert.ReferenceIdeal.τ).loc Cert.ReferenceIdeal.main_arg11) (ix2 n k)) (fun n => m ((c.tc : Thread Cert.ReferenceIdeal.nD Cert.ReferenceIdeal.τ).loc Cert.ReferenceIdeal.main_arg12) (ix1 n))
        (fun n k => m ((c.tc : Thread Cert.ReferenceIdeal.nD Cert.ReferenceIdeal.τ).loc Cert.ReferenceIdeal.main_arg13) (ix2 n k)) (fun n => m ((c.tc : Thread Cert.ReferenceIdeal.nD Cert.ReferenceIdeal.τ).loc Cert.ReferenceIdeal.main_arg14) (ix1 n)) i n := by
  rw [val_main_v97_eq]
  exact out_eq _ _ _ _ _ _ _ _ _ _ _ _ _ _ _ i n

end Cert.RefValue

end
-- ==== Proof.lean ====
/-
  The ternary-weight gated network: a chain of four pallas calls (the gated recurrent step from a zero state; the output projection;
  the gated linear unit; the down projection, its 8192-long contraction cut in eight pieces summed in a scratch accumulator)
  against the plain array program.

  Over the extended reals both compute, entry by entry, the same function of the arguments (Proof/Spec.lean): every weight is
  quantised to {-1, 0, 1} by the same comparison, selection and sign; a change of float format is the identity; a matrix product
  into a zero accumulator and the host's product are the same sum of products (the host's weights are transposed first, the
  kernel's are contracted on their second axis); a sum over 8192 indices is the sum of its eight consecutive pieces, added to zero
  one after the other (addition on the extended reals is associative and commutative); the reference's f · 0 + (1 − f) · c is
  (1 − f) · c because x · 0 = 0 and 0 + y = y for every extended real; its 1 / (1 + exp(−y)) is the logistic function the kernel
  applies. No law used needs finite inputs.

  The frames: each program runs to the end on every core without a fault and writes no argument — for the two kernel programs
  by following the buffer contents through fifteen stretches of host operations and the four calls (Proof/KB/Run.lean at the
  word level, Proof/KI/Run.lean over the extended reals), for the array program by its run.
-/
import proofs.«145004_j89799176225622_2_alg».proof.Defs
import proofs.«145004_j89799176225622_2_alg».proof.Proof.Gen.Kernel
import proofs.«145004_j89799176225622_2_alg».proof.Proof.Gen.KernelIdeal
import proofs.«145004_j89799176225622_2_alg».proof.Proof.Gen.ReferenceIdeal
import proofs.«145004_j89799176225622_2_alg».proof.Proof.Gen.Pre_finite_inputs
import proofs.«145004_j89799176225622_2_alg».proof.Proof.Gen.ReferenceIdeal.Run
import proofs.«145004_j89799176225622_2_alg».proof.Proof.KB.Run
import proofs.«145004_j89799176225622_2_alg».proof.Proof.KI.Run
import proofs.«145004_j89799176225622_2_alg».proof.Proof.KI.Value
import proofs.«145004_j89799176225622_2_alg».proof.Proof.RefValue

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's network of the arguments in their result array. -/
theorem algebraic : Cert.algebraic_KernelIdeal_ReferenceIdeal := by
  intro m ρ m' ρ' _ hagree
  refine ⟨fun c => Cert.KernelIdeal.Fr.W19 m c (Proc.devRef .tc Cert.KernelIdeal.main_v52), ?_, ?_⟩
  · exact (θ_run Cert.KernelIdeal.defs _ _).mono (fun r h c =>
      ⟨h c _ (Cert.KernelIdeal.Fr.mem_uc Cert.KernelIdeal.main_v52 (by decide)),
       (h c _ (Cert.KernelIdeal.Fr.mem_uc Cert.KernelIdeal.main_arg0 (by decide))).trans (Cert.KernelIdeal.Fr.W19_main_arg0 m c),
       (h c _ (Cert.KernelIdeal.Fr.mem_uc Cert.KernelIdeal.main_arg1 (by decide))).trans (Cert.KernelIdeal.Fr.W19_main_arg1 m c),
       (h c _ (Cert.KernelIdeal.Fr.mem_uc Cert.KernelIdeal.main_arg2 (by decide))).trans (Cert.KernelIdeal.Fr.W19_main_arg2 m c),
       (h c _ (Cert.KernelIdeal.Fr.mem_uc Cert.KernelIdeal.main_arg3 (by decide))).trans (Cert.KernelIdeal.Fr.W19_main_arg3 m c),
       (h c _ (Cert.KernelIdeal.Fr.mem_uc Cert.KernelIdeal.main_arg4 (by decide))).trans (Cert.KernelIdeal.Fr.W19_main_arg4 m c),
       (h c _ (Cert.KernelIdeal.Fr.mem_uc Cert.KernelIdeal.main_arg5 (by decide))).trans (Cert.KernelIdeal.Fr.W19_main_arg5 m c),
       (h c _ (Cert.KernelIdeal.Fr.mem_uc Cert.KernelIdeal.main_arg6 (by decide))).trans (Cert.KernelIdeal.Fr.W19_main_arg6 m c),
       (h c _ (Cert.KernelIdeal.Fr.mem_uc Cert.KernelIdeal.main_arg7 (by decide))).trans (Cert.KernelIdeal.Fr.W19_main_arg7 m c),
       (h c _ (Cert.KernelIdeal.Fr.mem_uc Cert.KernelIdeal.main_arg8 (by decide))).trans (Cert.KernelIdeal.Fr.W19_main_arg8 m c),
       (h c _ (Cert.KernelIdeal.Fr.mem_uc Cert.KernelIdeal.main_arg9 (by decide))).trans (Cert.KernelIdeal.Fr.W19_main_arg9 m c),
       (h c _ (Cert.KernelIdeal.Fr.mem_uc Cert.KernelIdeal.main_arg10 (by decide))).trans (Cert.KernelIdeal.Fr.W19_main_arg10 m c),
       (h c _ (Cert.KernelIdeal.Fr.mem_uc Cert.KernelIdeal.main_arg11 (by decide))).trans (Cert.KernelIdeal.Fr.W19_main_arg11 m c),
       (h c _ (Cert.KernelIdeal.Fr.mem_uc Cert.KernelIdeal.main_arg12 (by decide))).trans (Cert.KernelIdeal.Fr.W19_main_arg12 m c),
       (h c _ (Cert.KernelIdeal.Fr.mem_uc Cert.KernelIdeal.main_arg13 (by decide))).trans (Cert.KernelIdeal.Fr.W19_main_arg13 m c),
       (h c _ (Cert.KernelIdeal.Fr.mem_uc Cert.KernelIdeal.main_arg14 (by decide))).trans (Cert.KernelIdeal.Fr.W19_main_arg14 m c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    funext j
    obtain ⟨i, n, rfl⟩ : ∃ (i : Fin 4096) (n : Fin 2048), j = ix2 i n := ⟨j 0, j 1, eq_ix2 j⟩
    refine (Cert.RefValue.ref_eq m' c i n).trans (Eq.trans ?_ (Cert.KernelIdeal.Val.kernel_out_eq m c i n).symm)
    obtain ⟨a0, a1, a2, a3, a4, a5, a6, a7, a8, a9, a10, a11, a12, a13, a14⟩ := hagree c
    rw [a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
